-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  IdealRules.truncf_extf.Statement Cert.KernelIdeal.S2048x1024 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v123) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x1024 : Shape := ⟨2, ![65536, 1024]⟩
abbrev S200x1024 : Shape := ⟨2, ![200, 1024]⟩
abbrev S200 : Shape := ⟨1, ![200]⟩
abbrev S100x200 : Shape := ⟨2, ![100, 200]⟩
abbrev S100 : Shape := ⟨1, ![100]⟩
abbrev S100x100 : Shape := ⟨2, ![100, 100]⟩
abbrev S10x100 : Shape := ⟨2, ![10, 100]⟩
abbrev S10 : Shape := ⟨1, ![10]⟩
abbrev S_ : Shape := ⟨0, ![]⟩

class Facts : Prop where
  bcast_S_S65536x1024 : S_.BroadcastsInDim S65536x1024 (![] : Fin 0 → Fin S65536x1024.rank)
  reducesTo_S65536x1024_S_d0_1 : S65536x1024.ReducesTo [0, 1] S_
  h_S_ : 0 < S_.numel
  bcast_S_S200x1024 : S_.BroadcastsInDim S200x1024 (![] : Fin 0 → Fin S200x1024.rank)
  reducesTo_S200x1024_S_d0_1 : S200x1024.ReducesTo [0, 1] S_
  bcast_S_S200 : S_.BroadcastsInDim S200 (![] : Fin 0 → Fin S200.rank)
  reducesTo_S200_S_d0 : S200.ReducesTo [0] S_
  bcast_S_S100x200 : S_.BroadcastsInDim S100x200 (![] : Fin 0 → Fin S100x200.rank)
  reducesTo_S100x200_S_d0_1 : S100x200.ReducesTo [0, 1] S_
  bcast_S_S100 : S_.BroadcastsInDim S100 (![] : Fin 0 → Fin S100.rank)
  reducesTo_S100_S_d0 : S100.ReducesTo [0] S_
  bcast_S_S100x100 : S_.BroadcastsInDim S100x100 (![] : Fin 0 → Fin S100x100.rank)
  reducesTo_S100x100_S_d0_1 : S100x100.ReducesTo [0, 1] S_
  bcast_S_S10x100 : S_.BroadcastsInDim S10x100 (![] : Fin 0 → Fin S10x100.rank)
  reducesTo_S10x100_S_d0_1 : S10x100.ReducesTo [0, 1] S_
  bcast_S_S10 : S_.BroadcastsInDim S10 (![] : Fin 0 → Fin S10.rank)
  reducesTo_S10_S_d0 : S10.ReducesTo [0] S_

variable [Facts]

def fn_part4 {F : FTy → Type} [FloatOps F] (main_arg14 : FVec F S10 .f32) (main_v63 : IVec S_ 1) (main_v67 : IVec S_ 1) : IVec S_ 1 :=
  let main_v68 : IVec S_ 1 := andi main_v63 main_v67
  let main_v69 : FVec F S10 .f32 := Host.absf main_arg14
  let main_cst_26 : FVec F S_ .f32 := constant S_ .f32 0x7F800000#32
  let main_v70 : FVec F S10 .f32 := broadcastInDim S10 ![] bcast_S_S10 main_cst_26
  let main_v71 : IVec S10 1 := cmpf .olt main_v69 main_v70
  let main_c_27 : IVec S_ 1 := constantI S_ 1 1#1
  let main_v72 : IVec S_ 1 := (fun x v => Host.reduce IntOp.andi x v reducesTo_S10_S_d0 h_S_) main_v71 main_c_27
  let main_v73 : IVec S_ 1 := andi main_v68 main_v72
  main_v73

def fn_part3 {F : FTy → Type} [FloatOps F] (main_arg11 : FVec F S100 .f32) (main_arg12 : FVec F S100 .f32) (main_arg13 : FVec F S10x100 .f32) (main_arg14 : FVec F S10 .f32) (main_v48 : IVec S_ 1) (main_v49 : FVec F S100 .f32) (main_v50 : FVec F S100 .f32) : IVec S_ 1 :=
  let main_v51 : IVec S100 1 := cmpf .olt main_v49 main_v50
  let main_c_19 : IVec S_ 1 := constantI S_ 1 1#1
  let main_v52 : IVec S_ 1 := (fun x v => Host.reduce IntOp.andi x v reducesTo_S100_S_d0 h_S_) main_v51 main_c_19
  let main_v53 : IVec S_ 1 := andi main_v48 main_v52
  let main_v54 : FVec F S100 .f32 := Host.absf main_arg11
  let main_cst_20 : FVec F S_ .f32 := constant S_ .f32 0x7F800000#32
  let main_v55 : FVec F S100 .f32 := broadcastInDim S100 ![] bcast_S_S100 main_cst_20
  let main_v56 : IVec S100 1 := cmpf .olt main_v54 main_v55
  let main_c_21 : IVec S_ 1 := constantI S_ 1 1#1
  let main_v57 : IVec S_ 1 := (fun x v => Host.reduce IntOp.andi x v reducesTo_S100_S_d0 h_S_) main_v56 main_c_21
  let main_v58 : IVec S_ 1 := andi main_v53 main_v57
  let main_v59 : FVec F S100 .f32 := Host.absf main_arg12
  let main_cst_22 : FVec F S_ .f32 := constant S_ .f32 0x7F800000#32
  let main_v60 : FVec F S100 .f32 := broadcastInDim S100 ![] bcast_S_S100 main_cst_22
  let main_v61 : IVec S100 1 := cmpf .olt main_v59 main_v60
  let main_c_23 : IVec S_ 1 := constantI S_ 1 1#1
  let main_v62 : IVec S_ 1 := (fun x v => Host.reduce IntOp.andi x v reducesTo_S100_S_d0 h_S_) main_v61 main_c_23
  let main_v63 : IVec S_ 1 := andi main_v58 main_v62
  let main_v64 : FVec F S10x100 .f32 := Host.absf main_arg13
  let main_cst_24 : FVec F S_ .f32 := constant S_ .f32 0x7F800000#32
  let main_v65 : FVec F S10x100 .f32 := broadcastInDim S10x100 ![] bcast_S_S10x100 main_cst_24
  let main_v66 : IVec S10x100 1 := cmpf .olt main_v64 main_v65
  let main_c_25 : IVec S_ 1 := constantI S_ 1 1#1
  let main_v67 : IVec S_ 1 := (fun x v => Host.reduce IntOp.andi x v reducesTo_S10x100_S_d0_1 h_S_) main_v66 main_c_25
  fn_part4 (F := F) main_arg14 main_v63 main_v67

def fn_part2 {F : FTy → Type} [FloatOps F] (main_arg7 : FVec F S100 .f32) (main_arg8 : FVec F S100 .f32) (main_arg9 : FVec F S100x100 .f32) (main_arg10 : FVec F S100 .f32) (main_arg11 : FVec F S100 .f32) (main_arg12 : FVec F S100 .f32) (main_arg13 : FVec F S10x100 .f32) (main_arg14 : FVec F S10 .f32) (main_v33 : IVec S_ 1) : IVec S_ 1 :=
  let main_v34 : FVec F S100 .f32 := Host.absf main_arg7
  let main_cst_12 : FVec F S_ .f32 := constant S_ .f32 0x7F800000#32
  let main_v35 : FVec F S100 .f32 := broadcastInDim S100 ![] bcast_S_S100 main_cst_12
  let main_v36 : IVec S100 1 := cmpf .olt main_v34 main_v35
  let main_c_13 : IVec S_ 1 := constantI S_ 1 1#1
  let main_v37 : IVec S_ 1 := (fun x v => Host.reduce IntOp.andi x v reducesTo_S100_S_d0 h_S_) main_v36 main_c_13
  let main_v38 : IVec S_ 1 := andi main_v33 main_v37
  let main_v39 : FVec F S100 .f32 := Host.absf main_arg8
  let main_cst_14 : FVec F S_ .f32 := constant S_ .f32 0x7F800000#32
  let main_v40 : FVec F S100 .f32 := broadcastInDim S100 ![] bcast_S_S100 main_cst_14
  let main_v41 : IVec S100 1 := cmpf .olt main_v39 main_v40
  let main_c_15 : IVec S_ 1 := constantI S_ 1 1#1
  let main_v42 : IVec S_ 1 := (fun x v => Host.reduce IntOp.andi x v reducesTo_S100_S_d0 h_S_) main_v41 main_c_15
  let main_v43 : IVec S_ 1 := andi main_v38 main_v42
  let main_v44 : FVec F S100x100 .f32 := Host.absf main_arg9
  let main_cst_16 : FVec F S_ .f32 := constant S_ .f32 0x7F800000#32
  let main_v45 : FVec F S100x100 .f32 := broadcastInDim S100x100 ![] bcast_S_S100x100 main_cst_16
  let main_v46 : IVec S100x100 1 := cmpf .olt main_v44 main_v45
  let main_c_17 : IVec S_ 1 := constantI S_ 1 1#1
  let main_v47 : IVec S_ 1 := (fun x v => Host.reduce IntOp.andi x v reducesTo_S100x100_S_d0_1 h_S_) main_v46 main_c_17
  let main_v48 : IVec S_ 1 := andi main_v43 main_v47
  let main_v49 : FVec F S100 .f32 := Host.absf main_arg10
  let main_cst_18 : FVec F S_ .f32 := constant S_ .f32 0x7F800000#32
  let main_v50 : FVec F S100 .f32 := broadcastInDim S100 ![] bcast_S_S100 main_cst_18
  fn_part3 (F := F) main_arg11 main_arg12 main_arg13 main_arg14 main_v48 main_v49 main_v50

def fn_part1 {F : FTy → Type} [FloatOps F] (main_arg4 : FVec F S200 .f32) (main_arg5 : FVec F S100x200 .f32) (main_arg6 : FVec F S100 .f32) (main_arg7 : FVec F S100 .f32) (main_arg8 : FVec F S100 .f32) (main_arg9 : FVec F S100x100 .f32) (main_arg10 : FVec F S100 .f32) (main_arg11 : FVec F S100 .f32) (main_arg12 : FVec F S100 .f32) (main_arg13 : FVec F S10x100 .f32) (main_arg14 : FVec F S10 .f32) (main_v13 : IVec S_ 1) (main_v16 : IVec S200 1) : IVec S_ 1 :=
  let main_c_5 : IVec S_ 1 := constantI S_ 1 1#1
  let main_v17 : IVec S_ 1 := (fun x v => Host.reduce IntOp.andi x v reducesTo_S200_S_d0 h_S_) main_v16 main_c_5
  let main_v18 : IVec S_ 1 := andi main_v13 main_v17
  let main_v19 : FVec F S200 .f32 := Host.absf main_arg4
  let main_cst_6 : FVec F S_ .f32 := constant S_ .f32 0x7F800000#32
  let main_v20 : FVec F S200 .f32 := broadcastInDim S200 ![] bcast_S_S200 main_cst_6
  let main_v21 : IVec S200 1 := cmpf .olt main_v19 main_v20
  let main_c_7 : IVec S_ 1 := constantI S_ 1 1#1
  let main_v22 : IVec S_ 1 := (fun x v => Host.reduce IntOp.andi x v reducesTo_S200_S_d0 h_S_) main_v21 main_c_7
  let main_v23 : IVec S_ 1 := andi main_v18 main_v22
  let main_v24 : FVec F S100x200 .f32 := Host.absf main_arg5
  let main_cst_8 : FVec F S_ .f32 := constant S_ .f32 0x7F800000#32
  let main_v25 : FVec F S100x200 .f32 := broadcastInDim S100x200 ![] bcast_S_S100x200 main_cst_8
  let main_v26 : IVec S100x200 1 := cmpf .olt main_v24 main_v25
  let main_c_9 : IVec S_ 1 := constantI S_ 1 1#1
  let main_v27 : IVec S_ 1 := (fun x v => Host.reduce IntOp.andi x v reducesTo_S100x200_S_d0_1 h_S_) main_v26 main_c_9
  let main_v28 : IVec S_ 1 := andi main_v23 main_v27
  let main_v29 : FVec F S100 .f32 := Host.absf main_arg6
  let main_cst_10 : FVec F S_ .f32 := constant S_ .f32 0x7F800000#32
  let main_v30 : FVec F S100 .f32 := broadcastInDim S100 ![] bcast_S_S100 main_cst_10
  let main_v31 : IVec S100 1 := cmpf .olt main_v29 main_v30
  let main_c_11 : IVec S_ 1 := constantI S_ 1 1#1
  let main_v32 : IVec S_ 1 := (fun x v => Host.reduce IntOp.andi x v reducesTo_S100_S_d0 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S65536x1024 .f32) (main_arg1 : FVec F S200x1024 .f32) (main_arg2 : FVec F S200 .f32) (main_arg3 : FVec F S200 .f32) (main_arg4 : FVec F S200 .f32) (main_arg5 : FVec F S100x200 .f32) (main_arg6 : FVec F S100 .f32) (main_arg7 : FVec F S100 .f32) (main_arg8 : FVec F S100 .f32) (main_arg9 : FVec F S100x100 .f32) (main_arg10 : FVec F S100 .f32) (main_arg11 : FVec F S100 .f32) (main_arg12 : FVec F S100 .f32) (main_arg13 : FVec F S10x100 .f32) (main_arg14 : FVec F S10 .f32) : IVec S_ 1 :=
  let main_v0 : FVec F S65536x1024 .f32 := Host.absf main_arg0
  let main_cst : FVec F S_ .f32 := constant S_ .f32 0x7F800000#32
  let main_v1 : FVec F S65536x1024 .f32 := broadcastInDim S65536x1024 ![] bcast_S_S65536x1024 main_cst
  let main_v2 : IVec S65536x1024 1 := cmpf .olt main_v0 main_v1
  let main_c : IVec S_ 1 := constantI S_ 1 1#1
  let main_v3 : IVec S_ 1 := (fun x v => Host.reduce IntOp.andi x v reducesTo_S65536x1024_S_d0_1 h_S_) main_v2 main_c
  let main_v4 : FVec F S200x1024 .f32 := Host.absf main_arg1
  let main_cst_0 : FVec F S_ .f32 := constant S_ .f32 0x7F800000#32
  let main_v5 : FVec F S200x1024 .f32 := broadcastInDim S200x1024 ![] bcast_S_S200x1024 main_cst_0
  let main_v6 : IVec S200x1024 1 := cmpf .olt main_v4 main_v5
  let main_c_1 : IVec S_ 1 := constantI S_ 1 1#1
  let main_v7 : IVec S_ 1 := (fun x v => Host.reduce IntOp.andi x v reducesTo_S200x1024_S_d0_1 h_S_) main_v6 main_c_1
  let main_v8 : IVec S_ 1 := andi main_v3 main_v7
  let main_v9 : FVec F S200 .f32 := Host.absf main_arg2
  let main_cst_2 : FVec F S_ .f32 := constant S_ .f32 0x7F800000#32
  let main_v10 : FVec F S200 .f32 := broadcastInDim S200 ![] bcast_S_S200 main_cst_2
  let main_v11 : IVec S200 1 := cmpf .olt main_v9 main_v10
  let main_c_3 : IVec S_ 1 := constantI S_ 1 1#1
  let main_v12 : IVec S_ 1 := (fun x v => Host.reduce IntOp.andi x v reducesTo_S200_S_d0 h_S_) main_v11 main_c_3
  let main_v13 : IVec S_ 1 := andi main_v8 main_v12
  let main_v14 : FVec F S200 .f32 := Host.absf main_arg3
  let main_cst_4 : FVec F S_ .f32 := constant S_ .f32 0x7F800000#32
  let main_v15 : FVec F S200 .f32 := broadcastInDim S200 ![] bcast_S_S200 main_cst_4
  let main_v16 : IVec S200 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S65536x1024 : Shape := ⟨2, ![65536, 1024]⟩
abbrev S200x1024 : Shape := ⟨2, ![200, 1024]⟩
abbrev S200 : Shape := ⟨1, ![200]⟩
abbrev S100x200 : Shape := ⟨2, ![100, 200]⟩
abbrev S100 : Shape := ⟨1, ![100]⟩
abbrev S100x100 : Shape := ⟨2, ![100, 100]⟩
abbrev S10x100 : Shape := ⟨2, ![10, 100]⟩
abbrev S10 : Shape := ⟨1, ![10]⟩
abbrev S1x200 : Shape := ⟨2, ![1, 200]⟩
abbrev S65536x200 : Shape := ⟨2, ![65536, 200]⟩
abbrev S32x1x200 : Shape := ⟨3, ![32, 1, 200]⟩
abbrev S2048x1024 : Shape := ⟨2, ![2048, 1024]⟩
abbrev S2048x200 : Shape := ⟨2, ![2048, 200]⟩
abbrev S1x1x200 : Shape := ⟨3, ![1, 1, 200]⟩
abbrev S_ : Shape := ⟨0, ![]⟩
abbrev S1x100 : Shape := ⟨2, ![1, 100]⟩
abbrev S65536x100 : Shape := ⟨2, ![65536, 100]⟩
abbrev S16x1x100 : Shape := ⟨3, ![16, 1, 100]⟩
abbrev S4096x200 : Shape := ⟨2, ![4096, 200]⟩
abbrev S4096x100 : Shape := ⟨2, ![4096, 100]⟩
abbrev S1x1x100 : Shape := ⟨3, ![1, 1, 100]⟩
abbrev S1x10 : Shape := ⟨2, ![1, 10]⟩
abbrev S65536x10 : Shape := ⟨2, ![65536, 10]⟩
abbrev S4096x10 : Shape := ⟨2, ![4096, 10]⟩
abbrev S4096 : Shape := ⟨1, ![4096]⟩
abbrev S4096x1 : Shape := ⟨2, ![4096, 1]⟩

abbrev nBuf : Space → Nat
  | .hbm => 77
  | .vmem => 48
  | .smem => 0
  | _ => 0

abbrev bufTy : (tb : Table) → Fin (tcTables nBuf tb) → BufTy
  | .hbm, ⟨0, _⟩ => ⟨S65536x1024, .f32⟩
  | .hbm, ⟨1, _⟩ => ⟨S200x1024, .f32⟩
  | .hbm, ⟨2, _⟩ => ⟨S200, .f32⟩
  | .hbm, ⟨3, _⟩ => ⟨S200, .f32⟩
  | .hbm, ⟨4, _⟩ => ⟨S200, .f32⟩
  | .hbm, ⟨5, _⟩ => ⟨S100x200, .f32⟩
  | .hbm, ⟨6, _⟩ => ⟨S100, .f32⟩
  | .hbm, ⟨7, _⟩ => ⟨S100, .f32⟩
  | .hbm, ⟨8, _⟩ => ⟨S100, .f32⟩
  | .hbm, ⟨9, _⟩ => ⟨S100x100, .f32⟩
  | .hbm, ⟨10, _⟩ => ⟨S100, .f32⟩
  | .hbm, ⟨11, _⟩ => ⟨S100, .f32⟩
  | .hbm, ⟨12, _⟩ => ⟨S100, .f32⟩
  | .hbm, ⟨13, _⟩ => ⟨S10x100, .f32⟩
  | .hbm, ⟨14, _⟩ => ⟨S10, .f32⟩
  | .hbm, ⟨15, _⟩ => ⟨S1x200, .f32⟩
  | .hbm, ⟨16, _⟩ => ⟨S65536x200, .f32⟩
  | .hbm, ⟨17, _⟩ => ⟨S32x1x200, .f32⟩
  | .hbm, ⟨18, _⟩ => ⟨S32x1x200, .f32⟩
  | .hbm, ⟨19, _⟩ => ⟨S_, .f32⟩
  | .hbm, ⟨20, _⟩ => ⟨S200, .f32⟩
  | .hbm, ⟨21, _⟩ => ⟨S_, .f32⟩
  | .hbm, ⟨22, _⟩ => ⟨S200, .f32⟩
  | .hbm, ⟨23, _⟩ => ⟨S200, .f32⟩
  | .hbm, ⟨24, _⟩ => ⟨S_, .f32⟩
  | .hbm, ⟨25, _⟩ => ⟨S200, .f32⟩
  | .hbm, ⟨26, _⟩ => ⟨S_, .f32⟩
  | .hbm, ⟨27, _⟩ => ⟨S200, .f32⟩
  | .hbm, ⟨28, _⟩ => ⟨S200, .f32⟩
  | .hbm, ⟨29, _⟩ => ⟨S200, .f32⟩
  | .hbm, ⟨30, _⟩ => ⟨S200, .f32⟩
  | .hbm, ⟨31, _⟩ => ⟨S1x200, .f32⟩
  | .hbm, ⟨32, _⟩ => ⟨S1x200, .f32⟩
  | .hbm, ⟨33, _⟩ => ⟨S1x200, .f32⟩
  | .hbm, ⟨34, _⟩ => ⟨S1x200, .f32⟩
  | .hbm, ⟨35, _⟩ => ⟨S1x100, .f32⟩
  | .hbm, ⟨36, _⟩ => ⟨S65536x100, .f32⟩
  | .hbm, ⟨37, _⟩ => ⟨S16x1x100, .f32⟩
  | .hbm, ⟨38, _⟩ => ⟨S16x1x100, .f32⟩
  | .hbm, ⟨39, _⟩ => ⟨S_, .f32⟩
  | .hbm, ⟨40, _⟩ => ⟨S100, .f32⟩
  | .hbm, ⟨41, _⟩ => ⟨S_, .f32⟩
  | .hbm, ⟨42, _⟩ => ⟨S100, .f32⟩
  | .hbm, ⟨43, _⟩ => ⟨S100, .f32⟩
  | .hbm, ⟨44, _⟩ => ⟨S_, .f32⟩
  | .hbm, ⟨45, _⟩ => ⟨S100, .f32⟩
  | .hbm, ⟨46, _⟩ => ⟨S_, .f32⟩
  | .hbm, ⟨47, _⟩ => ⟨S100, .f32⟩
  | .hbm, ⟨48, _⟩ => ⟨S100, .f32⟩
  | .hbm, ⟨49, _⟩ => ⟨S100, .f32⟩
  | .hbm, ⟨50, _⟩ => ⟨S100, .f32⟩
  | .hbm, ⟨51, _⟩ => ⟨S1x100, .f32⟩
  | .hbm, ⟨52, _⟩ => ⟨S1x100, .f32⟩
  | .hbm, ⟨53, _⟩ => ⟨S1x100, .f32⟩
  | .hbm, ⟨54, _⟩ => ⟨S1x100, .f32⟩
  | .hbm, ⟨55, _⟩ => ⟨S1x100, .f32⟩
  | .hbm, ⟨56, _⟩ => ⟨S65536x100, .f32⟩
  | .hbm, ⟨57, _⟩ => ⟨S16x1x100, .f32⟩
  | .hbm, ⟨58, _⟩ => ⟨S16x1x100, .f32⟩
  | .hbm, ⟨59, _⟩ => ⟨S_, .f32⟩
  | .hbm, ⟨60, _⟩ => ⟨S100, .f32⟩
  | .hbm, ⟨61, _⟩ => ⟨S_, .f32⟩
  | .hbm, ⟨62, _⟩ => ⟨S100, .f32⟩
  | .hbm, ⟨63, _⟩ => ⟨S100, .f32⟩
  | .hbm, ⟨64, _⟩ => ⟨S_, .f32⟩
  | .hbm, ⟨65, _⟩ => ⟨S100, .f32⟩
  | .hbm, ⟨66, _⟩ => ⟨S_, .f32⟩
  | .hbm, ⟨67, _⟩ => ⟨S100, .f32⟩
  | .hbm, ⟨68, _⟩ => ⟨S100, .f32⟩
  | .hbm, ⟨69, _⟩ => ⟨S100, .f32⟩
  | .hbm, ⟨70, _⟩ => ⟨S100, .f32⟩
  | .hbm, ⟨71, _⟩ => ⟨S1x100, .f32⟩
  | .hbm, ⟨72, _⟩ => ⟨S1x100, .f32⟩
  | .hbm, ⟨73, _⟩ => ⟨S1x100, .f32⟩
  | .hbm, ⟨74, _⟩ => ⟨S1x100, .f32⟩
  | .hbm, ⟨75, _⟩ => ⟨S1x10, .f32⟩
  | .hbm, ⟨76, _⟩ => ⟨S65536x10, .f32⟩
  | .local _ .vmem, ⟨0, _⟩ => ⟨S2048x1024, .f32⟩
  | .local _ .vmem, ⟨1, _⟩ => ⟨S2048x1024, .f32⟩
  | .local _ .vmem, ⟨2, _⟩ => ⟨S200x1024, .f32⟩
  | .local _ .vmem, ⟨3, _⟩ => ⟨S1x200, .f32⟩
  | .local _ .vmem, ⟨4, _⟩ => ⟨S2048x200, .f32⟩
  | .local _ .vmem, ⟨5, _⟩ => ⟨S2048x200, .f32⟩
  | .local _ .vmem, ⟨6, _⟩ => ⟨S1x1x200, .f32⟩
  | .local _ .vmem, ⟨7, _⟩ => ⟨S1x1x200, .f32⟩
  | .local _ .vmem, ⟨8, _⟩ => ⟨S1x1x200, .f32⟩
  | .local _ .vmem, ⟨9, _⟩ => ⟨S1x1x200, .f32⟩
  | .local _ .vmem, ⟨10, _⟩ => ⟨S4096x200, .f32⟩
  | .local _ .vmem, ⟨11, _⟩ => ⟨S4096x200, .f32⟩
  | .local _ .vmem, ⟨12, _⟩ => ⟨S1x200, .f32⟩
  | .local _ .vmem, ⟨13, _⟩ => ⟨S1x200, .f32⟩
  | .local _ .vmem, ⟨14, _⟩ => ⟨S1x200, .f32⟩
  | .local _ .vmem, ⟨15, _⟩ => ⟨S1x200, .f32⟩
  | .local _ .vmem, ⟨16, _⟩ => ⟨S100x200, .f32⟩
  | .local _ .vmem, ⟨17, _⟩ => ⟨S1x100, .f32⟩
  | .local _ .vmem, ⟨18, _⟩ => ⟨S4096x100, .f32⟩
  | .local _ .vmem, ⟨19, _⟩ => ⟨S4096x100, .f32⟩
  | .local _ .vmem, ⟨20, _⟩ => ⟨S1x1x100, .f32⟩
  | .local _ .vmem, ⟨21, _⟩ => ⟨S1x1x100, .f32⟩
  | .local _ .vmem, ⟨22, _⟩ => ⟨S1x1x100, .f32⟩
  | .local _ .vmem, ⟨23, _⟩ => ⟨S1x1x100, .f32⟩
  | .local _ .vmem, ⟨24, _⟩ => ⟨S4096x100, .f32⟩
  | .local _ .vmem, ⟨25, _⟩ => ⟨S4096x100, .f32⟩
  | .local _ .vmem, ⟨26, _⟩ => ⟨S1x100, .f32⟩
  | .local _ .vmem, ⟨27, _⟩ => ⟨S1x100, .f32⟩
  | .local _ .vmem, ⟨28, _⟩ => ⟨S1x100, .f32⟩
  | .local _ .vmem, ⟨29, _⟩ => ⟨S1x100, .f32⟩
  | .local _ .vmem, ⟨30, _⟩ => ⟨S100x100, .f32⟩
  | .local _ .vmem, ⟨31, _⟩ => ⟨S1x100, .f32⟩
  | .local _ .vmem, ⟨32, _⟩ => ⟨S4096x100, .f32⟩
  | .local _ .vmem, ⟨33, _⟩ => ⟨S4096x100, .f32⟩
  | .local _ .vmem, ⟨34, _⟩ => ⟨S1x1x100, .f32⟩
  | .local _ .vmem, ⟨35, _⟩ => ⟨S1x1x100, .f32⟩
  | .local _ .vmem, ⟨36, _⟩ => ⟨S1x1x100, .f32⟩
  | .local _ .vmem, ⟨37, _⟩ => ⟨S1x1x100, .f32⟩
  | .local _ .vmem, ⟨38, _⟩ => ⟨S4096x100, .f32⟩
  | .local _ .vmem, ⟨39, _⟩ => ⟨S4096x100, .f32⟩
  | .local _ .vmem, ⟨40, _⟩ => ⟨S1x100, .f32⟩
  | .local _ .vmem, ⟨41, _⟩ => ⟨S1x100, .f32⟩
  | .local _ .vmem, ⟨42, _⟩ => ⟨S1x100, .f32⟩
  | .local _ .vmem, ⟨43, _⟩ => ⟨S1x100, .f32⟩
  | .local _ .vmem, ⟨44, _⟩ => ⟨S10x100, .f32⟩
  | .local _ .vmem, ⟨45, _⟩ => ⟨S1x10, .f32⟩
  | .local _ .vmem, ⟨46, _⟩ => ⟨S4096x10, .f32⟩
  | .local _ .vmem, ⟨47, _⟩ => ⟨S4096x10, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1_0 : Ref sig .tc := ⟨.hbm, 16, rfl⟩
abbrev main_v1_1 : Ref sig .tc := ⟨.hbm, 17, rfl⟩
abbrev main_v1_2 : Ref sig .tc := ⟨.hbm, 18, rfl⟩
abbrev main_cst : Ref sig .tc := ⟨.hbm, 19, rfl⟩
abbrev main_v2 : Ref sig .tc := ⟨.hbm, 20, rfl⟩
abbrev main_cst_0 : Ref sig .tc := ⟨.hbm, 21, rfl⟩
abbrev main_v3 : Ref sig .tc := ⟨.hbm, 22, rfl⟩
abbrev main_v4 : Ref sig .tc := ⟨.hbm, 23, rfl⟩
abbrev main_cst_1 : Ref sig .tc := ⟨.hbm, 24, rfl⟩
abbrev main_v5 : Ref sig .tc := ⟨.hbm, 25, rfl⟩
abbrev main_cst_2 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15_0 : Ref sig .tc := ⟨.hbm, 36, rfl⟩
abbrev main_v15_1 : Ref sig .tc := ⟨.hbm, 37, rfl⟩
abbrev main_v15_2 : Ref sig .tc := ⟨.hbm, 38, rfl⟩
abbrev main_cst_3 : Ref sig .tc := ⟨.hbm, 39, rfl⟩
abbrev main_v16 : Ref sig .tc := ⟨.hbm, 40, rfl⟩
abbrev main_cst_4 : Ref sig .tc := ⟨.hbm, 41, rfl⟩
abbrev main_v17 : Ref sig .tc := ⟨.hbm, 42, rfl⟩
abbrev main_v18 : Ref sig .tc := ⟨.hbm, 43, rfl⟩
abbrev main_cst_5 : Ref sig .tc := ⟨.hbm, 44, rfl⟩
abbrev main_v19 : Ref sig .tc := ⟨.hbm, 45, rfl⟩
abbrev main_cst_6 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29_0 : Ref sig .tc := ⟨.hbm, 56, rfl⟩
abbrev main_v29_1 : Ref sig .tc := ⟨.hbm, 57, rfl⟩
abbrev main_v29_2 : Ref sig .tc := ⟨.hbm, 58, rfl⟩
abbrev main_cst_7 : Ref sig .tc := ⟨.hbm, 59, rfl⟩
abbrev main_v30 : Ref sig .tc := ⟨.hbm, 60, rfl⟩
abbrev main_cst_8 : Ref sig .tc := ⟨.hbm, 61, rfl⟩
abbrev main_v31 : Ref sig .tc := ⟨.hbm, 62, rfl⟩
abbrev main_v32 : Ref sig .tc := ⟨.hbm, 63, rfl⟩
abbrev main_cst_9 : Ref sig .tc := ⟨.hbm, 64, rfl⟩
abbrev main_v33 : Ref sig .tc := ⟨.hbm, 65, rfl⟩
abbrev main_cst_10 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg7_1 : Ref sig .tc := ⟨.vmem, 19, rfl⟩
abbrev cc1_stg8_0 : Ref sig .tc := ⟨.vmem, 20, rfl⟩
abbrev cc1_stg8_1 : Ref sig .tc := ⟨.vmem, 21, rfl⟩
abbrev cc1_stg9_0 : Ref sig .tc := ⟨.vmem, 22, rfl⟩
abbrev cc1_stg9_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg2_0 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg7_0 : Ref sig .tc := ⟨.vmem, 32, rfl⟩
abbrev cc2_stg7_1 : Ref sig .tc := ⟨.vmem, 33, rfl⟩
abbrev cc2_stg8_0 : Ref sig .tc := ⟨.vmem, 34, rfl⟩
abbrev cc2_stg8_1 : Ref sig .tc := ⟨.vmem, 35, rfl⟩
abbrev cc2_stg9_0 : Ref sig .tc := ⟨.vmem, 36, rfl⟩
abbrev cc2_stg9_1 : Ref sig .tc := ⟨.vmem, 37, rfl⟩
abbrev cc3_stg0_0 : Ref sig .tc := ⟨.vmem, 38, rfl⟩
abbrev cc3_stg0_1 : Ref sig .tc := ⟨.vmem, 39, rfl⟩
abbrev cc3_stg1_0 : Ref sig .tc := ⟨.vmem, 40, rfl⟩
abbrev cc3_stg2_0 : Ref sig .tc := ⟨.vmem, 41, rfl⟩
abbrev cc3_stg3_0 : Ref sig .tc := ⟨.vmem, 42, rfl⟩
abbrev cc3_stg4_0 : Ref sig .tc := ⟨.vmem, 43, rfl⟩
abbrev cc3_stg5_0 : Ref sig .tc := ⟨.vmem, 44, rfl⟩
abbrev cc3_stg6_0 : Ref sig .tc := ⟨.vmem, 45, rfl⟩
abbrev cc3_stg7_0 : Ref sig .tc := ⟨.vmem, 46, rfl⟩
abbrev cc3_stg7_1 : Ref sig .tc := ⟨.vmem, 47, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem7_1 : DmaSem sig := 19
abbrev cc1_sem8_0 : DmaSem sig := 20
abbrev cc1_sem8_1 : DmaSem sig := 21
abbrev cc1_sem9_0 : DmaSem sig := 22
abbrev cc1_sem9_1 : DmaSem sig := 23
abbrev cc2_sem0_0 : DmaSem sig := 24
abbrev cc2_sem0_1 : DmaSem sig := 25
abbrev cc2_sem1_0 : DmaSem sig := 26
abbrev cc2_sem2_0 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem7_0 : DmaSem sig := 32
abbrev cc2_sem7_1 : DmaSem sig := 33
abbrev cc2_sem8_0 : DmaSem sig := 34
abbrev cc2_sem8_1 : DmaSem sig := 35
abbrev cc2_sem9_0 : DmaSem sig := 36
abbrev cc2_sem9_1 : DmaSem sig := 37
abbrev cc3_sem0_0 : DmaSem sig := 38
abbrev cc3_sem0_1 : DmaSem sig := 39
abbrev cc3_sem1_0 : DmaSem sig := 40
abbrev cc3_sem2_0 : DmaSem sig := 41
abbrev cc3_sem3_0 : DmaSem sig := 42
abbrev cc3_sem4_0 : DmaSem sig := 43
abbrev cc3_sem5_0 : DmaSem sig := 44
abbrev cc3_sem6_0 : DmaSem sig := 45
abbrev cc3_sem7_0 : DmaSem sig := 46
abbrev cc3_sem7_1 : DmaSem sig := 47

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S200x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x200 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x200 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x200 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x200 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S4096x200 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x200 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x200 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x200 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x200 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S100x200 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x100 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S4096x100 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S1x1x100 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S1x1x100 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_9 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S4096x100 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x100 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x100 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x100 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x100 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S100x100 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x100 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S4096x100 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S1x1x100 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev stage2_9 : Fin 2 → Memref sig .tc .vmem S1x1x100 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev grid3 : Pipeline.Grid := ⟨1, ![16], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4096x100 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x100 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x100 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x100 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x100 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S10x100 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x10 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S4096x10 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

class Facts₀ : Prop where
  shapeCasts_S200_S1x200 : S200.ShapeCasts S1x200
  inb_S2048x1024_S2048x1024_0_0 : ∀ a, (![0, 0] : Fin 2 → Nat) a + S2048x1024.size a ≤ S2048x1024.size a
  h_S2048x1024 : 0 < S2048x1024.numel
  bitsLt_bf16_f32 : FTy.bits .bf16 < FTy.bits .f32
  inb_S200x1024_S200x1024_0_0 : ∀ a, (![0, 0] : Fin 2 → Nat) a + S200x1024.size a ≤ S200x1024.size a
  h_S200x1024 : 0 < S200x1024.numel
  inb_S1x200_S1x200_0_0 : ∀ a, (![0, 0] : Fin 2 → Nat) a + S1x200.size a ≤ S1x200.size a
  h_S1x200 : 0 < S1x200.numel
  shapeCasts_S1x200_S1x200 : S1x200.ShapeCasts S1x200
  broadcasts_S1x200_S2048x200 : S1x200.Broadcasts S2048x200
  inb_S2048x200_S2048x200_0_0 : ∀ a, (![0, 0] : Fin 2 → Nat) a + S2048x200.size a ≤ S2048x200.size a
  h_S2048x200 : 0 < S2048x200.numel
  reduces_S2048x200_S200 : S2048x200.Reduces [0] S200
  shapeCasts_S1x200_S1x1x200 : S1x200.ShapeCasts S1x1x200
  inb_S1x1x200_S1x1x200_0_0_0 : ∀ a, (![0, 0, 0] : Fin 3 → Nat) a + S1x1x200.size a ≤ S1x1x200.size a
  h_S1x1x200 : 0 < S1x1x200.numel
  reducesTo_S32x1x200_S200_d0_1 : S32x1x200.ReducesTo [0, 1] S200
  h_S_ : 0 < S_.numel
  bcast_S_S200 : S_.BroadcastsInDim S200 (![] : Fin 0 → Fin S200.rank)
  shapeCasts_S100_S1x100 : S100.ShapeCasts S1x100
  inb_S4096x200_S4096x200_0_0 : ∀ a, (![0, 0] : Fin 2 → Nat) a + S4096x200.size a ≤ S4096x200.size a
  h_S4096x200 : 0 < S4096x200.numel
  shapeCasts_S4096x200_S4096x200 : S4096x200.ShapeCasts S4096x200
  broadcasts_S1x200_S4096x200 : S1x200.Broadcasts S4096x200
  inb_S100x200_S100x200_0_0 : ∀ a, (![0, 0] : Fin 2 → Nat) a + S100x200.size a ≤ S100x200.size a
  h_S100x200 : 0 < S100x200.numel
  inb_S1x100_S1x100_0_0 : ∀ a, (![0, 0] : Fin 2 → Nat) a + S1x100.size a ≤ S1x100.size a
  h_S1x100 : 0 < S1x100.numel
  shapeCasts_S1x100_S1x100 : S1x100.ShapeCasts S1x100
  broadcasts_S1x100_S4096x100 : S1x100.Broadcasts S4096x100
  inb_S4096x100_S4096x100_0_0 : ∀ a, (![0, 0] : Fin 2 → Nat) a + S4096x100.size a ≤ S4096x100.size a
  h_S4096x100 : 0 < S4096x100.numel
  reduces_S4096x100_S100 : S4096x100.Reduces [0] S100
  shapeCasts_S1x100_S1x1x100 : S1x100.ShapeCasts S1x1x100
  inb_S1x1x100_S1x1x100_0_0_0 : ∀ a, (![0, 0, 0] : Fin 3 → Nat) a + S1x1x100.size a ≤ S1x1x100.size a
  h_S1x1x100 : 0 < S1x1x100.numel
  reducesTo_S16x1x100_S100_d0_1 : S16x1x100.ReducesTo [0, 1] S100
  bcast_S_S100 : S_.BroadcastsInDim S100 (![] : Fin 0 → Fin S100.rank)
  shapeCasts_S4096x100_S4096x100 : S4096x100.ShapeCasts S4096x100
  inb_S100x100_S100x100_0_0 : ∀ a, (![0, 0] : Fin 2 → Nat) a + S100x100.size a ≤ S100x100.size a
  h_S100x100 : 0 < S100x100.numel
  shapeCasts_S10_S1x10 : S10.ShapeCasts S1x10
  inb_S10x100_S10x100_0_0 : ∀ a, (![0, 0] : Fin 2 → Nat) a + S10x100.size a ≤ S10x100.size a
  h_S10x100 : 0 < S10x100.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S4096x10 : S1x10.Broadcasts S4096x10
  reduces_S4096x10_S4096 : S4096x10.Reduces [1] S4096
  shapeCasts_S4096_S4096x1 : S4096.ShapeCasts S4096x1
  broadcasts_S4096x1_S4096x10 : S4096x1.Broadcasts S4096x10
  inb_S4096x10_S4096x10_0_0 : ∀ a, (![0, 0] : Fin 2 → Nat) a + S4096x10.size a ≤ S4096x10.size a
  h_S4096x10 : 0 < S4096x10.numel
  dot_S2048x1024_S200x1024_S2048x200_1_1_0_0_n_n_wf : DotDims.WF S2048x1024 S200x1024 S2048x200 [1] [1] [0] [0] [] []
  dot_S4096x200_S100x200_S4096x100_1_1_0_0_n_n_wf : DotDims.WF S4096x200 S100x200 S4096x100 [1] [1] [0] [0] [] []
  dot_S4096x100_S100x100_S4096x100_1_1_0_0_n_n_wf : DotDims.WF S4096x100 S100x100 S4096x100 [1] [1] [0] [0] [] []
  dot_S4096x100_S10x100_S4096x10_1_1_0_0_n_n_wf : DotDims.WF S4096x100 S10x100 S4096x10 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S65536x1024.size a
  hwx0_0 : ∀ i : grid0.Coords, EltTy.bits .f32 = 32 ∨ (Rect.block (s := S65536x1024) S2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S200x1024.size a ≤ S200x1024.size a
  hwx0_1 : ∀ i : grid0.Coords, EltTy.bits .f32 = 32 ∨ (Rect.block (s := S200x1024) S200x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x200.size a ≤ S1x200.size a
  hwx0_2 : ∀ i : grid0.Coords, EltTy.bits .f32 = 32 ∨ (Rect.block (s := S1x200) S1x200.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x200.size a ≤ S65536x200.size a
  hwx0_3 : ∀ i : grid0.Coords, EltTy.bits .f32 = 32 ∨ (Rect.block (s := S65536x200) S2048x200.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x200.size a ≤ S32x1x200.size a
  hwx0_4 : ∀ i : grid0.Coords, EltTy.bits .f32 = 32 ∨ (Rect.block (s := S32x1x200) S1x1x200.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x200.size a ≤ S32x1x200.size a
  hwx0_5 : ∀ i : grid0.Coords, EltTy.bits .f32 = 32 ∨ (Rect.block (s := S32x1x200) S1x1x200.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x200.size a ≤ S65536x200.size a
  hwx1_0 : ∀ i : grid1.Coords, EltTy.bits .f32 = 32 ∨ (Rect.block (s := S65536x200) S4096x200.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x200.size a ≤ S1x200.size a
  hwx1_1 : ∀ i : grid1.Coords, EltTy.bits .f32 = 32 ∨ (Rect.block (s := S1x200) S1x200.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x200.size a ≤ S1x200.size a
  hwx1_2 : ∀ i : grid1.Coords, EltTy.bits .f32 = 32 ∨ (Rect.block (s := S1x200) S1x200.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x200.size a ≤ S1x200.size a
  hwx1_3 : ∀ i : grid1.Coords, EltTy.bits .f32 = 32 ∨ (Rect.block (s := S1x200) S1x200.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x200.size a ≤ S1x200.size a
  hwx1_4 : ∀ i : grid1.Coords, EltTy.bits .f32 = 32 ∨ (Rect.block (s := S1x200) S1x200.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S100x200.size a ≤ S100x200.size a
  hwx1_5 : ∀ i : grid1.Coords, EltTy.bits .f32 = 32 ∨ (Rect.block (s := S100x200) S100x200.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x100.size a ≤ S1x100.size a
  hwx1_6 : ∀ i : grid1.Coords, EltTy.bits .f32 = 32 ∨ (Rect.block (s := S1x100) S1x100.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S4096x100.size a ≤ S65536x100.size a
  hwx1_7 : ∀ i : grid1.Coords, EltTy.bits .f32 = 32 ∨ (Rect.block (s := S65536x100) S4096x100.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S1x1x100.size a ≤ S16x1x100.size a
  hwx1_8 : ∀ i : grid1.Coords, EltTy.bits .f32 = 32 ∨ (Rect.block (s := S16x1x100) S1x1x100.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S1x1x100.size a ≤ S16x1x100.size a
  hwx1_9 : ∀ i : grid1.Coords, EltTy.bits .f32 = 32 ∨ (Rect.block (s := S16x1x100) S1x1x100.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4096x100.size a ≤ S65536x100.size a
  hwx2_0 : ∀ i : grid2.Coords, EltTy.bits .f32 = 32 ∨ (Rect.block (s := S65536x100) S4096x100.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x100.size a ≤ S1x100.size a
  hwx2_1 : ∀ i : grid2.Coords, EltTy.bits .f32 = 32 ∨ (Rect.block (s := S1x100) S1x100.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x100.size a ≤ S1x100.size a
  hwx2_2 : ∀ i : grid2.Coords, EltTy.bits .f32 = 32 ∨ (Rect.block (s := S1x100) S1x100.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x100.size a ≤ S1x100.size a
  hwx2_3 : ∀ i : grid2.Coords, EltTy.bits .f32 = 32 ∨ (Rect.block (s := S1x100) S1x100.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x100.size a ≤ S1x100.size a
  hwx2_4 : ∀ i : grid2.Coords, EltTy.bits .f32 = 32 ∨ (Rect.block (s := S1x100) S1x100.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S100x100.size a ≤ S100x100.size a
  hwx2_5 : ∀ i : grid2.Coords, EltTy.bits .f32 = 32 ∨ (Rect.block (s := S100x100) S100x100.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x100.size a ≤ S1x100.size a
  hwx2_6 : ∀ i : grid2.Coords, EltTy.bits .f32 = 32 ∨ (Rect.block (s := S1x100) S1x100.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S4096x100.size a ≤ S65536x100.size a
  hwx2_7 : ∀ i : grid2.Coords, EltTy.bits .f32 = 32 ∨ (Rect.block (s := S65536x100) S4096x100.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S1x1x100.size a ≤ S16x1x100.size a
  hwx2_8 : ∀ i : grid2.Coords, EltTy.bits .f32 = 32 ∨ (Rect.block (s := S16x1x100) S1x1x100.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S1x1x100.size a ≤ S16x1x100.size a
  hwx2_9 : ∀ i : grid2.Coords, EltTy.bits .f32 = 32 ∨ (Rect.block (s := S16x1x100) S1x1x100.size (cc2_transform_9 i) (hinb2_9 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4096x100.size a ≤ S65536x100.size a
  hwx3_0 : ∀ i : grid3.Coords, EltTy.bits .f32 = 32 ∨ (Rect.block (s := S65536x100) S4096x100.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x100.size a ≤ S1x100.size a
  hwx3_1 : ∀ i : grid3.Coords, EltTy.bits .f32 = 32 ∨ (Rect.block (s := S1x100) S1x100.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x100.size a ≤ S1x100.size a
  hwx3_2 : ∀ i : grid3.Coords, EltTy.bits .f32 = 32 ∨ (Rect.block (s := S1x100) S1x100.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x100.size a ≤ S1x100.size a
  hwx3_3 : ∀ i : grid3.Coords, EltTy.bits .f32 = 32 ∨ (Rect.block (s := S1x100) S1x100.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x100.size a ≤ S1x100.size a
  hwx3_4 : ∀ i : grid3.Coords, EltTy.bits .f32 = 32 ∨ (Rect.block (s := S1x100) S1x100.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S10x100.size a ≤ S10x100.size a
  hwx3_5 : ∀ i : grid3.Coords, EltTy.bits .f32 = 32 ∨ (Rect.block (s := S10x100) S10x100.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x10.size a ≤ S1x10.size a
  hwx3_6 : ∀ i : grid3.Coords, EltTy.bits .f32 = 32 ∨ (Rect.block (s := S1x10) S1x10.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S4096x10.size a ≤ S65536x10.size a
  hwx3_7 : ∀ i : grid3.Coords, EltTy.bits .f32 = 32 ∨ (Rect.block (s := S65536x10) S4096x10.size (cc3_transform_7 i) (hinb3_7 i)).WholeWords (EltTy.packing .f32)

variable [Facts₀]

def dot_S2048x1024_S200x1024_S2048x200_1_1_0_0_n_n : DotDims S2048x1024 S200x1024 S2048x200 where
  lhsContracting := [1]
  rhsContracting := [1]
  lhsNonContracting := [0]
  rhsNonContracting := [0]
  lhsBatch := []
  rhsBatch := []
  wf := dot_S2048x1024_S200x1024_S2048x200_1_1_0_0_n_n_wf
def dot_S4096x200_S100x200_S4096x100_1_1_0_0_n_n : DotDims S4096x200 S100x200 S4096x100 where
  lhsContracting := [1]
  rhsContracting := [1]
  lhsNonContracting := [0]
  rhsNonContracting := [0]
  lhsBatch := []
  rhsBatch := []
  wf := dot_S4096x200_S100x200_S4096x100_1_1_0_0_n_n_wf
def dot_S4096x100_S100x100_S4096x100_1_1_0_0_n_n : DotDims S4096x100 S100x100 S4096x100 where
  lhsContracting := [1]
  rhsContracting := [1]
  lhsNonContracting := [0]
  rhsNonContracting := [0]
  lhsBatch := []
  rhsBatch := []
  wf := dot_S4096x100_S100x100_S4096x100_1_1_0_0_n_n_wf
def dot_S4096x100_S10x100_S4096x10_1_1_0_0_n_n : DotDims S4096x100 S10x100 S4096x10 where
  lhsContracting := [1]
  rhsContracting := [1]
  lhsNonContracting := [0]
  rhsNonContracting := [0]
  lhsBatch := []
  rhsBatch := []
  wf := dot_S4096x100_S10x100_S4096x10_1_1_0_0_n_n_wf

abbrev win0_0 : Pipeline.Window sig grid0 :=
  Pipeline.Window.ofSpec (Memref.whole main_arg0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S200x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x200.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1_0) S2048x200.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_1) S1x1x200.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1_2) S1x1x200.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v1_0) S4096x200.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10) S1x200.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v11) S1x200.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v12) S1x200.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v13) S1x200.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg5) S100x200.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v14) S1x100.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v15_0) S4096x100.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v15_1) S1x1x100.size cc1_transform_8 reads1_8 true false 2 stage1_8 sem1_8
    hrank1 hreads1_8 hinb1_8 nbuf1_8 (Memref.isWhole_whole _) hwx1_8 hstage1_8

abbrev win1_9 : Pipeline.Window sig grid1 :=
  Pipeline.Window.ofSpec (Memref.whole main_v15_2) S1x1x100.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v15_0) S4096x100.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v24) S1x100.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v25) S1x100.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v26) S1x100.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v27) S1x100.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg9) S100x100.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v28) S1x100.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v29_0) S4096x100.size cc2_transform_7 reads2_7 true false 2 stage2_7 sem2_7
    hrank2 hreads2_7 hinb2_7 nbuf2_7 (Memref.isWhole_whole _) hwx2_7 hstage2_7

abbrev win2_8 : Pipeline.Window sig grid2 :=
  Pipeline.Window.ofSpec (Memref.whole main_v29_1) S1x1x100.size cc2_transform_8 reads2_8 true false 2 stage2_8 sem2_8
    hrank2 hreads2_8 hinb2_8 nbuf2_8 (Memref.isWhole_whole _) hwx2_8 hstage2_8

abbrev win2_9 : Pipeline.Window sig grid2 :=
  Pipeline.Window.ofSpec (Memref.whole main_v29_2) S1x1x100.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

abbrev win3_0 : Pipeline.Window sig grid3 :=
  Pipeline.Window.ofSpec (Memref.whole main_v29_0) S4096x100.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v38) S1x100.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v39) S1x100.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v40) S1x100.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v41) S1x100.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg13) S10x100.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v42) S1x10.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v43) S4096x10.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

class Facts : Prop extends Facts₀ where

variable [Facts]
-- ==== ReferenceIdeal.lean ====
abbrev S65536x1024 : Shape := ⟨2, ![65536, 1024]⟩
abbrev S200x1024 : Shape := ⟨2, ![200, 1024]⟩
abbrev S200 : Shape := ⟨1, ![200]⟩
abbrev S100x200 : Shape := ⟨2, ![100, 200]⟩
abbrev S100 : Shape := ⟨1, ![100]⟩
abbrev S100x100 : Shape := ⟨2, ![100, 100]⟩
abbrev S10x100 : Shape := ⟨2, ![10, 100]⟩
abbrev S10 : Shape := ⟨1, ![10]⟩
abbrev S_ : Shape := ⟨0, ![]⟩
abbrev S1024x200 : Shape := ⟨2, ![1024, 200]⟩
abbrev S65536x200 : Shape := ⟨2, ![65536, 200]⟩
abbrev S1x200 : Shape := ⟨2, ![1, 200]⟩
abbrev S200x100 : Shape := ⟨2, ![200, 100]⟩
abbrev S65536x100 : Shape := ⟨2, ![65536, 100]⟩
abbrev S1x100 : Shape := ⟨2, ![1, 100]⟩
abbrev S100x10 : Shape := ⟨2, ![100, 10]⟩
abbrev S65536x10 : Shape := ⟨2, ![65536, 10]⟩
abbrev S1x10 : Shape := ⟨2, ![1, 10]⟩
abbrev S65536 : Shape := ⟨1, ![65536]⟩
abbrev S65536x1 : Shape := ⟨2, ![65536, 1]⟩

abbrev nBuf : Space → Nat
  | .hbm => 203
  | .vmem => 0
  | .smem => 0
  | _ => 0

abbrev hbmTy0_0 (i : Nat) : BufTy := match i % 128 with
  | 0 => ⟨S65536x1024, .f32⟩
  | 1 => ⟨S200x1024, .f32⟩
  | 2 => ⟨S200, .f32⟩
  | 3 => ⟨S200, .f32⟩
  | 4 => ⟨S200, .f32⟩
  | 5 => ⟨S100x200, .f32⟩
  | 6 => ⟨S100, .f32⟩
  | 7 => ⟨S100, .f32⟩
  | 8 => ⟨S100, .f32⟩
  | 9 => ⟨S100x100, .f32⟩
  | 10 => ⟨S100, .f32⟩
  | 11 => ⟨S100, .f32⟩
  | 12 => ⟨S100, .f32⟩
  | 13 => ⟨S10x100, .f32⟩
  | 14 => ⟨S10, .f32⟩
  | 15 => ⟨S_, .f32⟩
  | 16 => ⟨S200x1024, .f32⟩
  | 17 => ⟨S200x1024, .i1⟩
  | 18 => ⟨S_, .f32⟩
  | 19 => ⟨S_, .f32⟩
  | 20 => ⟨S200x1024, .f32⟩
  | 21 => ⟨S200x1024, .f32⟩
  | 22 => ⟨S200x1024, .f32⟩
  | 23 => ⟨S200x1024, .f32⟩
  | 24 => ⟨S1024x200, .f32⟩
  | 25 => ⟨S65536x200, .f32⟩
  | 26 => ⟨S1x200, .f32⟩
  | 27 => ⟨S65536x200, .f32⟩
  | 28 => ⟨S65536x200, .f32⟩
  | 29 => ⟨S_, .f32⟩
  | 30 => ⟨S200, .f32⟩
  | 31 => ⟨S_, .f32⟩
  | 32 => ⟨S200, .f32⟩
  | 33 => ⟨S200, .f32⟩
  | 34 => ⟨S1x200, .f32⟩
  | 35 => ⟨S65536x200, .f32⟩
  | 36 => ⟨S65536x200, .f32⟩
  | 37 => ⟨S65536x200, .f32⟩
  | 38 => ⟨S_, .f32⟩
  | 39 => ⟨S200, .f32⟩
  | 40 => ⟨S_, .f32⟩
  | 41 => ⟨S200, .f32⟩
  | 42 => ⟨S200, .f32⟩
  | 43 => ⟨S1x200, .f32⟩
  | 44 => ⟨S65536x200, .f32⟩
  | 45 => ⟨S65536x200, .f32⟩
  | 46 => ⟨S1x200, .f32⟩
  | 47 => ⟨S65536x200, .f32⟩
  | 48 => ⟨S65536x200, .f32⟩
  | 49 => ⟨S_, .f32⟩
  | 50 => ⟨S200, .f32⟩
  | 51 => ⟨S200, .f32⟩
  | 52 => ⟨S200, .f32⟩
  | 53 => ⟨S1x200, .f32⟩
  | 54 => ⟨S65536x200, .f32⟩
  | 55 => ⟨S65536x200, .f32⟩
  | 56 => ⟨S1x200, .f32⟩
  | 57 => ⟨S65536x200, .f32⟩
  | 58 => ⟨S65536x200, .f32⟩
  | 59 => ⟨S_, .f32⟩
  | 60 => ⟨S65536x200, .f32⟩
  | 61 => ⟨S65536x200, .i1⟩
  | 62 => ⟨S_, .f32⟩
  | 63 => ⟨S_, .f32⟩
  | 64 => ⟨S65536x200, .f32⟩
  | 65 => ⟨S65536x200, .f32⟩
  | 66 => ⟨S65536x200, .f32⟩
  | 67 => ⟨S65536x200, .f32⟩
  | 68 => ⟨S_, .f32⟩
  | 69 => ⟨S100x200, .f32⟩
  | 70 => ⟨S100x200, .i1⟩
  | 71 => ⟨S_, .f32⟩
  | 72 => ⟨S_, .f32⟩
  | 73 => ⟨S100x200, .f32⟩
  | 74 => ⟨S100x200, .f32⟩
  | 75 => ⟨S100x200, .f32⟩
  | 76 => ⟨S100x200, .f32⟩
  | 77 => ⟨S200x100, .f32⟩
  | 78 => ⟨S65536x100, .f32⟩
  | 79 => ⟨S1x100, .f32⟩
  | 80 => ⟨S65536x100, .f32⟩
  | 81 => ⟨S65536x100, .f32⟩
  | 82 => ⟨S_, .f32⟩
  | 83 => ⟨S100, .f32⟩
  | 84 => ⟨S_, .f32⟩
  | 85 => ⟨S100, .f32⟩
  | 86 => ⟨S100, .f32⟩
  | 87 => ⟨S1x100, .f32⟩
  | 88 => ⟨S65536x100, .f32⟩
  | 89 => ⟨S65536x100, .f32⟩
  | 90 => ⟨S65536x100, .f32⟩
  | 91 => ⟨S_, .f32⟩
  | 92 => ⟨S100, .f32⟩
  | 93 => ⟨S_, .f32⟩
  | 94 => ⟨S100, .f32⟩
  | 95 => ⟨S100, .f32⟩
  | 96 => ⟨S1x100, .f32⟩
  | 97 => ⟨S65536x100, .f32⟩
  | 98 => ⟨S65536x100, .f32⟩
  | 99 => ⟨S1x100, .f32⟩
  | 100 => ⟨S65536x100, .f32⟩
  | 101 => ⟨S65536x100, .f32⟩
  | 102 => ⟨S_, .f32⟩
  | 103 => ⟨S100, .f32⟩
  | 104 => ⟨S100, .f32⟩
  | 105 => ⟨S100, .f32⟩
  | 106 => ⟨S1x100, .f32⟩
  | 107 => ⟨S65536x100, .f32⟩
  | 108 => ⟨S65536x100, .f32⟩
  | 109 => ⟨S1x100, .f32⟩
  | 110 => ⟨S65536x100, .f32⟩
  | 111 => ⟨S65536x100, .f32⟩
  | 112 => ⟨S_, .f32⟩
  | 113 => ⟨S65536x100, .f32⟩
  | 114 => ⟨S65536x100, .i1⟩
  | 115 => ⟨S_, .f32⟩
  | 116 => ⟨S_, .f32⟩
  | 117 => ⟨S65536x100, .f32⟩
  | 118 => ⟨S65536x100, .f32⟩
  | 119 => ⟨S65536x100, .f32⟩
  | 120 => ⟨S65536x100, .f32⟩
  | 121 => ⟨S_, .f32⟩
  | 122 => ⟨S100x100, .f32⟩
  | 123 => ⟨S100x100, .i1⟩
  | 124 => ⟨S_, .f32⟩
  | 125 => ⟨S_, .f32⟩
  | 126 => ⟨S100x100, .f32⟩
  | 127 => ⟨S100x100, .f32⟩
  | _ => ⟨S65536x1024, .f32⟩

abbrev hbmTy0_1 (i : Nat) : BufTy := match i % 128 with
  | 0 => ⟨S100x100, .f32⟩
  | 1 => ⟨S100x100, .f32⟩
  | 2 => ⟨S100x100, .f32⟩
  | 3 => ⟨S65536x100, .f32⟩
  | 4 => ⟨S1x100, .f32⟩
  | 5 => ⟨S65536x100, .f32⟩
  | 6 => ⟨S65536x100, .f32⟩
  | 7 => ⟨S_, .f32⟩
  | 8 => ⟨S100, .f32⟩
  | 9 => ⟨S_, .f32⟩
  | 10 => ⟨S100, .f32⟩
  | 11 => ⟨S100, .f32⟩
  | 12 => ⟨S1x100, .f32⟩
  | 13 => ⟨S65536x100, .f32⟩
  | 14 => ⟨S65536x100, .f32⟩
  | 15 => ⟨S65536x100, .f32⟩
  | 16 => ⟨S_, .f32⟩
  | 17 => ⟨S100, .f32⟩
  | 18 => ⟨S_, .f32⟩
  | 19 => ⟨S100, .f32⟩
  | 20 => ⟨S100, .f32⟩
  | 21 => ⟨S1x100, .f32⟩
  | 22 => ⟨S65536x100, .f32⟩
  | 23 => ⟨S65536x100, .f32⟩
  | 24 => ⟨S1x100, .f32⟩
  | 25 => ⟨S65536x100, .f32⟩
  | 26 => ⟨S65536x100, .f32⟩
  | 27 => ⟨S_, .f32⟩
  | 28 => ⟨S100, .f32⟩
  | 29 => ⟨S100, .f32⟩
  | 30 => ⟨S100, .f32⟩
  | 31 => ⟨S1x100, .f32⟩
  | 32 => ⟨S65536x100, .f32⟩
  | 33 => ⟨S65536x100, .f32⟩
  | 34 => ⟨S1x100, .f32⟩
  | 35 => ⟨S65536x100, .f32⟩
  | 36 => ⟨S65536x100, .f32⟩
  | 37 => ⟨S_, .f32⟩
  | 38 => ⟨S65536x100, .f32⟩
  | 39 => ⟨S65536x100, .i1⟩
  | 40 => ⟨S_, .f32⟩
  | 41 => ⟨S_, .f32⟩
  | 42 => ⟨S65536x100, .f32⟩
  | 43 => ⟨S65536x100, .f32⟩
  | 44 => ⟨S65536x100, .f32⟩
  | 45 => ⟨S65536x100, .f32⟩
  | 46 => ⟨S_, .f32⟩
  | 47 => ⟨S10x100, .f32⟩
  | 48 => ⟨S10x100, .i1⟩
  | 49 => ⟨S_, .f32⟩
  | 50 => ⟨S_, .f32⟩
  | 51 => ⟨S10x100, .f32⟩
  | 52 => ⟨S10x100, .f32⟩
  | 53 => ⟨S10x100, .f32⟩
  | 54 => ⟨S10x100, .f32⟩
  | 55 => ⟨S100x10, .f32⟩
  | 56 => ⟨S65536x10, .f32⟩
  | 57 => ⟨S1x10, .f32⟩
  | 58 => ⟨S65536x10, .f32⟩
  | 59 => ⟨S65536x10, .f32⟩
  | 60 => ⟨S_, .f32⟩
  | 61 => ⟨S65536, .f32⟩
  | 62 => ⟨S_, .f32⟩
  | 63 => ⟨S65536, .f32⟩
  | 64 => ⟨S65536, .f32⟩
  | 65 => ⟨S65536x1, .f32⟩
  | 66 => ⟨S65536x10, .f32⟩
  | 67 => ⟨S65536x10, .f32⟩
  | 68 => ⟨S65536x10, .f32⟩
  | 69 => ⟨S_, .f32⟩
  | 70 => ⟨S65536, .f32⟩
  | 71 => ⟨S65536x1, .f32⟩
  | 72 => ⟨S65536x1, .f32⟩
  | 73 => ⟨S65536x10, .f32⟩
  | 74 => ⟨S65536x10, .f32⟩
  | _ => ⟨S65536x1024, .f32⟩

abbrev hbmTy (i : Nat) : BufTy := match i / 128 with
  | 0 => hbmTy0_0 i
  | 1 => hbmTy0_1 i
  | _ => ⟨S65536x1024, .f32⟩

abbrev bufTy : (tb : Table) → Fin (tcTables nBuf tb) → BufTy
  | .hbm, ⟨i, _⟩ => hbmTy i
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_v1 : Ref sig .tc := ⟨.hbm, 17, rfl⟩
abbrev main_cst_0 : Ref sig .tc := ⟨.hbm, 18, rfl⟩
abbrev main_cst_1 : Ref sig .tc := ⟨.hbm, 19, rfl⟩
abbrev main_call0_v0 : Ref sig .tc := ⟨.hbm, 20, rfl⟩
abbrev main_call0_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_cst_2 : Ref sig .tc := ⟨.hbm, 29, rfl⟩
abbrev main_v9 : Ref sig .tc := ⟨.hbm, 30, rfl⟩
abbrev main_cst_3 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_cst_4 : Ref sig .tc := ⟨.hbm, 38, rfl⟩
abbrev main_v16 : Ref sig .tc := ⟨.hbm, 39, rfl⟩
abbrev main_cst_5 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_cst_6 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_cst_7 : Ref sig .tc := ⟨.hbm, 59, rfl⟩
abbrev main_v34 : Ref sig .tc := ⟨.hbm, 60, rfl⟩
abbrev main_v35 : Ref sig .tc := ⟨.hbm, 61, rfl⟩
abbrev main_cst_8 : Ref sig .tc := ⟨.hbm, 62, rfl⟩
abbrev main_cst_9 : Ref sig .tc := ⟨.hbm, 63, rfl⟩
abbrev main_call1_v0 : Ref sig .tc := ⟨.hbm, 64, rfl⟩
abbrev main_call1_v1 : Ref sig .tc := ⟨.hbm, 65, rfl⟩
abbrev main_v36 : Ref sig .tc := ⟨.hbm, 66, rfl⟩
abbrev main_v37 : Ref sig .tc := ⟨.hbm, 67, rfl⟩
abbrev main_cst_10 : Ref sig .tc := ⟨.hbm, 68, rfl⟩
abbrev main_v38 : Ref sig .tc := ⟨.hbm, 69, rfl⟩
abbrev main_v39 : Ref sig .tc := ⟨.hbm, 70, rfl⟩
abbrev main_cst_11 : Ref sig .tc := ⟨.hbm, 71, rfl⟩
abbrev main_cst_12 : Ref sig .tc := ⟨.hbm, 72, rfl⟩
abbrev main_call2_v0 : Ref sig .tc := ⟨.hbm, 73, rfl⟩
abbrev main_call2_v1 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_cst_13 : Ref sig .tc := ⟨.hbm, 82, rfl⟩
abbrev main_v47 : Ref sig .tc := ⟨.hbm, 83, rfl⟩
abbrev main_cst_14 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_cst_15 : Ref sig .tc := ⟨.hbm, 91, rfl⟩
abbrev main_v54 : Ref sig .tc := ⟨.hbm, 92, rfl⟩
abbrev main_cst_16 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_cst_17 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_cst_18 : Ref sig .tc := ⟨.hbm, 112, rfl⟩
abbrev main_v72 : Ref sig .tc := ⟨.hbm, 113, rfl⟩
abbrev main_v73 : Ref sig .tc := ⟨.hbm, 114, rfl⟩
abbrev main_cst_19 : Ref sig .tc := ⟨.hbm, 115, rfl⟩
abbrev main_cst_20 : Ref sig .tc := ⟨.hbm, 116, rfl⟩
abbrev main_call3_v0 : Ref sig .tc := ⟨.hbm, 117, rfl⟩
abbrev main_call3_v1 : Ref sig .tc := ⟨.hbm, 118, rfl⟩
abbrev main_v74 : Ref sig .tc := ⟨.hbm, 119, rfl⟩
abbrev main_v75 : Ref sig .tc := ⟨.hbm, 120, rfl⟩
abbrev main_cst_21 : Ref sig .tc := ⟨.hbm, 121, rfl⟩
abbrev main_v76 : Ref sig .tc := ⟨.hbm, 122, rfl⟩
abbrev main_v77 : Ref sig .tc := ⟨.hbm, 123, rfl⟩
abbrev main_cst_22 : Ref sig .tc := ⟨.hbm, 124, rfl⟩
abbrev main_cst_23 : Ref sig .tc := ⟨.hbm, 125, rfl⟩
abbrev main_call4_v0 : Ref sig .tc := ⟨.hbm, 126, rfl⟩
abbrev main_call4_v1 : Ref sig .tc := ⟨.hbm, 127, rfl⟩
abbrev main_v78 : Ref sig .tc := ⟨.hbm, 128, rfl⟩
abbrev main_v79 : Ref sig .tc := ⟨.hbm, 129, rfl⟩
abbrev main_v80 : Ref sig .tc := ⟨.hbm, 130, rfl⟩
abbrev main_v81 : Ref sig .tc := ⟨.hbm, 131, rfl⟩
abbrev main_v82 : Ref sig .tc := ⟨.hbm, 132, rfl⟩
abbrev main_v83 : Ref sig .tc := ⟨.hbm, 133, rfl⟩
abbrev main_v84 : Ref sig .tc := ⟨.hbm, 134, rfl⟩
abbrev main_cst_24 : Ref sig .tc := ⟨.hbm, 135, rfl⟩
abbrev main_v85 : Ref sig .tc := ⟨.hbm, 136, rfl⟩
abbrev main_cst_25 : Ref sig .tc := ⟨.hbm, 137, rfl⟩
abbrev main_v86 : Ref sig .tc := ⟨.hbm, 138, rfl⟩
abbrev main_v87 : Ref sig .tc := ⟨.hbm, 139, rfl⟩
abbrev main_v88 : Ref sig .tc := ⟨.hbm, 140, rfl⟩
abbrev main_v89 : Ref sig .tc := ⟨.hbm, 141, rfl⟩
abbrev main_v90 : Ref sig .tc := ⟨.hbm, 142, rfl⟩
abbrev main_v91 : Ref sig .tc := ⟨.hbm, 143, rfl⟩
abbrev main_cst_26 : Ref sig .tc := ⟨.hbm, 144, rfl⟩
abbrev main_v92 : Ref sig .tc := ⟨.hbm, 145, rfl⟩
abbrev main_cst_27 : Ref sig .tc := ⟨.hbm, 146, rfl⟩
abbrev main_v93 : Ref sig .tc := ⟨.hbm, 147, rfl⟩
abbrev main_v94 : Ref sig .tc := ⟨.hbm, 148, rfl⟩
abbrev main_v95 : Ref sig .tc := ⟨.hbm, 149, rfl⟩
abbrev main_v96 : Ref sig .tc := ⟨.hbm, 150, rfl⟩
abbrev main_v97 : Ref sig .tc := ⟨.hbm, 151, rfl⟩
abbrev main_v98 : Ref sig .tc := ⟨.hbm, 152, rfl⟩
abbrev main_v99 : Ref sig .tc := ⟨.hbm, 153, rfl⟩
abbrev main_v100 : Ref sig .tc := ⟨.hbm, 154, rfl⟩
abbrev main_cst_28 : Ref sig .tc := ⟨.hbm, 155, rfl⟩
abbrev main_v101 : Ref sig .tc := ⟨.hbm, 156, rfl⟩
abbrev main_v102 : Ref sig .tc := ⟨.hbm, 157, rfl⟩
abbrev main_v103 : Ref sig .tc := ⟨.hbm, 158, rfl⟩
abbrev main_v104 : Ref sig .tc := ⟨.hbm, 159, rfl⟩
abbrev main_v105 : Ref sig .tc := ⟨.hbm, 160, rfl⟩
abbrev main_v106 : Ref sig .tc := ⟨.hbm, 161, rfl⟩
abbrev main_v107 : Ref sig .tc := ⟨.hbm, 162, rfl⟩
abbrev main_v108 : Ref sig .tc := ⟨.hbm, 163, rfl⟩
abbrev main_v109 : Ref sig .tc := ⟨.hbm, 164, rfl⟩
abbrev main_cst_29 : Ref sig .tc := ⟨.hbm, 165, rfl⟩
abbrev main_v110 : Ref sig .tc := ⟨.hbm, 166, rfl⟩
abbrev main_v111 : Ref sig .tc := ⟨.hbm, 167, rfl⟩
abbrev main_cst_30 : Ref sig .tc := ⟨.hbm, 168, rfl⟩
abbrev main_cst_31 : Ref sig .tc := ⟨.hbm, 169, rfl⟩
abbrev main_call5_v0 : Ref sig .tc := ⟨.hbm, 170, rfl⟩
abbrev main_call5_v1 : Ref sig .tc := ⟨.hbm, 171, rfl⟩
abbrev main_v112 : Ref sig .tc := ⟨.hbm, 172, rfl⟩
abbrev main_v113 : Ref sig .tc := ⟨.hbm, 173, rfl⟩
abbrev main_cst_32 : Ref sig .tc := ⟨.hbm, 174, rfl⟩
abbrev main_v114 : Ref sig .tc := ⟨.hbm, 175, rfl⟩
abbrev main_v115 : Ref sig .tc := ⟨.hbm, 176, rfl⟩
abbrev main_cst_33 : Ref sig .tc := ⟨.hbm, 177, rfl⟩
abbrev main_cst_34 : Ref sig .tc := ⟨.hbm, 178, rfl⟩
abbrev main_call6_v0 : Ref sig .tc := ⟨.hbm, 179, rfl⟩
abbrev main_call6_v1 : Ref sig .tc := ⟨.hbm, 180, rfl⟩
abbrev main_v116 : Ref sig .tc := ⟨.hbm, 181, rfl⟩
abbrev main_v117 : Ref sig .tc := ⟨.hbm, 182, rfl⟩
abbrev main_v118 : Ref sig .tc := ⟨.hbm, 183, rfl⟩
abbrev main_v119 : Ref sig .tc := ⟨.hbm, 184, rfl⟩
abbrev main_v120 : Ref sig .tc := ⟨.hbm, 185, rfl⟩
abbrev main_v121 : Ref sig .tc := ⟨.hbm, 186, rfl⟩
abbrev main_v122 : Ref sig .tc := ⟨.hbm, 187, rfl⟩
abbrev main_call7_cst : Ref sig .tc := ⟨.hbm, 188, rfl⟩
abbrev main_call7_v0 : Ref sig .tc := ⟨.hbm, 189, rfl⟩
abbrev main_call7_cst_0 : Ref sig .tc := ⟨.hbm, 190, rfl⟩
abbrev main_call7_v1 : Ref sig .tc := ⟨.hbm, 191, rfl⟩
abbrev main_call7_v2 : Ref sig .tc := ⟨.hbm, 192, rfl⟩
abbrev main_call7_v3 : Ref sig .tc := ⟨.hbm, 193, rfl⟩
abbrev main_call7_v4 : Ref sig .tc := ⟨.hbm, 194, rfl⟩
abbrev main_call7_v5 : Ref sig .tc := ⟨.hbm, 195, rfl⟩
abbrev main_call7_v6 : Ref sig .tc := ⟨.hbm, 196, rfl⟩
abbrev main_call7_cst_1 : Ref sig .tc := ⟨.hbm, 197, rfl⟩
abbrev main_call7_v7 : Ref sig .tc := ⟨.hbm, 198, rfl⟩
abbrev main_call7_v8 : Ref sig .tc := ⟨.hbm, 199, rfl⟩
abbrev main_call7_v9 : Ref sig .tc := ⟨.hbm, 200, rfl⟩
abbrev main_call7_v10 : Ref sig .tc := ⟨.hbm, 201, rfl⟩
abbrev main_v123 : Ref sig .tc := ⟨.hbm, 202, rfl⟩

abbrev nD : Nat := 1
abbrev τ : Topo := Topo.v7x

variable {F : FTy → Type} [FloatOps F]

class Facts₀ : Prop where
  bcast_S_S200x1024 : S_.BroadcastsInDim S200x1024 (![] : Fin 0 → Fin S200x1024.rank)
  transposes_S200x1024_S1024x200_1_0 : S200x1024.Transposes [1, 0] S1024x200
  bcast_S200_S1x200_1 : S200.BroadcastsInDim S1x200 (![1] : Fin 1 → Fin S1x200.rank)
  bcast_S1x200_S65536x200_0_1 : S1x200.BroadcastsInDim S65536x200 (![0, 1] : Fin 2 → Fin S65536x200.rank)
  reducesTo_S65536x200_S200_d0 : S65536x200.ReducesTo [0] S200
  h_S_ : 0 < S_.numel
  bcast_S_S200 : S_.BroadcastsInDim S200 (![] : Fin 0 → Fin S200.rank)
  bcast_S_S65536x200 : S_.BroadcastsInDim S65536x200 (![] : Fin 0 → Fin S65536x200.rank)
  bcast_S_S100x200 : S_.BroadcastsInDim S100x200 (![] : Fin 0 → Fin S100x200.rank)
  transposes_S100x200_S200x100_1_0 : S100x200.Transposes [1, 0] S200x100
  bcast_S100_S1x100_1 : S100.BroadcastsInDim S1x100 (![1] : Fin 1 → Fin S1x100.rank)
  bcast_S1x100_S65536x100_0_1 : S1x100.BroadcastsInDim S65536x100 (![0, 1] : Fin 2 → Fin S65536x100.rank)
  reducesTo_S65536x100_S100_d0 : S65536x100.ReducesTo [0] S100
  bcast_S_S100 : S_.BroadcastsInDim S100 (![] : Fin 0 → Fin S100.rank)
  bcast_S_S65536x100 : S_.BroadcastsInDim S65536x100 (![] : Fin 0 → Fin S65536x100.rank)
  bcast_S_S100x100 : S_.BroadcastsInDim S100x100 (![] : Fin 0 → Fin S100x100.rank)
  transposes_S100x100_S100x100_1_0 : S100x100.Transposes [1, 0] S100x100
  bcast_S_S10x100 : S_.BroadcastsInDim S10x100 (![] : Fin 0 → Fin S10x100.rank)
  transposes_S10x100_S100x10_1_0 : S10x100.Transposes [1, 0] S100x10
  bcast_S10_S1x10_1 : S10.BroadcastsInDim S1x10 (![1] : Fin 1 → Fin S1x10.rank)
  bcast_S1x10_S65536x10_0_1 : S1x10.BroadcastsInDim S65536x10 (![0, 1] : Fin 2 → Fin S65536x10.rank)
  reducesTo_S65536x10_S65536_d1 : S65536x10.ReducesTo [1] S65536
  bcast_S_S65536 : S_.BroadcastsInDim S65536 (![] : Fin 0 → Fin S65536.rank)
  bcast_S65536_S65536x1_0 : S65536.BroadcastsInDim S65536x1 (![0] : Fin 1 → Fin S65536x1.rank)
  bcast_S65536x1_S65536x10_0_1 : S65536x1.BroadcastsInDim S65536x10 (![0, 1] : Fin 2 → Fin S65536x10.rank)
  dot_S65536x1024_S1024x200_S65536x200_1_0_0_1_n_n_wf : DotDims.WF S65536x1024 S1024x200 S65536x200 [1] [0] [0] [1] [] []
  dot_S65536x200_S200x100_S65536x100_1_0_0_1_n_n_wf : DotDims.WF S65536x200 S200x100 S65536x100 [1] [0] [0] [1] [] []
  dot_S65536x100_S100x100_S65536x100_1_0_0_1_n_n_wf : DotDims.WF S65536x100 S100x100 S65536x100 [1] [0] [0] [1] [] []
  dot_S65536x100_S100x10_S65536x10_1_0_0_1_n_n_wf : DotDims.WF S65536x100 S100x10 S65536x10 [1] [0] [0] [1] [] []

variable [Facts₀]

def dot_S65536x1024_S1024x200_S65536x200_1_0_0_1_n_n : DotDims S65536x1024 S1024x200 S65536x200 where
  lhsContracting := [1]
  rhsContracting := [0]
  lhsNonContracting := [0]
  rhsNonContracting := [1]
  lhsBatch := []
  rhsBatch := []
  wf := dot_S65536x1024_S1024x200_S65536x200_1_0_0_1_n_n_wf
def dot_S65536x200_S200x100_S65536x100_1_0_0_1_n_n : DotDims S65536x200 S200x100 S65536x100 where
  lhsContracting := [1]
  rhsContracting := [0]
  lhsNonContracting := [0]
  rhsNonContracting := [1]
  lhsBatch := []
  rhsBatch := []
  wf := dot_S65536x200_S200x100_S65536x100_1_0_0_1_n_n_wf
def dot_S65536x100_S100x100_S65536x100_1_0_0_1_n_n : DotDims S65536x100 S100x100 S65536x100 where
  lhsContracting := [1]
  rhsContracting := [0]
  lhsNonContracting := [0]
  rhsNonContracting := [1]
  lhsBatch := []
  rhsBatch := []
  wf := dot_S65536x100_S100x100_S65536x100_1_0_0_1_n_n_wf
def dot_S65536x100_S100x10_S65536x10_1_0_0_1_n_n : DotDims S65536x100 S100x10 S65536x10 where
  lhsContracting := [1]
  rhsContracting := [0]
  lhsNonContracting := [0]
  rhsNonContracting := [1]
  lhsBatch := []
  rhsBatch := []
  wf := dot_S65536x100_S100x10_S65536x10_1_0_0_1_n_n_wf

class Facts : Prop extends Facts₀ where

variable [Facts]
-- ==== Proof.KernelRun.lean ====
/-
  The idealized kernel's run with its result named.

  @main is four pipelined regions among four stretches of host operations.  The generated frame folds the buffer
  contents through these eight segments from the launch memory to the return; every weakly fair execution ends with
  each unscoped buffer at the last stage of that fold.  Read at the result buffer this names the result: it is the
  fold's last stage there, and the fifteen argument arrays are as launched.
-/
import proofs.«120646_j47201690583464_2_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last stage of the
    fold of the buffer contents through the eight segments, and the argument arrays as launched. -/
theorem run_fold : θ_run defs (onTc (τ := τ) (main (F := F))) ⟨m, fun _ => 0, ρ⟩ (fun r => ∀ c : Dev nD,
      r.2.mem ((c.tc : Thread nD τ).loc main_v43) = W8 m ρ c (Proc.devRef .tc main_v43)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v43 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c),
       (h c _ (mem_uc main_arg13 (by decide))).trans (W8_main_arg13 m ρ c),
       (h c _ (mem_uc main_arg14 (by decide))).trans (W8_main_arg14 m ρ c)⟩)

end Cert.KernelIdeal.Hand

end
-- ==== Proof.Spec.lean ====
/-
  The network both programs compute, as functions of the argument arrays on the extended reals.

  A layer is a product with a sign matrix plus a bias; between layers the activations are normalised with the batch's
  mean and variance per column and replaced by their signs; the last layer's rows go through a log-softmax.  The two
  programs differ in three places, so each of those has two forms here:

  * the first layer of one program adds to the product x·s a second product (x − x)·s — zero when x is finite;
  * the variance is the mean of squares minus the square of the mean in one program and the mean of the squared
    deviations in the other — one real number when every entry is finite;
  * the row maximum and the sum of exponentials of the log-softmax are folded with or without their neutral start
    value put in front.

  Arrays are curried functions of their coordinates; the float literals stay as their words.
-/
import Idealize.ShloMosaic.PureOps.Ideal
import Idealize.ShloMosaic.PureOps.Ideal.Laws

noncomputable section

namespace Cert.Spec

open Idealize.ShloMosaic

/-- The literals of both programs: 0, 1, −1, the variance's ε, the batch size 65536, −∞. -/
abbrev zero : EReal := Ideal.ofBits .f32 0x00000000#32
abbrev pos1 : EReal := Ideal.ofBits .f32 0x3F800000#32
abbrev neg1 : EReal := Ideal.ofBits .f32 0xBF800000#32
abbrev eps : EReal := Ideal.ofBits .f32 0x38D1B717#32
abbrev cnt : EReal := Ideal.ofBits .f32 0x47800000#32
abbrev ninf : EReal := Ideal.ofBits .f32 0xFF800000#32

/-- The sign with the convention that 0 counts as positive: 1 where 0 ≤ v, else −1. -/
def sgn (v : EReal) : EReal := Scalar.select (Ideal.cmp .oge v zero) pos1 neg1

variable {B K H C : ℕ}

/-- A layer: row i of the activations against row j of the sign matrix of the weights, plus the bias. -/
def lin (a : Fin B → Fin K → EReal) (w : Fin H → Fin K → EReal) (b : Fin H → EReal) (i : Fin B) (j : Fin H) : EReal :=
  (∑ k, a i k * sgn (w j k)) + b j

/-- The same layer with the residue product (a − a)·s added to the product before the bias. -/
def linSplit (a : Fin B → Fin K → EReal) (w : Fin H → Fin K → EReal) (b : Fin H → EReal) (i : Fin B) (j : Fin H) : EReal :=
  ((∑ k, a i k * sgn (w j k)) + (∑ k, (a i k - a i k) * sgn (w j k))) + b j

/-- The column mean over the batch. -/
def mean (p : Fin B → Fin H → EReal) (j : Fin H) : EReal := Ideal.div (zero + ∑ i, p i j) cnt

/-- The column variance as the mean of the squared deviations. -/
def varDev (p : Fin B → Fin H → EReal) (j : Fin H) : EReal :=
  Ideal.div (zero + ∑ i, (p i j - mean p j) * (p i j - mean p j)) cnt

/-- The column variance as the mean of the squares minus the square of the mean. -/
def varSq (p : Fin B → Fin H → EReal) (j : Fin H) : EReal :=
  Ideal.div (zero + ∑ i, p i j * p i j) cnt - mean p j * mean p j

/-- Normalise with a given mean and variance, scale, shift, take the sign. -/
def act (p : Fin B → Fin H → EReal) (mu var g be : Fin H → EReal) (i : Fin B) (j : Fin H) : EReal :=
  sgn (g j * (p i j - mu j) * Ideal.rsqrt (var j + eps) + be j)

/-- The row maximum folded from −∞. -/
def rowMax (z : Fin B → Fin C → EReal) (i : Fin B) : EReal := (Finset.univ : Finset (Fin C)).fold max ninf (z i)

/-- Log-softmax of a row, the folds without their start values in front. -/
def lsm (z : Fin B → Fin C → EReal) (i : Fin B) (j : Fin C) : EReal :=
  (z i j - rowMax z i) - Ideal.log (∑ c, Ideal.exp (z i c - rowMax z i))

/-- Log-softmax of a row, the maximum taken once more against −∞ and the sum started from 0. -/
def lsmInit (z : Fin B → Fin C → EReal) (i : Fin B) (j : Fin C) : EReal :=
  (z i j - max ninf (rowMax z i)) - Ideal.log (zero + ∑ c, Ideal.exp (z i c - max ninf (rowMax z i)))

section Net
variable (x : Fin 65536 → Fin 1024 → EReal) (w1 : Fin 200 → Fin 1024 → EReal) (b1 g1 be1 : Fin 200 → EReal)
  (w2 : Fin 100 → Fin 200 → EReal) (b2 g2 be2 : Fin 100 → EReal)
  (w3 : Fin 100 → Fin 100 → EReal) (b3 g3 be3 : Fin 100 → EReal)
  (w5 : Fin 10 → Fin 100 → EReal) (b5 : Fin 10 → EReal)

/-- The pre-activations of the three hidden layers and the logits, with the split first product and the variance as
    mean of squares minus squared mean. -/
def preA1 : Fin 65536 → Fin 200 → EReal := linSplit x w1 b1
def hidA1 : Fin 65536 → Fin 200 → EReal := act (preA1 x w1 b1) (mean (preA1 x w1 b1)) (varSq (preA1 x w1 b1)) g1 be1
def preA2 : Fin 65536 → Fin 100 → EReal := lin (hidA1 x w1 b1 g1 be1) w2 b2
def hidA2 : Fin 65536 → Fin 100 → EReal :=
  act (preA2 x w1 b1 g1 be1 w2 b2) (mean (preA2 x w1 b1 g1 be1 w2 b2)) (varSq (preA2 x w1 b1 g1 be1 w2 b2)) g2 be2
def preA3 : Fin 65536 → Fin 100 → EReal := lin (hidA2 x w1 b1 g1 be1 w2 b2 g2 be2) w3 b3
def hidA3 : Fin 65536 → Fin 100 → EReal :=
  act (preA3 x w1 b1 g1 be1 w2 b2 g2 be2 w3 b3) (mean (preA3 x w1 b1 g1 be1 w2 b2 g2 be2 w3 b3))
    (varSq (preA3 x w1 b1 g1 be1 w2 b2 g2 be2 w3 b3)) g3 be3
def outA : Fin 65536 → Fin 10 → EReal := lsm (lin (hidA3 x w1 b1 g1 be1 w2 b2 g2 be2 w3 b3 g3 be3) w5 b5)

/-- The same with the plain first product, the variance as mean of squared deviations, and the started folds. -/
def preB1 : Fin 65536 → Fin 200 → EReal := lin x w1 b1
def hidB1 : Fin 65536 → Fin 200 → EReal := act (preB1 x w1 b1) (mean (preB1 x w1 b1)) (varDev (preB1 x w1 b1)) g1 be1
def preB2 : Fin 65536 → Fin 100 → EReal := lin (hidB1 x w1 b1 g1 be1) w2 b2
def hidB2 : Fin 65536 → Fin 100 → EReal :=
  act (preB2 x w1 b1 g1 be1 w2 b2) (mean (preB2 x w1 b1 g1 be1 w2 b2)) (varDev (preB2 x w1 b1 g1 be1 w2 b2)) g2 be2
def preB3 : Fin 65536 → Fin 100 → EReal := lin (hidB2 x w1 b1 g1 be1 w2 b2 g2 be2) w3 b3
def hidB3 : Fin 65536 → Fin 100 → EReal :=
  act (preB3 x w1 b1 g1 be1 w2 b2 g2 be2 w3 b3) (mean (preB3 x w1 b1 g1 be1 w2 b2 g2 be2 w3 b3))
    (varDev (preB3 x w1 b1 g1 be1 w2 b2 g2 be2 w3 b3)) g3 be3
def outB : Fin 65536 → Fin 10 → EReal := lsmInit (lin (hidB3 x w1 b1 g1 be1 w2 b2 g2 be2 w3 b3 g3 be3) w5 b5)

end Net

end Cert.Spec

end
-- ==== Proof.LibDotT.lean ====
/-
  A matrix product with the transpose of the right factor, read at an index, on the extended reals.

  For a rows × contraction by columns × contraction product — the dimension numbers that contract the left operand's
  second axis with the right operand's SECOND axis, with no batch axis — the entry at (i, j) of the host's
  `dot_general`, and of a `tpu.matmul` accumulated into the zero splat, is the plain sum over the contraction
  coordinate k of l (i, k) · r (j, k): row i of the left operand against row j of the right one. The sum over the
  product's own contraction index is re-indexed through the bijection between a one-axis contraction index and its
  coordinate; the operand indices are computed from the dimension numbers: the left operand reads the result's first
  coordinate on its first axis, the right operand reads the result's second coordinate on its first axis, and both
  read the contraction coordinate on their second axis. Nothing here needs finiteness: only that the sum is re-indexed.
-/
import Idealize.ShloMosaic.Lib.ValueIdx
import Idealize.ShloMosaic.PureOps.Ideal.Laws

noncomputable section

namespace Cert.LibDotT

open Idealize.ShloMosaic Idealize.ShloMosaic.ValueIdx

variable {M K N : Nat}

/-- The contraction of row `y 0` of `l` with row `y 1` of `r`: the sum over the product's contraction index is
    the sum over the one contracted coordinate. -/
theorem sum_transposed (d : DotDims ⟨2, ![M, K]⟩ ⟨2, ![N, K]⟩ ⟨2, ![M, N]⟩)
    (hlc : d.lhsContracting = [1]) (hrc : d.rhsContracting = [1]) (hln : d.lhsNonContracting = [0])
    (hrn : d.rhsNonContracting = [0]) (hlb : d.lhsBatch = []) (hrb : d.rhsBatch = [])
    (l : (⟨2, ![M, K]⟩ : Shape).Idx → EReal) (r : (⟨2, ![N, K]⟩ : Shape).Idx → EReal) (y : (⟨2, ![M, N]⟩ : Shape).Idx) :
    ∑ q : d.contr.Idx, l (d.lhsIdx y q) * r (d.rhsIdx y q) = ∑ k : Fin K, l (ix2 (y 0) k) * r (ix2 (y 1) k) := by
  obtain ⟨lc, rc, ln, rn, lb, rb, wf⟩ := d
  dsimp only at hlc hrc hln hrn hlb hrb
  subst hlc hrc hln hrn hlb hrb
  rw [← Equiv.sum_comp (contrEquiv1 (⟨[1], [1], [0], [0], [], [], wf⟩ : DotDims ⟨2, ![M, K]⟩ ⟨2, ![N, K]⟩ ⟨2, ![M, N]⟩) K rfl rfl).symm]
  refine Finset.sum_congr rfl fun k _ => ?_
  have hk := contrEquiv1_symm_val (⟨[1], [1], [0], [0], [], [], wf⟩ : DotDims ⟨2, ![M, K]⟩ ⟨2, ![N, K]⟩ ⟨2, ![M, N]⟩) K rfl rfl k
  have el : DotDims.lhsIdx (⟨[1], [1], [0], [0], [], [], wf⟩ : DotDims ⟨2, ![M, K]⟩ ⟨2, ![N, K]⟩ ⟨2, ![M, N]⟩) y
      ((contrEquiv1 (⟨[1], [1], [0], [0], [], [], wf⟩ : DotDims ⟨2, ![M, K]⟩ ⟨2, ![N, K]⟩ ⟨2, ![M, N]⟩) K rfl rfl).symm k)
      = ix2 (y 0) k := funext fun a => Fin.ext (by
    match a with
    | ⟨0, _⟩ =>
      unfold DotDims.lhsIdx
      rw [dif_neg (by simp), dif_pos (by simp)]
      rfl
    | ⟨1, _⟩ => exact (DotDims.lhsIdx_val_of_single _ rfl y _).trans hk)
  have er : DotDims.rhsIdx (⟨[1], [1], [0], [0], [], [], wf⟩ : DotDims ⟨2, ![M, K]⟩ ⟨2, ![N, K]⟩ ⟨2, ![M, N]⟩) y
      ((contrEquiv1 (⟨[1], [1], [0], [0], [], [], wf⟩ : DotDims ⟨2, ![M, K]⟩ ⟨2, ![N, K]⟩ ⟨2, ![M, N]⟩) K rfl rfl).symm k)
      = ix2 (y 1) k := funext fun a => Fin.ext (by
    match a with
    | ⟨0, _⟩ =>
      unfold DotDims.rhsIdx
      rw [dif_neg (by simp), dif_pos (by simp)]
      rfl
    | ⟨1, _⟩ => exact (DotDims.rhsIdx_val_of_single _ rfl y _).trans hk)
  rw [el, er]
  rfl

variable {φ₁ φ₂ : FTy}

/-- The host's `dot_general` of those dimension numbers, at an index: the sum over the contracted coordinate. -/
theorem dotGeneral_transposed_apply (d : DotDims ⟨2, ![M, K]⟩ ⟨2, ![N, K]⟩ ⟨2, ![M, N]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (sched : HostSchedule)
    (l : FVec Ideal ⟨2, ![M, K]⟩ φ₁) (r : FVec Ideal ⟨2, ![N, K]⟩ φ₂) (y : (⟨2, ![M, N]⟩ : Shape).Idx) :
    FloatOps.dotGeneral d prec sched l r y = ∑ k : Fin K, l (ix2 (y 0) k) * r (ix2 (y 1) k) := by
  rw [Ideal.dotGeneral_apply]
  exact sum_transposed d hlc hrc hln hrn hlb hrb l r y

/-- A `tpu.matmul` of those dimension numbers into the zero accumulator, at an index: the same sum. -/
theorem matmul_zero_transposed_apply (d : DotDims ⟨2, ![M, K]⟩ ⟨2, ![N, K]⟩ ⟨2, ![M, N]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision)
    (l : FVec Ideal ⟨2, ![M, K]⟩ φ₁) (r : FVec Ideal ⟨2, ![N, K]⟩ φ₂) (y : (⟨2, ![M, N]⟩ : Shape).Idx) :
    FloatOps.matmul d prec l r (constant ⟨2, ![M, N]⟩ .f32 0x00000000#32) y
      = ∑ k : Fin K, l (ix2 (y 0) k) * r (ix2 (y 1) k) := by
  rw [Ideal.matmul_constant_zero_apply]
  exact sum_transposed d hlc hrc hln hrn hlb hrb l r y

end Cert.LibDotT

end
-- ==== Proof.Pay0.lean ====
/-
  The first kernel's stored values, entry by entry, on the extended reals.

  The body takes a 2048-row block of the input, the whole first weight matrix and the bias row.  Entry (p, q) of the block
  it stores is row p of the block against row q of the sign matrix of the weights, plus the same product for the residue
  (the block minus itself), plus the bias at q.  Beside it the body stores, per column q, the sum over the 2048 rows of
  those entries and the sum of their squares, each as a 1 × 1 × 200 block.
-/
import proofs.«120646_j47201690583464_2_alg».proof.Proof.Gen.KernelIdeal.Skeleton
import proofs.«120646_j47201690583464_2_alg».proof.Proof.Spec
import proofs.«120646_j47201690583464_2_alg».proof.Proof.LibDotT
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Cert.KernelIdeal Cert.KernelIdeal.Gen
open Idealize.ShloMosaic Idealize.ShloMosaic.ValueIdx

/-- The stored block of pre-activations at (p, q). -/
theorem pay0_1_apply (x0 : Vec Ideal S2048x1024 .f32) (x1 : Vec Ideal S200x1024 .f32) (x2 : Vec Ideal S1x200 .f32)
    (p : Fin 2048) (q : Fin 200) :
    k0_pay1 (F := Ideal) x0 x1 x2 (ix2 p q)
      = ((∑ k : Fin 1024, x0 (ix2 p k) * Cert.Spec.sgn (x1 (ix2 q k)))
          + (∑ k : Fin 1024, (x0 (ix2 p k) - x0 (ix2 p k)) * Cert.Spec.sgn (x1 (ix2 q k))))
        + x2 (ix2 (0 : Fin 1) q) := by
  unfold k0_pay1
  rw [addf_apply, addf_apply]
  refine congrArg₂ (· + ·) (congrArg₂ (· + ·) ?_ ?_) ?_
  · exact Cert.LibDotT.matmul_zero_transposed_apply _ rfl rfl rfl rfl rfl rfl none _ _ (ix2 p q)
  · exact Cert.LibDotT.matmul_zero_transposed_apply _ rfl rfl rfl rfl rfl rfl none _ _ (ix2 p q)
  · rw [broadcastTo_1b_ab_apply, shapeCast_self]

/-- The stored 1 × 1 × 200 block of column sums at q: the sum over the block's 2048 rows of the stored pre-activations. -/
theorem pay0_2_apply (x0 : Vec Ideal S2048x1024 .f32) (x1 : Vec Ideal S200x1024 .f32) (x2 : Vec Ideal S1x200 .f32)
    (u v : Fin 1) (q : Fin 200) :
    k0_pay2 (F := Ideal) x0 x1 x2 (ix3 u v q) = ∑ r : Fin 2048, k0_pay1 (F := Ideal) x0 x1 x2 (ix2 r q) := by
  unfold k0_pay2
  refine (shapeCast_ab_1ab_apply _ _ u v q).trans ?_
  refine (shapeCast_a_1a_apply _ _ v q).trans ?_
  refine (Ideal.multiReduction_add_single (k0_pay1 (F := Ideal) x0 x1 x2) 0x00000000#32 reduces_S2048x200_S200 (.inl rfl) rfl (ix1 q)).trans ?_
  show ∑ r : Fin 2048, _ = _
  refine Finset.sum_congr rfl fun r _ => congrArg _ (funext fun a => Fin.ext ?_)
  match a with
  | ⟨0, _⟩ => rfl
  | ⟨1, _⟩ => rfl

/-- The stored block of column sums of squares at q. -/
theorem pay0_3_apply (x0 : Vec Ideal S2048x1024 .f32) (x1 : Vec Ideal S200x1024 .f32) (x2 : Vec Ideal S1x200 .f32)
    (u v : Fin 1) (q : Fin 200) :
    k0_pay3 (F := Ideal) x0 x1 x2 (ix3 u v q)
      = ∑ r : Fin 2048, k0_pay1 (F := Ideal) x0 x1 x2 (ix2 r q) * k0_pay1 (F := Ideal) x0 x1 x2 (ix2 r q) := by
  unfold k0_pay3
  refine (shapeCast_ab_1ab_apply _ _ u v q).trans ?_
  refine (shapeCast_a_1a_apply _ _ v q).trans ?_
  refine (Ideal.multiReduction_add_single (mulf (k0_pay1 (F := Ideal) x0 x1 x2) (k0_pay1 (F := Ideal) x0 x1 x2)) 0x00000000#32 reduces_S2048x200_S200 (.inl rfl) rfl (ix1 q)).trans ?_
  show ∑ r : Fin 2048, _ = _
  refine Finset.sum_congr rfl fun r _ => ?_
  have hl : (reduces_S2048x200_S200.lift (ix1 q) r : S2048x200.Idx) = ix2 r q := funext fun a => Fin.ext (by
    match a with
    | ⟨0, _⟩ => rfl
    | ⟨1, _⟩ => rfl)
  rw [hl]
  rfl

end Cert.KernelIdeal.Hand

end
-- ==== Proof.LibTiles.lean ====
/-
  Sums over a batch cut into equal tiles.

  A batch of N = T · R rows cut into T tiles of R rows: summing each tile and then the tiles' sums is summing the batch,
  in any commutative monoid.  Row r of tile t is row t · R + r of the batch.
-/
import Mathlib.Algebra.BigOperators.Fin
import Mathlib.Logic.Equiv.Fin.Basic
import Mathlib.Algebra.BigOperators.Group.Finset.Basic
import Mathlib.Tactic.Ring
import Mathlib.Tactic.Linarith

namespace Cert.Tiles

/-- Row r of tile t lies in the batch. -/
theorem tile_lt {T R N : ℕ} (hN : T * R = N) (t : Fin T) (r : Fin R) : t.val * R + r.val < N := by
  have ht := t.isLt
  have hr := r.isLt
  calc t.val * R + r.val < t.val * R + R := by omega
    _ = (t.val + 1) * R := by ring
    _ ≤ T * R := Nat.mul_le_mul_right R ht
    _ = N := hN

/-- Row r of tile t as a row of the batch. -/
def row {T R N : ℕ} (hN : T * R = N) (t : Fin T) (r : Fin R) : Fin N := ⟨t.val * R + r.val, tile_lt hN t r⟩

/-- The tiles' sums add up to the batch's sum. -/
theorem sum_tiles {M : Type*} [AddCommMonoid M] {T R N : ℕ} (hN : T * R = N) (f : Fin N → M) :
    ∑ t : Fin T, ∑ r : Fin R, f (row hN t r) = ∑ i : Fin N, f i := by
  subst hN
  rw [← Equiv.sum_comp finProdFinEquiv f, Fintype.sum_prod_type]
  refine Finset.sum_congr rfl fun t _ => Finset.sum_congr rfl fun r _ => congrArg f (Fin.ext ?_)
  show t.val * R + r.val = r.val + R * t.val
  ring

end Cert.Tiles
-- ==== Proof.Reg0.lean ====
/-
  The first region's three result arrays as functions of the arrays the region finds.

  The region runs the first kernel at 32 grid points; point t takes rows 2048·t … 2048·t + 2047 of the input, the whole
  weight matrix and the bias row, and writes back block t of the pre-activations and entry t of the two arrays of per-tile
  column sums.  The blocks tile the arrays, so each array ends as one function of the arrays found at entry: entry
  (2048·t + p, q) of the pre-activations is the first layer (with its residue product) at that row and column, and entry
  (t, 0, q) of the sums is the sum over the tile's rows of those entries, respectively of their squares.
-/
import proofs.«120646_j47201690583464_2_alg».proof.Proof.Gen.KernelIdeal.Frame
import proofs.«120646_j47201690583464_2_alg».proof.Proof.Pay0
import proofs.«120646_j47201690583464_2_alg».proof.Proof.LibTiles
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

/-- The index maps of the first region over its grid: the row windows move with the point, the others stay. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 3) = t.val ∧ win0_4.index t (1 : Fin 3) = 0 ∧ win0_4.index t (2 : Fin 3) = 0
    ∧ win0_5.index t (0 : Fin 3) = t.val ∧ win0_5.index t (1 : Fin 3) = 0 ∧ win0_5.index t (2 : Fin 3) = 0 :=
  (by decide +kernel : ∀ t : Fin grid0.N, _)

/-- Row p of tile t of the batch. -/
abbrev row0 (t : Fin cfg0.N) (p : Fin 2048) : Fin 65536 := Cert.Tiles.row (T := 32) (R := 2048) (N := 65536) rfl ⟨t.val, by have := t.isLt; have h : cfg0.N = 32 := N_0; omega⟩ p

/-- The first layer's pre-activations of the arrays the region finds, with the residue product. -/
def pre0 (c : Dev nD) : S65536x200.Idx → EReal := fun i =>
  Cert.Spec.linSplit (B := 65536) (K := 1024) (H := 200)
    (fun a k => (V c main_arg0 : S65536x1024.Idx → EReal) (ix2 a k))
    (fun j k => (V c main_arg1 : S200x1024.Idx → EReal) (ix2 j k))
    (fun j => (V c main_v0 : S1x200.Idx → EReal) (ix2 (0 : Fin 1) j)) (i 0) (i 1)

/-- The input window's block at point t holds rows 2048·t … of the input. -/
theorem iblk0_0_apply (c : Dev nD) (t : Fin cfg0.N) (p : Fin 2048) (k : Fin 1024) :
    iblk0 V c 0 t (ix2 p k) = (V c main_arg0 : S65536x1024.Idx → EReal) (ix2 (row0 t p) k) := by
  obtain ⟨e0, e1, -⟩ := idx0 t
  show (V c main_arg0 : S65536x1024.Idx → EReal) (((cfg0.win 0).blk t).view.emb (ix2 p k)) = _
  refine congrArg _ (funext fun a => Fin.ext ?_)
  match a with
  | ⟨0, _⟩ => show win0_0.index t (0 : Fin 2) * 2048 + 1 * p.val = t.val * 2048 + p.val; omega
  | ⟨1, _⟩ => show win0_0.index t (1 : Fin 2) * 1024 + 1 * k.val = k.val; omega

/-- The weight window's block is the whole weight matrix. -/
theorem iblk0_1_apply (c : Dev nD) (t : Fin cfg0.N) (q : Fin 200) (k : Fin 1024) :
    iblk0 V c 1 t (ix2 q k) = (V c main_arg1 : S200x1024.Idx → EReal) (ix2 q k) := by
  obtain ⟨-, -, e2, e3, -⟩ := idx0 t
  show (V c main_arg1 : S200x1024.Idx → EReal) (((cfg0.win 1).blk t).view.emb (ix2 q k)) = _
  refine congrArg _ (funext fun a => Fin.ext ?_)
  match a with
  | ⟨0, _⟩ => show win0_1.index t (0 : Fin 2) * 200 + 1 * q.val = q.val; omega
  | ⟨1, _⟩ => show win0_1.index t (1 : Fin 2) * 1024 + 1 * k.val = k.val; omega

/-- The bias window's block is the whole bias row. -/
theorem iblk0_2_apply (c : Dev nD) (t : Fin cfg0.N) (u : Fin 1) (q : Fin 200) :
    iblk0 V c 2 t (ix2 u q) = (V c main_v0 : S1x200.Idx → EReal) (ix2 u q) := by
  obtain ⟨-, -, -, -, e4, e5, -⟩ := idx0 t
  show (V c main_v0 : S1x200.Idx → EReal) (((cfg0.win 2).blk t).view.emb (ix2 u q)) = _
  refine congrArg _ (funext fun a => Fin.ext ?_)
  match a with
  | ⟨0, _⟩ => show win0_2.index t (0 : Fin 2) * 1 + 1 * u.val = u.val; omega
  | ⟨1, _⟩ => show win0_2.index t (1 : Fin 2) * 200 + 1 * q.val = q.val; omega

/-- The stored pre-activation at (p, q) of point t is the first layer at row 2048·t + p, column q. -/
theorem entry0 (c : Dev nD) (t : Fin cfg0.N) (p : Fin 2048) (q : Fin 200) :
    k0_pay1 (F := Ideal) (iblk0 V c 0 t) (iblk0 V c 1 t) (iblk0 V c 2 t) (ix2 p q) = pre0 V c (ix2 (row0 t p) q) := by
  refine (pay0_1_apply (iblk0 V c 0 t) (iblk0 V c 1 t) (iblk0 V c 2 t) p q).trans ?_
  simp only [iblk0_0_apply, iblk0_1_apply, iblk0_2_apply]
  rfl

/-- What point t writes back of the pre-activations is block t of `pre0`. -/
theorem flushed0_3_eq (c : Dev nD) (t : Fin cfg0.N) :
    (dat0 V c).flushed 3 t = ((cfg0.win 3).blk t).view.read (Elt Ideal) (pre0 V c) := by
  show (cfg0.win 3).cut (grid0.coords t) ((dat0 V c).after 3 t) = _
  rw [after0_3]
  unfold out0_3
  rw [View.canon_unit_zero hz2]
  simp only [View.ld_unit_zero (S := S2048x1024) hz2, View.ld_unit_zero (S := S200x1024) hz2, View.ld_unit_zero (S := S1x200) hz2]
  funext y
  obtain ⟨p, q, rfl⟩ : ∃ (p : Fin 2048) (q : Fin 200), y = ix2 p q := ⟨y 0, y 1, eq_ix2 y⟩
  obtain ⟨-, -, -, -, -, -, e6, e7, -⟩ := idx0 t
  have hemb : ((cfg0.win 3).blk t).view.emb (ix2 p q) = (ix2 (row0 t p) q : S65536x200.Idx) := funext fun a => Fin.ext (by
    match a with
    | ⟨0, _⟩ => show win0_3.index t (0 : Fin 2) * 2048 + 1 * p.val = t.val * 2048 + p.val; omega
    | ⟨1, _⟩ => show win0_3.index t (1 : Fin 2) * 200 + 1 * q.val = q.val; omega)
  show k0_pay1 (F := Ideal) (iblk0 V c 0 t) (iblk0 V c 1 t) (iblk0 V c 2 t) (ix2 p q) = pre0 V c (((cfg0.win 3).blk t).view.emb (ix2 p q))
  rw [hemb]
  exact entry0 V c t p q

/-- Point t as a tile number. -/
abbrev tile0 (t : Fin cfg0.N) : Fin 32 := ⟨t.val, by have := t.isLt; have h : cfg0.N = 32 := N_0; omega⟩

/-- Per tile and column, the sum over the tile's rows of the pre-activations, and of their squares. -/
def sum0 (c : Dev nD) : S32x1x200.Idx → EReal := fun i =>
  ∑ r : Fin 2048, pre0 V c (ix2 (Cert.Tiles.row (T := 32) (R := 2048) (N := 65536) rfl (i 0) r) (i 2))
def sq0 (c : Dev nD) : S32x1x200.Idx → EReal := fun i =>
  ∑ r : Fin 2048, pre0 V c (ix2 (Cert.Tiles.row (T := 32) (R := 2048) (N := 65536) rfl (i 0) r) (i 2))
    * pre0 V c (ix2 (Cert.Tiles.row (T := 32) (R := 2048) (N := 65536) rfl (i 0) r) (i 2))

/-- Where a sums block of point t lies in its array. -/
theorem emb0_4 (t : Fin cfg0.N) (u v : Fin 1) (q : Fin 200) :
    ((cfg0.win 4).blk t).view.emb (ix3 u v q) = (ix3 (tile0 t) (0 : Fin 1) q : S32x1x200.Idx) := by
  obtain ⟨-, -, -, -, -, -, -, -, e8, e9, e10, -⟩ := idx0 t
  refine funext fun a => Fin.ext ?_
  have hu := u.isLt
  have hv := v.isLt
  match a with
  | ⟨0, _⟩ => show win0_4.index t (0 : Fin 3) * 1 + 1 * u.val = t.val; omega
  | ⟨1, _⟩ => show win0_4.index t (1 : Fin 3) * 1 + 1 * v.val = 0; omega
  | ⟨2, _⟩ => show win0_4.index t (2 : Fin 3) * 200 + 1 * q.val = q.val; omega
theorem emb0_5 (t : Fin cfg0.N) (u v : Fin 1) (q : Fin 200) :
    ((cfg0.win 5).blk t).view.emb (ix3 u v q) = (ix3 (tile0 t) (0 : Fin 1) q : S32x1x200.Idx) := by
  obtain ⟨-, -, -, -, -, -, -, -, -, -, -, e11, e12, e13⟩ := idx0 t
  refine funext fun a => Fin.ext ?_
  have hu := u.isLt
  have hv := v.isLt
  match a with
  | ⟨0, _⟩ => show win0_5.index t (0 : Fin 3) * 1 + 1 * u.val = t.val; omega
  | ⟨1, _⟩ => show win0_5.index t (1 : Fin 3) * 1 + 1 * v.val = 0; omega
  | ⟨2, _⟩ => show win0_5.index t (2 : Fin 3) * 200 + 1 * q.val = q.val; omega

/-- What point t writes back of the column sums is entry t of `sum0`. -/
theorem flushed0_4_eq (c : Dev nD) (t : Fin cfg0.N) :
    (dat0 V c).flushed 4 t = ((cfg0.win 4).blk t).view.read (Elt Ideal) (sum0 V c) := by
  show (cfg0.win 4).cut (grid0.coords t) ((dat0 V c).after 4 t) = _
  rw [after0_4]
  unfold out0_4
  rw [View.canon_unit_zero hz3]
  simp only [View.ld_unit_zero (S := S2048x1024) hz2, View.ld_unit_zero (S := S200x1024) hz2, View.ld_unit_zero (S := S1x200) hz2]
  funext y
  obtain ⟨u, v, q, rfl⟩ : ∃ (u v : Fin 1) (q : Fin 200), y = ix3 u v q := ⟨y 0, y 1, y 2, eq_ix3 y⟩
  show k0_pay2 (F := Ideal) (iblk0 V c 0 t) (iblk0 V c 1 t) (iblk0 V c 2 t) (ix3 u v q) = sum0 V c (((cfg0.win 4).blk t).view.emb (ix3 u v q))
  rw [emb0_4]
  refine (pay0_2_apply (iblk0 V c 0 t) (iblk0 V c 1 t) (iblk0 V c 2 t) u v q).trans ?_
  exact Finset.sum_congr rfl fun r _ => entry0 V c t r q

/-- What point t writes back of the column sums of squares is entry t of `sq0`. -/
theorem flushed0_5_eq (c : Dev nD) (t : Fin cfg0.N) :
    (dat0 V c).flushed 5 t = ((cfg0.win 5).blk t).view.read (Elt Ideal) (sq0 V c) := by
  show (cfg0.win 5).cut (grid0.coords t) ((dat0 V c).after 5 t) = _
  rw [after0_5]
  unfold out0_5
  rw [View.canon_unit_zero hz3]
  simp only [View.ld_unit_zero (S := S2048x1024) hz2, View.ld_unit_zero (S := S200x1024) hz2, View.ld_unit_zero (S := S1x200) hz2]
  funext y
  obtain ⟨u, v, q, rfl⟩ : ∃ (u v : Fin 1) (q : Fin 200), y = ix3 u v q := ⟨y 0, y 1, y 2, eq_ix3 y⟩
  show k0_pay3 (F := Ideal) (iblk0 V c 0 t) (iblk0 V c 1 t) (iblk0 V c 2 t) (ix3 u v q) = sq0 V c (((cfg0.win 5).blk t).view.emb (ix3 u v q))
  rw [emb0_5]
  refine (pay0_3_apply (iblk0 V c 0 t) (iblk0 V c 1 t) (iblk0 V c 2 t) u v q).trans ?_
  exact Finset.sum_congr rfl fun r _ => by rw [entry0 V c t r q]

/-- Every row of the pre-activations lies in the block of the point that is its tile. -/
theorem cover0_3' (i : S65536x200.Idx) : ∃ t : Fin cfg0.N, (cfg0.win 3).flush t = true ∧ i ∈ ((cfg0.win 3).blk t).view.set := by
  have hi0 : (i 0).val < 65536 := (i 0).isLt
  have hi1 : (i 1).val < 200 := (i 1).isLt
  let t : Fin cfg0.N := Fin.cast N_0.symm ⟨(i 0).val / 2048, by omega⟩
  have htv : t.val = (i 0).val / 2048 := rfl
  obtain ⟨-, -, -, -, -, -, e6, e7, -⟩ := idx0 t
  refine ⟨t, flush0_3 t, ?_⟩
  show i ∈ ((View.whole main_v1_0).slice (win0_3.rect t)).set
  rw [View.set_slice_whole, Rect.mem_set_unit]
  intro a
  match a with
  | ⟨0, _⟩ => show win0_3.index t (0 : Fin 2) * 2048 ≤ (i 0).val ∧ (i 0).val < win0_3.index t (0 : Fin 2) * 2048 + 2048; omega
  | ⟨1, _⟩ => show win0_3.index t (1 : Fin 2) * 200 ≤ (i 1).val ∧ (i 1).val < win0_3.index t (1 : Fin 2) * 200 + 200; omega

/-- Every entry of a sums array lies in the block of its tile's point. -/
theorem cover0_4' (i : S32x1x200.Idx) : ∃ t : Fin cfg0.N, (cfg0.win 4).flush t = true ∧ i ∈ ((cfg0.win 4).blk t).view.set := by
  have hi0 : (i 0).val < 32 := (i 0).isLt
  have hi1 : (i 1).val < 1 := (i 1).isLt
  have hi2 : (i 2).val < 200 := (i 2).isLt
  let t : Fin cfg0.N := Fin.cast N_0.symm ⟨(i 0).val, hi0⟩
  have htv : t.val = (i 0).val := rfl
  obtain ⟨-, -, -, -, -, -, -, -, e8, e9, e10, -⟩ := idx0 t
  refine ⟨t, flush0_4 t, ?_⟩
  show i ∈ ((View.whole main_v1_1).slice (win0_4.rect t)).set
  rw [View.set_slice_whole, Rect.mem_set_unit]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 1 ≤ (i 1).val ∧ (i 1).val < win0_4.index t (1 : Fin 3) * 1 + 1; omega
  | ⟨2, _⟩ => show win0_4.index t (2 : Fin 3) * 200 ≤ (i 2).val ∧ (i 2).val < win0_4.index t (2 : Fin 3) * 200 + 200; omega
theorem cover0_5' (i : S32x1x200.Idx) : ∃ t : Fin cfg0.N, (cfg0.win 5).flush t = true ∧ i ∈ ((cfg0.win 5).blk t).view.set := by
  have hi0 : (i 0).val < 32 := (i 0).isLt
  have hi1 : (i 1).val < 1 := (i 1).isLt
  have hi2 : (i 2).val < 200 := (i 2).isLt
  let t : Fin cfg0.N := Fin.cast N_0.symm ⟨(i 0).val, hi0⟩
  have htv : t.val = (i 0).val := rfl
  obtain ⟨-, -, -, -, -, -, -, -, -, -, -, e11, e12, e13⟩ := idx0 t
  refine ⟨t, flush0_5 t, ?_⟩
  show i ∈ ((View.whole main_v1_2).slice (win0_5.rect t)).set
  rw [View.set_slice_whole, Rect.mem_set_unit]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 1 ≤ (i 1).val ∧ (i 1).val < win0_5.index t (1 : Fin 3) * 1 + 1; omega
  | ⟨2, _⟩ => show win0_5.index t (2 : Fin 3) * 200 ≤ (i 2).val ∧ (i 2).val < win0_5.index t (2 : Fin 3) * 200 + 200; omega

/-- The three result arrays after the region. -/
theorem final0_3 (c : Dev nD) : (dat0 V c).arrAt 3 cfg0.N = pre0 V c :=
  (dat0 V c).arrAt_eq_of_cover 3 (pre0 V c) (fun t _ => flushed0_3_eq V c t) (cover0_3')
theorem final0_4 (c : Dev nD) : (dat0 V c).arrAt 4 cfg0.N = sum0 V c :=
  (dat0 V c).arrAt_eq_of_cover 4 (sum0 V c) (fun t _ => flushed0_4_eq V c t) (cover0_4')
theorem final0_5 (c : Dev nD) : (dat0 V c).arrAt 5 cfg0.N = sq0 V c :=
  (dat0 V c).arrAt_eq_of_cover 5 (sq0 V c) (fun t _ => flushed0_5_eq V c t) (cover0_5')

end Cert.KernelIdeal.Hand

end
-- ==== Proof.Pay1.lean ====
/-
  The second kernel's stored values, entry by entry, on the extended reals.

  The body takes a 4096-row block of the previous layer's pre-activations, the rows of their column means, variances,
  scales and shifts, the whole weight matrix and the bias row.  It normalises each entry, takes signs, and stores at
  (p, q) row p of the signs against row q of the sign matrix of the weights plus the bias at q; beside it, per column q,
  the sum over the 4096 rows of those entries and the sum of their squares.
-/
import proofs.«120646_j47201690583464_2_alg».proof.Proof.Gen.KernelIdeal.Skeleton
import proofs.«120646_j47201690583464_2_alg».proof.Proof.Spec
import proofs.«120646_j47201690583464_2_alg».proof.Proof.LibDotT
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Cert.KernelIdeal Cert.KernelIdeal.Gen
open Idealize.ShloMosaic Idealize.ShloMosaic.ValueIdx

/-- The normalised, scaled, shifted entry whose sign the body takes. -/
def bn1 (x0 : Vec Ideal S4096x200 .f32) (g mu var be : Vec Ideal S1x200 .f32) (p : Fin 4096) (k : Fin 200) : EReal :=
  g (ix2 (0 : Fin 1) k) * (x0 (ix2 p k) - mu (ix2 (0 : Fin 1) k)) * Ideal.rsqrt (var (ix2 (0 : Fin 1) k) + Cert.Spec.eps) + be (ix2 (0 : Fin 1) k)

/-- The product of the signs with the sign matrix of the weights at (p, q). -/
theorem pay1_4_apply (x0 : Vec Ideal S4096x200 .f32) (g mu var be : Vec Ideal S1x200 .f32) (w : Vec Ideal S100x200 .f32)
    (p : Fin 4096) (q : Fin 100) :
    k1_pay4 (F := Ideal) x0 g mu var be w (ix2 p q)
      = ∑ k : Fin 200, Cert.Spec.sgn (bn1 x0 g mu var be p k) * Cert.Spec.sgn (w (ix2 q k)) := by
  unfold k1_pay4
  refine (Cert.LibDotT.matmul_zero_transposed_apply _ rfl rfl rfl rfl rfl rfl none _ _ (ix2 p q)).trans ?_
  refine Finset.sum_congr rfl fun k _ => congrArg₂ (· * ·) (congrArg Cert.Spec.sgn ?_) rfl
  show _ = bn1 x0 g mu var be p k
  unfold bn1
  rw [addf_apply, mulf_apply, mulf_apply, subf_apply, broadcastTo_1b_ab_apply, broadcastTo_1b_ab_apply,
    broadcastTo_1b_ab_apply, broadcastTo_1b_ab_apply]
  simp only [shapeCast_self]
  rfl

/-- The stored block of pre-activations at (p, q): the product plus the bias. -/
theorem pay1_1_apply (v34 : FVec Ideal S4096x100 .f32) (b : Vec Ideal S1x100 .f32) (p : Fin 4096) (q : Fin 100) :
    k1_pay1 (F := Ideal) v34 (k1_pay5 (F := Ideal) b) (ix2 p q) = v34 (ix2 p q) + b (ix2 (0 : Fin 1) q) := by
  unfold k1_pay1 k1_pay5
  rw [addf_apply, broadcastTo_1b_ab_apply, shapeCast_self]

/-- The stored 1 × 1 × 100 block of column sums at q. -/
theorem pay1_2_apply (v34 : FVec Ideal S4096x100 .f32) (v36 : FVec Ideal S1x100 .f32) (u v : Fin 1) (q : Fin 100) :
    k1_pay2 (F := Ideal) v34 v36 (ix3 u v q) = ∑ r : Fin 4096, k1_pay1 (F := Ideal) v34 v36 (ix2 r q) := by
  unfold k1_pay2
  refine (shapeCast_ab_1ab_apply _ _ u v q).trans ?_
  refine (shapeCast_a_1a_apply _ _ v q).trans ?_
  refine (Ideal.multiReduction_add_single (k1_pay1 (F := Ideal) v34 v36) 0x00000000#32 reduces_S4096x100_S100 (.inl rfl) rfl (ix1 q)).trans ?_
  show ∑ r : Fin 4096, _ = _
  refine Finset.sum_congr rfl fun r _ => congrArg _ (funext fun a => Fin.ext ?_)
  match a with
  | ⟨0, _⟩ => rfl
  | ⟨1, _⟩ => rfl

/-- The stored block of column sums of squares at q. -/
theorem pay1_3_apply (v34 : FVec Ideal S4096x100 .f32) (v36 : FVec Ideal S1x100 .f32) (u v : Fin 1) (q : Fin 100) :
    k1_pay3 (F := Ideal) v34 v36 (ix3 u v q)
      = ∑ r : Fin 4096, k1_pay1 (F := Ideal) v34 v36 (ix2 r q) * k1_pay1 (F := Ideal) v34 v36 (ix2 r q) := by
  unfold k1_pay3
  refine (shapeCast_ab_1ab_apply _ _ u v q).trans ?_
  refine (shapeCast_a_1a_apply _ _ v q).trans ?_
  refine (Ideal.multiReduction_add_single (mulf (k1_pay1 (F := Ideal) v34 v36) (k1_pay1 (F := Ideal) v34 v36)) 0x00000000#32 reduces_S4096x100_S100 (.inl rfl) rfl (ix1 q)).trans ?_
  show ∑ r : Fin 4096, _ = _
  refine Finset.sum_congr rfl fun r _ => ?_
  have hl : (reduces_S4096x100_S100.lift (ix1 q) r : S4096x100.Idx) = ix2 r q := funext fun a => Fin.ext (by
    match a with
    | ⟨0, _⟩ => rfl
    | ⟨1, _⟩ => rfl)
  rw [hl]
  rfl

end Cert.KernelIdeal.Hand

end
-- ==== Proof.Reg1.lean ====
/-
  The second region's three result arrays as functions of the arrays the region finds.

  The region runs its kernel at 16 grid points; point t takes rows 4096·t … 4096·t + 4095 of the previous layer's
  pre-activations, the rows of their column means, variances, scales and shifts, the whole weight matrix and the bias row,
  and writes back block t of this layer's pre-activations and entry t of the two arrays of per-tile column sums.  The blocks
  tile the arrays, so each array ends as one function of the arrays found at entry.
-/
import proofs.«120646_j47201690583464_2_alg».proof.Proof.Gen.KernelIdeal.Frame
import proofs.«120646_j47201690583464_2_alg».proof.Proof.Pay1
import proofs.«120646_j47201690583464_2_alg».proof.Proof.LibTiles
import Idealize.ShloMosaic.Lib.Pipeline.Value

set_option maxRecDepth 16384

noncomputable section

namespace Cert.KernelIdeal.Hand1

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

/-- The index maps of the region over its grid: the row windows move with the point, the others stay. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0
    ∧ win1_8.index t (0 : Fin 3) = t.val ∧ win1_8.index t (1 : Fin 3) = 0 ∧ win1_8.index t (2 : Fin 3) = 0
    ∧ win1_9.index t (0 : Fin 3) = t.val ∧ win1_9.index t (1 : Fin 3) = 0 ∧ win1_9.index t (2 : Fin 3) = 0 :=
  (by decide +kernel : ∀ t : Fin grid1.N, _)

/-- Point t as a tile number, and row p of tile t of the batch. -/
abbrev tile1 (t : Fin cfg1.N) : Fin 16 := ⟨t.val, by have := t.isLt; have h : cfg1.N = 16 := N_1; omega⟩
abbrev row1 (t : Fin cfg1.N) (p : Fin 4096) : Fin 65536 := Cert.Tiles.row (T := 16) (R := 4096) (N := 65536) rfl (tile1 t) p

/-- This layer's pre-activations of the arrays the region finds: the signs of the normalised previous layer against the
    sign matrix of the weights, plus the bias. -/
def pre1 (c : Dev nD) : S65536x100.Idx → EReal := fun i =>
  Cert.Spec.lin (B := 65536) (K := 200) (H := 100)
    (Cert.Spec.act (B := 65536) (H := 200)
      (fun a k => (V c main_v1_0 : S65536x200.Idx → EReal) (ix2 a k))
      (fun k => (V c main_v10 : S1x200.Idx → EReal) (ix2 (0 : Fin 1) k))
      (fun k => (V c main_v11 : S1x200.Idx → EReal) (ix2 (0 : Fin 1) k))
      (fun k => (V c main_v12 : S1x200.Idx → EReal) (ix2 (0 : Fin 1) k))
      (fun k => (V c main_v13 : S1x200.Idx → EReal) (ix2 (0 : Fin 1) k)))
    (fun j k => (V c main_arg5 : S100x200.Idx → EReal) (ix2 j k))
    (fun j => (V c main_v14 : S1x100.Idx → EReal) (ix2 (0 : Fin 1) j)) (i 0) (i 1)

/-- The input window's block at point t holds rows 4096·t … of the previous pre-activations. -/
theorem iblk1_0_apply (c : Dev nD) (t : Fin cfg1.N) (p : Fin 4096) (k : Fin 200) :
    iblk1 V c 0 t (ix2 p k) = (V c main_v1_0 : S65536x200.Idx → EReal) (ix2 (row1 t p) k) := by
  have e := idx1 t
  show (V c main_v1_0 : S65536x200.Idx → EReal) (((cfg1.win 0).blk t).view.emb (ix2 p k)) = _
  refine congrArg _ (funext fun a => Fin.ext ?_)
  match a with
  | ⟨0, _⟩ => show win1_0.index t (0 : Fin 2) * 4096 + 1 * p.val = t.val * 4096 + p.val; omega
  | ⟨1, _⟩ => show win1_0.index t (1 : Fin 2) * 200 + 1 * k.val = k.val; omega

/-- The mean window's block is the whole row. -/
theorem iblk1_1_apply (c : Dev nD) (t : Fin cfg1.N) (u : Fin 1) (k : Fin 200) :
    iblk1 V c 1 t (ix2 u k) = (V c main_v10 : S1x200.Idx → EReal) (ix2 u k) := by
  have e := idx1 t
  show (V c main_v10 : S1x200.Idx → EReal) (((cfg1.win 1).blk t).view.emb (ix2 u k)) = _
  refine congrArg _ (funext fun a => Fin.ext ?_)
  match a with
  | ⟨0, _⟩ => show win1_1.index t (0 : Fin 2) * 1 + 1 * u.val = u.val; omega
  | ⟨1, _⟩ => show win1_1.index t (1 : Fin 2) * 200 + 1 * k.val = k.val; omega

/-- The variance window's block is the whole row. -/
theorem iblk1_2_apply (c : Dev nD) (t : Fin cfg1.N) (u : Fin 1) (k : Fin 200) :
    iblk1 V c 2 t (ix2 u k) = (V c main_v11 : S1x200.Idx → EReal) (ix2 u k) := by
  have e := idx1 t
  show (V c main_v11 : S1x200.Idx → EReal) (((cfg1.win 2).blk t).view.emb (ix2 u k)) = _
  refine congrArg _ (funext fun a => Fin.ext ?_)
  match a with
  | ⟨0, _⟩ => show win1_2.index t (0 : Fin 2) * 1 + 1 * u.val = u.val; omega
  | ⟨1, _⟩ => show win1_2.index t (1 : Fin 2) * 200 + 1 * k.val = k.val; omega

/-- The scale window's block is the whole row. -/
theorem iblk1_3_apply (c : Dev nD) (t : Fin cfg1.N) (u : Fin 1) (k : Fin 200) :
    iblk1 V c 3 t (ix2 u k) = (V c main_v12 : S1x200.Idx → EReal) (ix2 u k) := by
  have e := idx1 t
  show (V c main_v12 : S1x200.Idx → EReal) (((cfg1.win 3).blk t).view.emb (ix2 u k)) = _
  refine congrArg _ (funext fun a => Fin.ext ?_)
  match a with
  | ⟨0, _⟩ => show win1_3.index t (0 : Fin 2) * 1 + 1 * u.val = u.val; omega
  | ⟨1, _⟩ => show win1_3.index t (1 : Fin 2) * 200 + 1 * k.val = k.val; omega

/-- The shift window's block is the whole row. -/
theorem iblk1_4_apply (c : Dev nD) (t : Fin cfg1.N) (u : Fin 1) (k : Fin 200) :
    iblk1 V c 4 t (ix2 u k) = (V c main_v13 : S1x200.Idx → EReal) (ix2 u k) := by
  have e := idx1 t
  show (V c main_v13 : S1x200.Idx → EReal) (((cfg1.win 4).blk t).view.emb (ix2 u k)) = _
  refine congrArg _ (funext fun a => Fin.ext ?_)
  match a with
  | ⟨0, _⟩ => show win1_4.index t (0 : Fin 2) * 1 + 1 * u.val = u.val; omega
  | ⟨1, _⟩ => show win1_4.index t (1 : Fin 2) * 200 + 1 * k.val = k.val; omega

/-- The weight window's block is the whole weight matrix. -/
theorem iblk1_5_apply (c : Dev nD) (t : Fin cfg1.N) (q : Fin 100) (k : Fin 200) :
    iblk1 V c 5 t (ix2 q k) = (V c main_arg5 : S100x200.Idx → EReal) (ix2 q k) := by
  have e := idx1 t
  show (V c main_arg5 : S100x200.Idx → EReal) (((cfg1.win 5).blk t).view.emb (ix2 q k)) = _
  refine congrArg _ (funext fun a => Fin.ext ?_)
  match a with
  | ⟨0, _⟩ => show win1_5.index t (0 : Fin 2) * 100 + 1 * q.val = q.val; omega
  | ⟨1, _⟩ => show win1_5.index t (1 : Fin 2) * 200 + 1 * k.val = k.val; omega

/-- The bias window's block is the whole bias row. -/
theorem iblk1_6_apply (c : Dev nD) (t : Fin cfg1.N) (u : Fin 1) (q : Fin 100) :
    iblk1 V c 6 t (ix2 u q) = (V c main_v14 : S1x100.Idx → EReal) (ix2 u q) := by
  have e := idx1 t
  show (V c main_v14 : S1x100.Idx → EReal) (((cfg1.win 6).blk t).view.emb (ix2 u q)) = _
  refine congrArg _ (funext fun a => Fin.ext ?_)
  match a with
  | ⟨0, _⟩ => show win1_6.index t (0 : Fin 2) * 1 + 1 * u.val = u.val; omega
  | ⟨1, _⟩ => show win1_6.index t (1 : Fin 2) * 100 + 1 * q.val = q.val; omega

/-- The stored pre-activation at (p, q) of point t is this layer at row 4096·t + p, column q. -/
theorem entry1 (c : Dev nD) (t : Fin cfg1.N) (p : Fin 4096) (q : Fin 100) :
    k1_pay1 (F := Ideal) (k1_pay4 (F := Ideal) (iblk1 V c 0 t) (iblk1 V c 3 t) (iblk1 V c 1 t) (iblk1 V c 2 t) (iblk1 V c 4 t) (iblk1 V c 5 t)) (k1_pay5 (F := Ideal) (iblk1 V c 6 t)) (ix2 p q) = pre1 V c (ix2 (row1 t p) q) := by
  refine (pay1_1_apply _ (iblk1 V c 6 t) p q).trans ?_
  rw [pay1_4_apply]
  unfold bn1
  simp only [iblk1_0_apply, iblk1_1_apply, iblk1_2_apply, iblk1_3_apply, iblk1_4_apply, iblk1_5_apply, iblk1_6_apply]
  rfl

/-- What point t writes back of the pre-activations is block t of `pre1`. -/
theorem flushed1_7_eq (c : Dev nD) (t : Fin cfg1.N) :
    (dat1 V c).flushed 7 t = ((cfg1.win 7).blk t).view.read (Elt Ideal) (pre1 V c) := by
  show (cfg1.win 7).cut (grid1.coords t) ((dat1 V c).after 7 t) = _
  rw [after1_7]
  unfold out1_7
  rw [View.canon_unit_zero hz2]
  simp only [View.ld_unit_zero (S := S4096x200) hz2, View.ld_unit_zero (S := S1x200) hz2, View.ld_unit_zero (S := S100x200) hz2, View.ld_unit_zero (S := S1x100) hz2]
  funext y
  obtain ⟨p, q, rfl⟩ : ∃ (p : Fin 4096) (q : Fin 100), y = ix2 p q := ⟨y 0, y 1, eq_ix2 y⟩
  have e := idx1 t
  have hemb : ((cfg1.win 7).blk t).view.emb (ix2 p q) = (ix2 (row1 t p) q : S65536x100.Idx) := funext fun a => Fin.ext (by
    match a with
    | ⟨0, _⟩ => show win1_7.index t (0 : Fin 2) * 4096 + 1 * p.val = t.val * 4096 + p.val; omega
    | ⟨1, _⟩ => show win1_7.index t (1 : Fin 2) * 100 + 1 * q.val = q.val; omega)
  show k1_pay1 (F := Ideal) (k1_pay4 (F := Ideal) (iblk1 V c 0 t) (iblk1 V c 3 t) (iblk1 V c 1 t) (iblk1 V c 2 t) (iblk1 V c 4 t) (iblk1 V c 5 t)) (k1_pay5 (F := Ideal) (iblk1 V c 6 t)) (ix2 p q) = pre1 V c (((cfg1.win 7).blk t).view.emb (ix2 p q))
  rw [hemb]
  exact entry1 V c t p q

/-- Per tile and column, the sum over the tile's rows of the pre-activations, and of their squares. -/
def sum1 (c : Dev nD) : S16x1x100.Idx → EReal := fun i =>
  ∑ r : Fin 4096, pre1 V c (ix2 (Cert.Tiles.row (T := 16) (R := 4096) (N := 65536) rfl (i 0) r) (i 2))
def sq1 (c : Dev nD) : S16x1x100.Idx → EReal := fun i =>
  ∑ r : Fin 4096, pre1 V c (ix2 (Cert.Tiles.row (T := 16) (R := 4096) (N := 65536) rfl (i 0) r) (i 2))
    * pre1 V c (ix2 (Cert.Tiles.row (T := 16) (R := 4096) (N := 65536) rfl (i 0) r) (i 2))

/-- Where a sums block of point t lies in its array. -/
theorem emb1_8 (t : Fin cfg1.N) (u v : Fin 1) (q : Fin 100) :
    ((cfg1.win 8).blk t).view.emb (ix3 u v q) = (ix3 (tile1 t) (0 : Fin 1) q : S16x1x100.Idx) := by
  have e := idx1 t
  refine funext fun a => Fin.ext ?_
  have hu := u.isLt
  have hv := v.isLt
  match a with
  | ⟨0, _⟩ => show win1_8.index t (0 : Fin 3) * 1 + 1 * u.val = t.val; omega
  | ⟨1, _⟩ => show win1_8.index t (1 : Fin 3) * 1 + 1 * v.val = 0; omega
  | ⟨2, _⟩ => show win1_8.index t (2 : Fin 3) * 100 + 1 * q.val = q.val; omega
theorem emb1_9 (t : Fin cfg1.N) (u v : Fin 1) (q : Fin 100) :
    ((cfg1.win 9).blk t).view.emb (ix3 u v q) = (ix3 (tile1 t) (0 : Fin 1) q : S16x1x100.Idx) := by
  have e := idx1 t
  refine funext fun a => Fin.ext ?_
  have hu := u.isLt
  have hv := v.isLt
  match a with
  | ⟨0, _⟩ => show win1_9.index t (0 : Fin 3) * 1 + 1 * u.val = t.val; omega
  | ⟨1, _⟩ => show win1_9.index t (1 : Fin 3) * 1 + 1 * v.val = 0; omega
  | ⟨2, _⟩ => show win1_9.index t (2 : Fin 3) * 100 + 1 * q.val = q.val; omega

/-- What point t writes back of the column sums is entry t of `sum1`. -/
theorem flushed1_8_eq (c : Dev nD) (t : Fin cfg1.N) :
    (dat1 V c).flushed 8 t = ((cfg1.win 8).blk t).view.read (Elt Ideal) (sum1 V c) := by
  show (cfg1.win 8).cut (grid1.coords t) ((dat1 V c).after 8 t) = _
  rw [after1_8]
  unfold out1_8
  rw [View.canon_unit_zero hz3]
  simp only [View.ld_unit_zero (S := S4096x200) hz2, View.ld_unit_zero (S := S1x200) hz2, View.ld_unit_zero (S := S100x200) hz2, View.ld_unit_zero (S := S1x100) hz2]
  funext y
  obtain ⟨u, v, q, rfl⟩ : ∃ (u v : Fin 1) (q : Fin 100), y = ix3 u v q := ⟨y 0, y 1, y 2, eq_ix3 y⟩
  show k1_pay2 (F := Ideal) (k1_pay4 (F := Ideal) (iblk1 V c 0 t) (iblk1 V c 3 t) (iblk1 V c 1 t) (iblk1 V c 2 t) (iblk1 V c 4 t) (iblk1 V c 5 t)) (k1_pay5 (F := Ideal) (iblk1 V c 6 t)) (ix3 u v q) = sum1 V c (((cfg1.win 8).blk t).view.emb (ix3 u v q))
  rw [emb1_8]
  refine (pay1_2_apply _ _ u v q).trans ?_
  exact Finset.sum_congr rfl fun r _ => entry1 V c t r q

/-- What point t writes back of the column sums of squares is entry t of `sq1`. -/
theorem flushed1_9_eq (c : Dev nD) (t : Fin cfg1.N) :
    (dat1 V c).flushed 9 t = ((cfg1.win 9).blk t).view.read (Elt Ideal) (sq1 V c) := by
  show (cfg1.win 9).cut (grid1.coords t) ((dat1 V c).after 9 t) = _
  rw [after1_9]
  unfold out1_9
  rw [View.canon_unit_zero hz3]
  simp only [View.ld_unit_zero (S := S4096x200) hz2, View.ld_unit_zero (S := S1x200) hz2, View.ld_unit_zero (S := S100x200) hz2, View.ld_unit_zero (S := S1x100) hz2]
  funext y
  obtain ⟨u, v, q, rfl⟩ : ∃ (u v : Fin 1) (q : Fin 100), y = ix3 u v q := ⟨y 0, y 1, y 2, eq_ix3 y⟩
  show k1_pay3 (F := Ideal) (k1_pay4 (F := Ideal) (iblk1 V c 0 t) (iblk1 V c 3 t) (iblk1 V c 1 t) (iblk1 V c 2 t) (iblk1 V c 4 t) (iblk1 V c 5 t)) (k1_pay5 (F := Ideal) (iblk1 V c 6 t)) (ix3 u v q) = sq1 V c (((cfg1.win 9).blk t).view.emb (ix3 u v q))
  rw [emb1_9]
  refine (pay1_3_apply _ _ u v q).trans ?_
  exact Finset.sum_congr rfl fun r _ => by rw [entry1 V c t r q]

/-- Every row of the pre-activations lies in the block of the point that is its tile. -/
theorem cover1_7' (i : S65536x100.Idx) : ∃ t : Fin cfg1.N, (cfg1.win 7).flush t = true ∧ i ∈ ((cfg1.win 7).blk t).view.set := by
  have hi0 : (i 0).val < 65536 := (i 0).isLt
  have hi1 : (i 1).val < 100 := (i 1).isLt
  let t : Fin cfg1.N := Fin.cast N_1.symm ⟨(i 0).val / 4096, by omega⟩
  have htv : t.val = (i 0).val / 4096 := rfl
  have e := idx1 t
  refine ⟨t, flush1_7 t, ?_⟩
  show i ∈ ((View.whole main_v15_0).slice (win1_7.rect t)).set
  rw [View.set_slice_whole, Rect.mem_set_unit]
  intro a
  match a with
  | ⟨0, _⟩ => show win1_7.index t (0 : Fin 2) * 4096 ≤ (i 0).val ∧ (i 0).val < win1_7.index t (0 : Fin 2) * 4096 + 4096; omega
  | ⟨1, _⟩ => show win1_7.index t (1 : Fin 2) * 100 ≤ (i 1).val ∧ (i 1).val < win1_7.index t (1 : Fin 2) * 100 + 100; omega

/-- Every entry of a sums array lies in the block of its tile's point. -/
theorem cover1_8' (i : S16x1x100.Idx) : ∃ t : Fin cfg1.N, (cfg1.win 8).flush t = true ∧ i ∈ ((cfg1.win 8).blk t).view.set := by
  have hi0 : (i 0).val < 16 := (i 0).isLt
  have hi1 : (i 1).val < 1 := (i 1).isLt
  have hi2 : (i 2).val < 100 := (i 2).isLt
  let t : Fin cfg1.N := Fin.cast N_1.symm ⟨(i 0).val, hi0⟩
  have htv : t.val = (i 0).val := rfl
  have e := idx1 t
  refine ⟨t, flush1_8 t, ?_⟩
  show i ∈ ((View.whole main_v15_1).slice (win1_8.rect t)).set
  rw [View.set_slice_whole, Rect.mem_set_unit]
  intro a
  match a with
  | ⟨0, _⟩ => show win1_8.index t (0 : Fin 3) * 1 ≤ (i 0).val ∧ (i 0).val < win1_8.index t (0 : Fin 3) * 1 + 1; omega
  | ⟨1, _⟩ => show win1_8.index t (1 : Fin 3) * 1 ≤ (i 1).val ∧ (i 1).val < win1_8.index t (1 : Fin 3) * 1 + 1; omega
  | ⟨2, _⟩ => show win1_8.index t (2 : Fin 3) * 100 ≤ (i 2).val ∧ (i 2).val < win1_8.index t (2 : Fin 3) * 100 + 100; omega
theorem cover1_9' (i : S16x1x100.Idx) : ∃ t : Fin cfg1.N, (cfg1.win 9).flush t = true ∧ i ∈ ((cfg1.win 9).blk t).view.set := by
  have hi0 : (i 0).val < 16 := (i 0).isLt
  have hi1 : (i 1).val < 1 := (i 1).isLt
  have hi2 : (i 2).val < 100 := (i 2).isLt
  let t : Fin cfg1.N := Fin.cast N_1.symm ⟨(i 0).val, hi0⟩
  have htv : t.val = (i 0).val := rfl
  have e := idx1 t
  refine ⟨t, flush1_9 t, ?_⟩
  show i ∈ ((View.whole main_v15_2).slice (win1_9.rect t)).set
  rw [View.set_slice_whole, Rect.mem_set_unit]
  intro a
  match a with
  | ⟨0, _⟩ => show win1_9.index t (0 : Fin 3) * 1 ≤ (i 0).val ∧ (i 0).val < win1_9.index t (0 : Fin 3) * 1 + 1; omega
  | ⟨1, _⟩ => show win1_9.index t (1 : Fin 3) * 1 ≤ (i 1).val ∧ (i 1).val < win1_9.index t (1 : Fin 3) * 1 + 1; omega
  | ⟨2, _⟩ => show win1_9.index t (2 : Fin 3) * 100 ≤ (i 2).val ∧ (i 2).val < win1_9.index t (2 : Fin 3) * 100 + 100; omega

/-- The three result arrays after the region. -/
theorem final1_7 (c : Dev nD) : (dat1 V c).arrAt 7 cfg1.N = pre1 V c :=
  (dat1 V c).arrAt_eq_of_cover 7 (pre1 V c) (fun t _ => flushed1_7_eq V c t) (cover1_7')
theorem final1_8 (c : Dev nD) : (dat1 V c).arrAt 8 cfg1.N = sum1 V c :=
  (dat1 V c).arrAt_eq_of_cover 8 (sum1 V c) (fun t _ => flushed1_8_eq V c t) (cover1_8')
theorem final1_9 (c : Dev nD) : (dat1 V c).arrAt 9 cfg1.N = sq1 V c :=
  (dat1 V c).arrAt_eq_of_cover 9 (sq1 V c) (fun t _ => flushed1_9_eq V c t) (cover1_9')

end Cert.KernelIdeal.Hand1

end
-- ==== Proof.Pay2.lean ====
/-
  The third kernel's stored values, entry by entry, on the extended reals.

  The body takes a 4096-row block of the previous layer's pre-activations, the rows of their column means, variances,
  scales and shifts, the whole weight matrix and the bias row.  It normalises each entry, takes signs, and stores at
  (p, q) row p of the signs against row q of the sign matrix of the weights plus the bias at q; beside it, per column q,
  the sum over the 4096 rows of those entries and the sum of their squares.
-/
import proofs.«120646_j47201690583464_2_alg».proof.Proof.Gen.KernelIdeal.Skeleton
import proofs.«120646_j47201690583464_2_alg».proof.Proof.Spec
import proofs.«120646_j47201690583464_2_alg».proof.Proof.LibDotT
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Cert.KernelIdeal Cert.KernelIdeal.Gen
open Idealize.ShloMosaic Idealize.ShloMosaic.ValueIdx

/-- The normalised, scaled, shifted entry whose sign the body takes. -/
def bn2 (x0 : Vec Ideal S4096x100 .f32) (g mu var be : Vec Ideal S1x100 .f32) (p : Fin 4096) (k : Fin 100) : EReal :=
  g (ix2 (0 : Fin 1) k) * (x0 (ix2 p k) - mu (ix2 (0 : Fin 1) k)) * Ideal.rsqrt (var (ix2 (0 : Fin 1) k) + Cert.Spec.eps) + be (ix2 (0 : Fin 1) k)

/-- The product of the signs with the sign matrix of the weights at (p, q). -/
theorem pay2_4_apply (x0 : Vec Ideal S4096x100 .f32) (g mu var be : Vec Ideal S1x100 .f32) (w : Vec Ideal S100x100 .f32)
    (p : Fin 4096) (q : Fin 100) :
    k2_pay4 (F := Ideal) x0 g mu var be w (ix2 p q)
      = ∑ k : Fin 100, Cert.Spec.sgn (bn2 x0 g mu var be p k) * Cert.Spec.sgn (w (ix2 q k)) := by
  unfold k2_pay4
  refine (Cert.LibDotT.matmul_zero_transposed_apply _ rfl rfl rfl rfl rfl rfl none _ _ (ix2 p q)).trans ?_
  refine Finset.sum_congr rfl fun k _ => congrArg₂ (· * ·) (congrArg Cert.Spec.sgn ?_) rfl
  show _ = bn2 x0 g mu var be p k
  unfold bn2
  rw [addf_apply, mulf_apply, mulf_apply, subf_apply, broadcastTo_1b_ab_apply, broadcastTo_1b_ab_apply,
    broadcastTo_1b_ab_apply, broadcastTo_1b_ab_apply]
  simp only [shapeCast_self]
  rfl

/-- The stored block of pre-activations at (p, q): the product plus the bias. -/
theorem pay2_1_apply (v34 : FVec Ideal S4096x100 .f32) (b : Vec Ideal S1x100 .f32) (p : Fin 4096) (q : Fin 100) :
    k2_pay1 (F := Ideal) v34 (k2_pay5 (F := Ideal) b) (ix2 p q) = v34 (ix2 p q) + b (ix2 (0 : Fin 1) q) := by
  unfold k2_pay1 k2_pay5
  rw [addf_apply, broadcastTo_1b_ab_apply, shapeCast_self]

/-- The stored 1 × 1 × 100 block of column sums at q. -/
theorem pay2_2_apply (v34 : FVec Ideal S4096x100 .f32) (v36 : FVec Ideal S1x100 .f32) (u v : Fin 1) (q : Fin 100) :
    k2_pay2 (F := Ideal) v34 v36 (ix3 u v q) = ∑ r : Fin 4096, k2_pay1 (F := Ideal) v34 v36 (ix2 r q) := by
  unfold k2_pay2
  refine (shapeCast_ab_1ab_apply _ _ u v q).trans ?_
  refine (shapeCast_a_1a_apply _ _ v q).trans ?_
  refine (Ideal.multiReduction_add_single (k2_pay1 (F := Ideal) v34 v36) 0x00000000#32 reduces_S4096x100_S100 (.inl rfl) rfl (ix1 q)).trans ?_
  show ∑ r : Fin 4096, _ = _
  refine Finset.sum_congr rfl fun r _ => congrArg _ (funext fun a => Fin.ext ?_)
  match a with
  | ⟨0, _⟩ => rfl
  | ⟨1, _⟩ => rfl

/-- The stored block of column sums of squares at q. -/
theorem pay2_3_apply (v34 : FVec Ideal S4096x100 .f32) (v36 : FVec Ideal S1x100 .f32) (u v : Fin 1) (q : Fin 100) :
    k2_pay3 (F := Ideal) v34 v36 (ix3 u v q)
      = ∑ r : Fin 4096, k2_pay1 (F := Ideal) v34 v36 (ix2 r q) * k2_pay1 (F := Ideal) v34 v36 (ix2 r q) := by
  unfold k2_pay3
  refine (shapeCast_ab_1ab_apply _ _ u v q).trans ?_
  refine (shapeCast_a_1a_apply _ _ v q).trans ?_
  refine (Ideal.multiReduction_add_single (mulf (k2_pay1 (F := Ideal) v34 v36) (k2_pay1 (F := Ideal) v34 v36)) 0x00000000#32 reduces_S4096x100_S100 (.inl rfl) rfl (ix1 q)).trans ?_
  show ∑ r : Fin 4096, _ = _
  refine Finset.sum_congr rfl fun r _ => ?_
  have hl : (reduces_S4096x100_S100.lift (ix1 q) r : S4096x100.Idx) = ix2 r q := funext fun a => Fin.ext (by
    match a with
    | ⟨0, _⟩ => rfl
    | ⟨1, _⟩ => rfl)
  rw [hl]
  rfl

end Cert.KernelIdeal.Hand

end
-- ==== Proof.Reg2.lean ====
/-
  The third region's three result arrays as functions of the arrays the region finds.

  The region runs its kernel at 16 grid points; point t takes rows 4096·t … 4096·t + 4095 of the previous layer's
  pre-activations, the rows of their column means, variances, scales and shifts, the whole weight matrix and the bias row,
  and writes back block t of this layer's pre-activations and entry t of the two arrays of per-tile column sums.  The blocks
  tile the arrays, so each array ends as one function of the arrays found at entry.
-/
import proofs.«120646_j47201690583464_2_alg».proof.Proof.Gen.KernelIdeal.Frame
import proofs.«120646_j47201690583464_2_alg».proof.Proof.Pay2
import proofs.«120646_j47201690583464_2_alg».proof.Proof.LibTiles
import Idealize.ShloMosaic.Lib.Pipeline.Value

set_option maxRecDepth 16384

noncomputable section

namespace Cert.KernelIdeal.Hand2

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

/-- The index maps of the region over its grid: the row windows move with the point, the others stay. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = t.val ∧ win2_7.index t (1 : Fin 2) = 0
    ∧ win2_8.index t (0 : Fin 3) = t.val ∧ win2_8.index t (1 : Fin 3) = 0 ∧ win2_8.index t (2 : Fin 3) = 0
    ∧ win2_9.index t (0 : Fin 3) = t.val ∧ win2_9.index t (1 : Fin 3) = 0 ∧ win2_9.index t (2 : Fin 3) = 0 :=
  (by decide +kernel : ∀ t : Fin grid2.N, _)

/-- Point t as a tile number, and row p of tile t of the batch. -/
abbrev tile2 (t : Fin cfg2.N) : Fin 16 := ⟨t.val, by have := t.isLt; have h : cfg2.N = 16 := N_2; omega⟩
abbrev row2 (t : Fin cfg2.N) (p : Fin 4096) : Fin 65536 := Cert.Tiles.row (T := 16) (R := 4096) (N := 65536) rfl (tile2 t) p

/-- This layer's pre-activations of the arrays the region finds: the signs of the normalised previous layer against the
    sign matrix of the weights, plus the bias. -/
def pre2 (c : Dev nD) : S65536x100.Idx → EReal := fun i =>
  Cert.Spec.lin (B := 65536) (K := 100) (H := 100)
    (Cert.Spec.act (B := 65536) (H := 100)
      (fun a k => (V c main_v15_0 : S65536x100.Idx → EReal) (ix2 a k))
      (fun k => (V c main_v24 : S1x100.Idx → EReal) (ix2 (0 : Fin 1) k))
      (fun k => (V c main_v25 : S1x100.Idx → EReal) (ix2 (0 : Fin 1) k))
      (fun k => (V c main_v26 : S1x100.Idx → EReal) (ix2 (0 : Fin 1) k))
      (fun k => (V c main_v27 : S1x100.Idx → EReal) (ix2 (0 : Fin 1) k)))
    (fun j k => (V c main_arg9 : S100x100.Idx → EReal) (ix2 j k))
    (fun j => (V c main_v28 : S1x100.Idx → EReal) (ix2 (0 : Fin 1) j)) (i 0) (i 1)

/-- The input window's block at point t holds rows 4096·t … of the previous pre-activations. -/
theorem iblk2_0_apply (c : Dev nD) (t : Fin cfg2.N) (p : Fin 4096) (k : Fin 100) :
    iblk2 V c 0 t (ix2 p k) = (V c main_v15_0 : S65536x100.Idx → EReal) (ix2 (row2 t p) k) := by
  have e := idx2 t
  show (V c main_v15_0 : S65536x100.Idx → EReal) (((cfg2.win 0).blk t).view.emb (ix2 p k)) = _
  refine congrArg _ (funext fun a => Fin.ext ?_)
  match a with
  | ⟨0, _⟩ => show win2_0.index t (0 : Fin 2) * 4096 + 1 * p.val = t.val * 4096 + p.val; omega
  | ⟨1, _⟩ => show win2_0.index t (1 : Fin 2) * 100 + 1 * k.val = k.val; omega

/-- The mean window's block is the whole row. -/
theorem iblk2_1_apply (c : Dev nD) (t : Fin cfg2.N) (u : Fin 1) (k : Fin 100) :
    iblk2 V c 1 t (ix2 u k) = (V c main_v24 : S1x100.Idx → EReal) (ix2 u k) := by
  have e := idx2 t
  show (V c main_v24 : S1x100.Idx → EReal) (((cfg2.win 1).blk t).view.emb (ix2 u k)) = _
  refine congrArg _ (funext fun a => Fin.ext ?_)
  match a with
  | ⟨0, _⟩ => show win2_1.index t (0 : Fin 2) * 1 + 1 * u.val = u.val; omega
  | ⟨1, _⟩ => show win2_1.index t (1 : Fin 2) * 100 + 1 * k.val = k.val; omega

/-- The variance window's block is the whole row. -/
theorem iblk2_2_apply (c : Dev nD) (t : Fin cfg2.N) (u : Fin 1) (k : Fin 100) :
    iblk2 V c 2 t (ix2 u k) = (V c main_v25 : S1x100.Idx → EReal) (ix2 u k) := by
  have e := idx2 t
  show (V c main_v25 : S1x100.Idx → EReal) (((cfg2.win 2).blk t).view.emb (ix2 u k)) = _
  refine congrArg _ (funext fun a => Fin.ext ?_)
  match a with
  | ⟨0, _⟩ => show win2_2.index t (0 : Fin 2) * 1 + 1 * u.val = u.val; omega
  | ⟨1, _⟩ => show win2_2.index t (1 : Fin 2) * 100 + 1 * k.val = k.val; omega

/-- The scale window's block is the whole row. -/
theorem iblk2_3_apply (c : Dev nD) (t : Fin cfg2.N) (u : Fin 1) (k : Fin 100) :
    iblk2 V c 3 t (ix2 u k) = (V c main_v26 : S1x100.Idx → EReal) (ix2 u k) := by
  have e := idx2 t
  show (V c main_v26 : S1x100.Idx → EReal) (((cfg2.win 3).blk t).view.emb (ix2 u k)) = _
  refine congrArg _ (funext fun a => Fin.ext ?_)
  match a with
  | ⟨0, _⟩ => show win2_3.index t (0 : Fin 2) * 1 + 1 * u.val = u.val; omega
  | ⟨1, _⟩ => show win2_3.index t (1 : Fin 2) * 100 + 1 * k.val = k.val; omega

/-- The shift window's block is the whole row. -/
theorem iblk2_4_apply (c : Dev nD) (t : Fin cfg2.N) (u : Fin 1) (k : Fin 100) :
    iblk2 V c 4 t (ix2 u k) = (V c main_v27 : S1x100.Idx → EReal) (ix2 u k) := by
  have e := idx2 t
  show (V c main_v27 : S1x100.Idx → EReal) (((cfg2.win 4).blk t).view.emb (ix2 u k)) = _
  refine congrArg _ (funext fun a => Fin.ext ?_)
  match a with
  | ⟨0, _⟩ => show win2_4.index t (0 : Fin 2) * 1 + 1 * u.val = u.val; omega
  | ⟨1, _⟩ => show win2_4.index t (1 : Fin 2) * 100 + 1 * k.val = k.val; omega

/-- The weight window's block is the whole weight matrix. -/
theorem iblk2_5_apply (c : Dev nD) (t : Fin cfg2.N) (q : Fin 100) (k : Fin 100) :
    iblk2 V c 5 t (ix2 q k) = (V c main_arg9 : S100x100.Idx → EReal) (ix2 q k) := by
  have e := idx2 t
  show (V c main_arg9 : S100x100.Idx → EReal) (((cfg2.win 5).blk t).view.emb (ix2 q k)) = _
  refine congrArg _ (funext fun a => Fin.ext ?_)
  match a with
  | ⟨0, _⟩ => show win2_5.index t (0 : Fin 2) * 100 + 1 * q.val = q.val; omega
  | ⟨1, _⟩ => show win2_5.index t (1 : Fin 2) * 100 + 1 * k.val = k.val; omega

/-- The bias window's block is the whole bias row. -/
theorem iblk2_6_apply (c : Dev nD) (t : Fin cfg2.N) (u : Fin 1) (q : Fin 100) :
    iblk2 V c 6 t (ix2 u q) = (V c main_v28 : S1x100.Idx → EReal) (ix2 u q) := by
  have e := idx2 t
  show (V c main_v28 : S1x100.Idx → EReal) (((cfg2.win 6).blk t).view.emb (ix2 u q)) = _
  refine congrArg _ (funext fun a => Fin.ext ?_)
  match a with
  | ⟨0, _⟩ => show win2_6.index t (0 : Fin 2) * 1 + 1 * u.val = u.val; omega
  | ⟨1, _⟩ => show win2_6.index t (1 : Fin 2) * 100 + 1 * q.val = q.val; omega

/-- The stored pre-activation at (p, q) of point t is this layer at row 4096·t + p, column q. -/
theorem entry2 (c : Dev nD) (t : Fin cfg2.N) (p : Fin 4096) (q : Fin 100) :
    k2_pay1 (F := Ideal) (k2_pay4 (F := Ideal) (iblk2 V c 0 t) (iblk2 V c 3 t) (iblk2 V c 1 t) (iblk2 V c 2 t) (iblk2 V c 4 t) (iblk2 V c 5 t)) (k2_pay5 (F := Ideal) (iblk2 V c 6 t)) (ix2 p q) = pre2 V c (ix2 (row2 t p) q) := by
  refine (pay2_1_apply _ (iblk2 V c 6 t) p q).trans ?_
  rw [pay2_4_apply]
  unfold bn2
  simp only [iblk2_0_apply, iblk2_1_apply, iblk2_2_apply, iblk2_3_apply, iblk2_4_apply, iblk2_5_apply, iblk2_6_apply]
  rfl

/-- What point t writes back of the pre-activations is block t of `pre2`. -/
theorem flushed2_7_eq (c : Dev nD) (t : Fin cfg2.N) :
    (dat2 V c).flushed 7 t = ((cfg2.win 7).blk t).view.read (Elt Ideal) (pre2 V c) := by
  show (cfg2.win 7).cut (grid2.coords t) ((dat2 V c).after 7 t) = _
  rw [after2_7]
  unfold out2_7
  rw [View.canon_unit_zero hz2]
  simp only [View.ld_unit_zero (S := S4096x100) hz2, View.ld_unit_zero (S := S1x100) hz2, View.ld_unit_zero (S := S100x100) hz2, View.ld_unit_zero (S := S1x100) hz2]
  funext y
  obtain ⟨p, q, rfl⟩ : ∃ (p : Fin 4096) (q : Fin 100), y = ix2 p q := ⟨y 0, y 1, eq_ix2 y⟩
  have e := idx2 t
  have hemb : ((cfg2.win 7).blk t).view.emb (ix2 p q) = (ix2 (row2 t p) q : S65536x100.Idx) := funext fun a => Fin.ext (by
    match a with
    | ⟨0, _⟩ => show win2_7.index t (0 : Fin 2) * 4096 + 1 * p.val = t.val * 4096 + p.val; omega
    | ⟨1, _⟩ => show win2_7.index t (1 : Fin 2) * 100 + 1 * q.val = q.val; omega)
  show k2_pay1 (F := Ideal) (k2_pay4 (F := Ideal) (iblk2 V c 0 t) (iblk2 V c 3 t) (iblk2 V c 1 t) (iblk2 V c 2 t) (iblk2 V c 4 t) (iblk2 V c 5 t)) (k2_pay5 (F := Ideal) (iblk2 V c 6 t)) (ix2 p q) = pre2 V c (((cfg2.win 7).blk t).view.emb (ix2 p q))
  rw [hemb]
  exact entry2 V c t p q

/-- Per tile and column, the sum over the tile's rows of the pre-activations, and of their squares. -/
def sum2 (c : Dev nD) : S16x1x100.Idx → EReal := fun i =>
  ∑ r : Fin 4096, pre2 V c (ix2 (Cert.Tiles.row (T := 16) (R := 4096) (N := 65536) rfl (i 0) r) (i 2))
def sq2 (c : Dev nD) : S16x1x100.Idx → EReal := fun i =>
  ∑ r : Fin 4096, pre2 V c (ix2 (Cert.Tiles.row (T := 16) (R := 4096) (N := 65536) rfl (i 0) r) (i 2))
    * pre2 V c (ix2 (Cert.Tiles.row (T := 16) (R := 4096) (N := 65536) rfl (i 0) r) (i 2))

/-- Where a sums block of point t lies in its array. -/
theorem emb2_8 (t : Fin cfg2.N) (u v : Fin 1) (q : Fin 100) :
    ((cfg2.win 8).blk t).view.emb (ix3 u v q) = (ix3 (tile2 t) (0 : Fin 1) q : S16x1x100.Idx) := by
  have e := idx2 t
  refine funext fun a => Fin.ext ?_
  have hu := u.isLt
  have hv := v.isLt
  match a with
  | ⟨0, _⟩ => show win2_8.index t (0 : Fin 3) * 1 + 1 * u.val = t.val; omega
  | ⟨1, _⟩ => show win2_8.index t (1 : Fin 3) * 1 + 1 * v.val = 0; omega
  | ⟨2, _⟩ => show win2_8.index t (2 : Fin 3) * 100 + 1 * q.val = q.val; omega
theorem emb2_9 (t : Fin cfg2.N) (u v : Fin 1) (q : Fin 100) :
    ((cfg2.win 9).blk t).view.emb (ix3 u v q) = (ix3 (tile2 t) (0 : Fin 1) q : S16x1x100.Idx) := by
  have e := idx2 t
  refine funext fun a => Fin.ext ?_
  have hu := u.isLt
  have hv := v.isLt
  match a with
  | ⟨0, _⟩ => show win2_9.index t (0 : Fin 3) * 1 + 1 * u.val = t.val; omega
  | ⟨1, _⟩ => show win2_9.index t (1 : Fin 3) * 1 + 1 * v.val = 0; omega
  | ⟨2, _⟩ => show win2_9.index t (2 : Fin 3) * 100 + 1 * q.val = q.val; omega

/-- What point t writes back of the column sums is entry t of `sum2`. -/
theorem flushed2_8_eq (c : Dev nD) (t : Fin cfg2.N) :
    (dat2 V c).flushed 8 t = ((cfg2.win 8).blk t).view.read (Elt Ideal) (sum2 V c) := by
  show (cfg2.win 8).cut (grid2.coords t) ((dat2 V c).after 8 t) = _
  rw [after2_8]
  unfold out2_8
  rw [View.canon_unit_zero hz3]
  simp only [View.ld_unit_zero (S := S4096x100) hz2, View.ld_unit_zero (S := S1x100) hz2, View.ld_unit_zero (S := S100x100) hz2, View.ld_unit_zero (S := S1x100) hz2]
  funext y
  obtain ⟨u, v, q, rfl⟩ : ∃ (u v : Fin 1) (q : Fin 100), y = ix3 u v q := ⟨y 0, y 1, y 2, eq_ix3 y⟩
  show k2_pay2 (F := Ideal) (k2_pay4 (F := Ideal) (iblk2 V c 0 t) (iblk2 V c 3 t) (iblk2 V c 1 t) (iblk2 V c 2 t) (iblk2 V c 4 t) (iblk2 V c 5 t)) (k2_pay5 (F := Ideal) (iblk2 V c 6 t)) (ix3 u v q) = sum2 V c (((cfg2.win 8).blk t).view.emb (ix3 u v q))
  rw [emb2_8]
  refine (pay2_2_apply _ _ u v q).trans ?_
  exact Finset.sum_congr rfl fun r _ => entry2 V c t r q

/-- What point t writes back of the column sums of squares is entry t of `sq2`. -/
theorem flushed2_9_eq (c : Dev nD) (t : Fin cfg2.N) :
    (dat2 V c).flushed 9 t = ((cfg2.win 9).blk t).view.read (Elt Ideal) (sq2 V c) := by
  show (cfg2.win 9).cut (grid2.coords t) ((dat2 V c).after 9 t) = _
  rw [after2_9]
  unfold out2_9
  rw [View.canon_unit_zero hz3]
  simp only [View.ld_unit_zero (S := S4096x100) hz2, View.ld_unit_zero (S := S1x100) hz2, View.ld_unit_zero (S := S100x100) hz2, View.ld_unit_zero (S := S1x100) hz2]
  funext y
  obtain ⟨u, v, q, rfl⟩ : ∃ (u v : Fin 1) (q : Fin 100), y = ix3 u v q := ⟨y 0, y 1, y 2, eq_ix3 y⟩
  show k2_pay3 (F := Ideal) (k2_pay4 (F := Ideal) (iblk2 V c 0 t) (iblk2 V c 3 t) (iblk2 V c 1 t) (iblk2 V c 2 t) (iblk2 V c 4 t) (iblk2 V c 5 t)) (k2_pay5 (F := Ideal) (iblk2 V c 6 t)) (ix3 u v q) = sq2 V c (((cfg2.win 9).blk t).view.emb (ix3 u v q))
  rw [emb2_9]
  refine (pay2_3_apply _ _ u v q).trans ?_
  exact Finset.sum_congr rfl fun r _ => by rw [entry2 V c t r q]

/-- Every row of the pre-activations lies in the block of the point that is its tile. -/
theorem cover2_7' (i : S65536x100.Idx) : ∃ t : Fin cfg2.N, (cfg2.win 7).flush t = true ∧ i ∈ ((cfg2.win 7).blk t).view.set := by
  have hi0 : (i 0).val < 65536 := (i 0).isLt
  have hi1 : (i 1).val < 100 := (i 1).isLt
  let t : Fin cfg2.N := Fin.cast N_2.symm ⟨(i 0).val / 4096, by omega⟩
  have htv : t.val = (i 0).val / 4096 := rfl
  have e := idx2 t
  refine ⟨t, flush2_7 t, ?_⟩
  show i ∈ ((View.whole main_v29_0).slice (win2_7.rect t)).set
  rw [View.set_slice_whole, Rect.mem_set_unit]
  intro a
  match a with
  | ⟨0, _⟩ => show win2_7.index t (0 : Fin 2) * 4096 ≤ (i 0).val ∧ (i 0).val < win2_7.index t (0 : Fin 2) * 4096 + 4096; omega
  | ⟨1, _⟩ => show win2_7.index t (1 : Fin 2) * 100 ≤ (i 1).val ∧ (i 1).val < win2_7.index t (1 : Fin 2) * 100 + 100; omega

/-- Every entry of a sums array lies in the block of its tile's point. -/
theorem cover2_8' (i : S16x1x100.Idx) : ∃ t : Fin cfg2.N, (cfg2.win 8).flush t = true ∧ i ∈ ((cfg2.win 8).blk t).view.set := by
  have hi0 : (i 0).val < 16 := (i 0).isLt
  have hi1 : (i 1).val < 1 := (i 1).isLt
  have hi2 : (i 2).val < 100 := (i 2).isLt
  let t : Fin cfg2.N := Fin.cast N_2.symm ⟨(i 0).val, hi0⟩
  have htv : t.val = (i 0).val := rfl
  have e := idx2 t
  refine ⟨t, flush2_8 t, ?_⟩
  show i ∈ ((View.whole main_v29_1).slice (win2_8.rect t)).set
  rw [View.set_slice_whole, Rect.mem_set_unit]
  intro a
  match a with
  | ⟨0, _⟩ => show win2_8.index t (0 : Fin 3) * 1 ≤ (i 0).val ∧ (i 0).val < win2_8.index t (0 : Fin 3) * 1 + 1; omega
  | ⟨1, _⟩ => show win2_8.index t (1 : Fin 3) * 1 ≤ (i 1).val ∧ (i 1).val < win2_8.index t (1 : Fin 3) * 1 + 1; omega
  | ⟨2, _⟩ => show win2_8.index t (2 : Fin 3) * 100 ≤ (i 2).val ∧ (i 2).val < win2_8.index t (2 : Fin 3) * 100 + 100; omega
theorem cover2_9' (i : S16x1x100.Idx) : ∃ t : Fin cfg2.N, (cfg2.win 9).flush t = true ∧ i ∈ ((cfg2.win 9).blk t).view.set := by
  have hi0 : (i 0).val < 16 := (i 0).isLt
  have hi1 : (i 1).val < 1 := (i 1).isLt
  have hi2 : (i 2).val < 100 := (i 2).isLt
  let t : Fin cfg2.N := Fin.cast N_2.symm ⟨(i 0).val, hi0⟩
  have htv : t.val = (i 0).val := rfl
  have e := idx2 t
  refine ⟨t, flush2_9 t, ?_⟩
  show i ∈ ((View.whole main_v29_2).slice (win2_9.rect t)).set
  rw [View.set_slice_whole, Rect.mem_set_unit]
  intro a
  match a with
  | ⟨0, _⟩ => show win2_9.index t (0 : Fin 3) * 1 ≤ (i 0).val ∧ (i 0).val < win2_9.index t (0 : Fin 3) * 1 + 1; omega
  | ⟨1, _⟩ => show win2_9.index t (1 : Fin 3) * 1 ≤ (i 1).val ∧ (i 1).val < win2_9.index t (1 : Fin 3) * 1 + 1; omega
  | ⟨2, _⟩ => show win2_9.index t (2 : Fin 3) * 100 ≤ (i 2).val ∧ (i 2).val < win2_9.index t (2 : Fin 3) * 100 + 100; omega

/-- The three result arrays after the region. -/
theorem final2_7 (c : Dev nD) : (dat2 V c).arrAt 7 cfg2.N = pre2 V c :=
  (dat2 V c).arrAt_eq_of_cover 7 (pre2 V c) (fun t _ => flushed2_7_eq V c t) (cover2_7')
theorem final2_8 (c : Dev nD) : (dat2 V c).arrAt 8 cfg2.N = sum2 V c :=
  (dat2 V c).arrAt_eq_of_cover 8 (sum2 V c) (fun t _ => flushed2_8_eq V c t) (cover2_8')
theorem final2_9 (c : Dev nD) : (dat2 V c).arrAt 9 cfg2.N = sq2 V c :=
  (dat2 V c).arrAt_eq_of_cover 9 (sq2 V c) (fun t _ => flushed2_9_eq V c t) (cover2_9')

end Cert.KernelIdeal.Hand2

end
-- ==== Proof.LibColumn.lean ====
/-
  A column of per-row values laid beside a matrix, read at an index.

  A reduction over a matrix's second axis with the axis kept ("keepdims") leaves one value per row, stored as a
  vector of length a, re-cast as an a × 1 column, and then broadcast across the b columns of the matrix it is
  combined with.  At entry (p, c) each of these re-layings reads the one value of row p: the cast keeps the row-major
  position, and the broadcast reads a unit axis at coordinate 0 whatever the column.
-/
import Idealize.ShloMosaic.Lib.Pipeline.Value
import Idealize.ShloMosaic.Lib.ValueIdx

namespace Cert.LibColumn

open Idealize.ShloMosaic Idealize.ShloMosaic.ValueIdx

variable {α : Type}

/-- A vector of length `a` cast to an `a × 1` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column cast to itself is itself. -/
theorem shapeCast_a1_a1_apply {a : ℕ} (x : (⟨2, ![a, 1]⟩ : Shape).Idx → α) (h : (⟨2, ![a, 1]⟩ : Shape).ShapeCasts ⟨2, ![a, 1]⟩)
    (j : (⟨2, ![a, 1]⟩ : Shape).Idx) : shapeCast ⟨2, ![a, 1]⟩ x h j = x j := by
  rw [shapeCast_self]

/-- An `a × 1` column broadcast across `b` columns reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

end Cert.LibColumn
-- ==== Proof.Pay3.lean ====
/-
  The last kernel's stored values, entry by entry, on the extended reals.

  The body normalises a 4096-row block of the third layer's pre-activations, takes signs, multiplies with the sign matrix of
  the last weights, adds the bias, and stores the log-softmax of each row of these logits: the logit minus the row's
  maximum, minus the logarithm of the sum over the row of the exponentials of such differences.
-/
import proofs.«120646_j47201690583464_2_alg».proof.Proof.Gen.KernelIdeal.Skeleton
import proofs.«120646_j47201690583464_2_alg».proof.Proof.Spec
import proofs.«120646_j47201690583464_2_alg».proof.Proof.LibDotT
import proofs.«120646_j47201690583464_2_alg».proof.Proof.LibColumn
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Cert.KernelIdeal Cert.KernelIdeal.Gen
open Idealize.ShloMosaic Idealize.ShloMosaic.ValueIdx

/-- The normalised, scaled, shifted entry whose sign the body takes. -/
def bn3 (x0 : Vec Ideal S4096x100 .f32) (g mu var be : Vec Ideal S1x100 .f32) (p : Fin 4096) (k : Fin 100) : EReal :=
  g (ix2 (0 : Fin 1) k) * (x0 (ix2 p k) - mu (ix2 (0 : Fin 1) k)) * Ideal.rsqrt (var (ix2 (0 : Fin 1) k) + Cert.Spec.eps) + be (ix2 (0 : Fin 1) k)

/-- The product of the signs with the sign matrix of the last weights at (p, q). -/
theorem pay3_2_apply (x0 : Vec Ideal S4096x100 .f32) (g mu var be : Vec Ideal S1x100 .f32) (w : Vec Ideal S10x100 .f32)
    (p : Fin 4096) (q : Fin 10) :
    k3_pay2 (F := Ideal) x0 g mu var be w (ix2 p q)
      = ∑ k : Fin 100, Cert.Spec.sgn (bn3 x0 g mu var be p k) * Cert.Spec.sgn (w (ix2 q k)) := by
  unfold k3_pay2
  refine (Cert.LibDotT.matmul_zero_transposed_apply _ rfl rfl rfl rfl rfl rfl none _ _ (ix2 p q)).trans ?_
  refine Finset.sum_congr rfl fun k _ => congrArg₂ (· * ·) (congrArg Cert.Spec.sgn ?_) rfl
  show _ = bn3 x0 g mu var be p k
  unfold bn3
  rw [addf_apply, mulf_apply, mulf_apply, subf_apply, broadcastTo_1b_ab_apply, broadcastTo_1b_ab_apply,
    broadcastTo_1b_ab_apply, broadcastTo_1b_ab_apply]
  simp only [shapeCast_self]
  rfl

section Softmax

variable (hr : S4096x10.Reduces [1] S4096) (hc : S4096.ShapeCasts S4096x1) (hb : S4096x1.Broadcasts S4096x10)
  (hφ : FKind.Formats .f32) (hm : (0xFF800000#32 : BitVec 32) = FKind.maximumf.neutral .f32 hφ)
  (ha : (0x00000000#32 : BitVec 32) = FKind.add.neutral .f32 hφ) (z : FVec Ideal S4096x10 .f32)

/-- A block of logits as a function of row and column. -/
def rows (z : FVec Ideal S4096x10 .f32) (a : Fin 4096) (c : Fin 10) : EReal := z (ix2 a c)

/-- The index of row p with column c put back in. -/
theorem lift_row (p : Fin 4096) (c : Fin 10) : (hr.lift (ix1 p) c : S4096x10.Idx) = ix2 p c :=
  funext fun a => Fin.ext (by
    match a with
    | ⟨0, _⟩ => rfl
    | ⟨1, _⟩ => rfl)

/-- The lane maximum of row p is the row's maximum folded from −∞. -/
theorem max_row (p : Fin 4096) :
    multiReduction .maximumf [1] S4096 z 0xFF800000#32 hr hφ hm (ix1 p) = Cert.Spec.rowMax (rows z) p := by
  refine (Ideal.multiReduction_maximumf_single z 0xFF800000#32 hr hφ hm (ix1 p)).trans ?_
  show Finset.fold max Cert.Spec.ninf (fun c : Fin 10 => z (hr.lift (ix1 p) c)) (Finset.univ : Finset (Fin 10))
    = Finset.fold max Cert.Spec.ninf (rows z p) (Finset.univ : Finset (Fin 10))
  refine congrArg (fun f => Finset.fold max Cert.Spec.ninf f (Finset.univ : Finset (Fin 10))) (funext fun c => ?_)
  show z (hr.lift (ix1 p) c) = z (ix2 p c)
  rw [lift_row]

/-- The row maximum laid beside the block: every column of row p reads the maximum of row p. -/
theorem max_col (p : Fin 4096) (c : Fin 10) :
    broadcastTo S4096x10 (shapeCast S4096x1 (multiReduction .maximumf [1] S4096 z 0xFF800000#32 hr hφ hm) hc) hb (ix2 p c)
      = Cert.Spec.rowMax (rows z) p := by
  rw [Cert.LibColumn.broadcastTo_a1_ab_apply, Cert.LibColumn.shapeCast_a_a1_apply]
  exact max_row hr hφ hm z p

/-- The log-softmax of a block of logits at (p, q). -/
theorem lsm_block (p : Fin 4096) (q : Fin 10) :
    subf (subf z (broadcastTo S4096x10 (shapeCast S4096x1 (multiReduction .maximumf [1] S4096 z 0xFF800000#32 hr hφ hm) hc) hb))
        (broadcastTo S4096x10 (log (shapeCast S4096x1 (multiReduction .add [1] S4096
          (exp (subf z (broadcastTo S4096x10 (shapeCast S4096x1 (multiReduction .maximumf [1] S4096 z 0xFF800000#32 hr hφ hm) hc) hb)))
          0x00000000#32 hr hφ ha) hc)) hb) (ix2 p q)
      = Cert.Spec.lsm (B := 4096) (C := 10) (rows z) p q := by
  rw [subf_apply, subf_apply, max_col hr hc hb hφ hm z p q, Cert.LibColumn.broadcastTo_a1_ab_apply]
  unfold Cert.Spec.lsm
  refine congrArg₂ (· - ·) rfl ?_
  show Ideal.log (shapeCast S4096x1 _ hc (ix2 p (0 : Fin 1))) = _
  rw [Cert.LibColumn.shapeCast_a_a1_apply]
  refine congrArg Ideal.log ?_
  refine (Ideal.multiReduction_add_single _ 0x00000000#32 hr hφ ha (ix1 p)).trans ?_
  show ∑ c : Fin 10, _ = _
  refine Finset.sum_congr rfl fun c _ => ?_
  rw [lift_row]
  show Ideal.exp (subf z _ (ix2 p c)) = _
  rw [subf_apply, max_col hr hc hb hφ hm z p c]
  rfl

end Softmax

/-- The stored block at (p, q): the log-softmax of the rows of product plus bias. -/
theorem pay3_1_apply (v34 : FVec Ideal S4096x10 .f32) (b : Vec Ideal S1x10 .f32) (p : Fin 4096) (q : Fin 10) :
    k3_pay1 (F := Ideal) v34 (k3_pay3 (F := Ideal) b) (ix2 p q)
      = Cert.Spec.lsm (B := 4096) (C := 10) (fun a c => v34 (ix2 a c) + b (ix2 (0 : Fin 1) c)) p q := by
  unfold k3_pay1 k3_pay3
  refine (lsm_block reduces_S4096x10_S4096 shapeCasts_S4096_S4096x1 broadcasts_S4096x1_S4096x10 (.inl rfl) rfl rfl
    (addf v34 (broadcastTo S4096x10 (shapeCast S1x10 b shapeCasts_S1x10_S1x10) broadcasts_S1x10_S4096x10)) p q).trans ?_
  refine congrArg (fun f => Cert.Spec.lsm (B := 4096) (C := 10) f p q) (funext fun a => funext fun c => ?_)
  show addf v34 _ (ix2 a c) = _
  rw [addf_apply, broadcastTo_1b_ab_apply, shapeCast_self]

end Cert.KernelIdeal.Hand

end
-- ==== Proof.Reg3.lean ====
/-
  The last region's result array as a function of the arrays the region finds.

  The region runs the last kernel at 16 grid points; point t takes rows 4096·t … 4096·t + 4095 of the third layer's
  pre-activations, the rows of their column means, variances, scales and shifts, the last weight matrix and bias row, and
  writes back block t of the result: the log-softmax of each row of the logits.  A row's log-softmax reads that row of the
  logits only, so block t of the result is rows 4096·t … of the log-softmax of the whole array of logits.
-/
import proofs.«120646_j47201690583464_2_alg».proof.Proof.Gen.KernelIdeal.Frame
import proofs.«120646_j47201690583464_2_alg».proof.Proof.Pay3
import proofs.«120646_j47201690583464_2_alg».proof.Proof.LibTiles
import Idealize.ShloMosaic.Lib.Pipeline.Value

set_option maxRecDepth 16384

noncomputable section

namespace Cert.KernelIdeal.Hand3

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl

/-- A row's log-softmax reads that row only. -/
theorem lsm_row {B B' C : ℕ} (z : Fin B → Fin C → EReal) (z' : Fin B' → Fin C → EReal) (i : Fin B) (i' : Fin B')
    (h : z i = z' i') (j : Fin C) : Cert.Spec.lsm z i j = Cert.Spec.lsm z' i' j := by
  unfold Cert.Spec.lsm Cert.Spec.rowMax
  rw [h]

/-- The index maps of the region over its grid: the row windows move with the point, the others stay. -/
theorem idx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = t.val ∧ win3_7.index t (1 : Fin 2) = 0 :=
  (by decide +kernel : ∀ t : Fin grid3.N, _)

/-- Point t as a tile number, and row p of tile t of the batch. -/
abbrev tile3 (t : Fin cfg3.N) : Fin 16 := ⟨t.val, by have := t.isLt; have h : cfg3.N = 16 := N_3; omega⟩
abbrev row3 (t : Fin cfg3.N) (p : Fin 4096) : Fin 65536 := Cert.Tiles.row (T := 16) (R := 4096) (N := 65536) rfl (tile3 t) p

/-- The logits of the arrays the region finds: the signs of the normalised third layer against the sign matrix of the last
    weights, plus the bias. -/
def logits3 (c : Dev nD) : Fin 65536 → Fin 10 → EReal :=
  Cert.Spec.lin (B := 65536) (K := 100) (H := 10)
    (Cert.Spec.act (B := 65536) (H := 100)
      (fun a k => (V c main_v29_0 : S65536x100.Idx → EReal) (ix2 a k))
      (fun k => (V c main_v38 : S1x100.Idx → EReal) (ix2 (0 : Fin 1) k))
      (fun k => (V c main_v39 : S1x100.Idx → EReal) (ix2 (0 : Fin 1) k))
      (fun k => (V c main_v40 : S1x100.Idx → EReal) (ix2 (0 : Fin 1) k))
      (fun k => (V c main_v41 : S1x100.Idx → EReal) (ix2 (0 : Fin 1) k)))
    (fun j k => (V c main_arg13 : S10x100.Idx → EReal) (ix2 j k))
    (fun j => (V c main_v42 : S1x10.Idx → EReal) (ix2 (0 : Fin 1) j))

/-- The result: the log-softmax of the rows of the logits. -/
def out3 (c : Dev nD) : S65536x10.Idx → EReal := fun i => Cert.Spec.lsm (logits3 V c) (i 0) (i 1)

/-- The input window's block at point t holds rows 4096·t … of the previous pre-activations. -/
theorem iblk3_0_apply (c : Dev nD) (t : Fin cfg3.N) (p : Fin 4096) (k : Fin 100) :
    iblk3 V c 0 t (ix2 p k) = (V c main_v29_0 : S65536x100.Idx → EReal) (ix2 (row3 t p) k) := by
  have e := idx3 t
  show (V c main_v29_0 : S65536x100.Idx → EReal) (((cfg3.win 0).blk t).view.emb (ix2 p k)) = _
  refine congrArg _ (funext fun a => Fin.ext ?_)
  match a with
  | ⟨0, _⟩ => show win3_0.index t (0 : Fin 2) * 4096 + 1 * p.val = t.val * 4096 + p.val; omega
  | ⟨1, _⟩ => show win3_0.index t (1 : Fin 2) * 100 + 1 * k.val = k.val; omega

/-- The mean window's block is the whole row. -/
theorem iblk3_1_apply (c : Dev nD) (t : Fin cfg3.N) (u : Fin 1) (k : Fin 100) :
    iblk3 V c 1 t (ix2 u k) = (V c main_v38 : S1x100.Idx → EReal) (ix2 u k) := by
  have e := idx3 t
  show (V c main_v38 : S1x100.Idx → EReal) (((cfg3.win 1).blk t).view.emb (ix2 u k)) = _
  refine congrArg _ (funext fun a => Fin.ext ?_)
  match a with
  | ⟨0, _⟩ => show win3_1.index t (0 : Fin 2) * 1 + 1 * u.val = u.val; omega
  | ⟨1, _⟩ => show win3_1.index t (1 : Fin 2) * 100 + 1 * k.val = k.val; omega

/-- The variance window's block is the whole row. -/
theorem iblk3_2_apply (c : Dev nD) (t : Fin cfg3.N) (u : Fin 1) (k : Fin 100) :
    iblk3 V c 2 t (ix2 u k) = (V c main_v39 : S1x100.Idx → EReal) (ix2 u k) := by
  have e := idx3 t
  show (V c main_v39 : S1x100.Idx → EReal) (((cfg3.win 2).blk t).view.emb (ix2 u k)) = _
  refine congrArg _ (funext fun a => Fin.ext ?_)
  match a with
  | ⟨0, _⟩ => show win3_2.index t (0 : Fin 2) * 1 + 1 * u.val = u.val; omega
  | ⟨1, _⟩ => show win3_2.index t (1 : Fin 2) * 100 + 1 * k.val = k.val; omega

/-- The scale window's block is the whole row. -/
theorem iblk3_3_apply (c : Dev nD) (t : Fin cfg3.N) (u : Fin 1) (k : Fin 100) :
    iblk3 V c 3 t (ix2 u k) = (V c main_v40 : S1x100.Idx → EReal) (ix2 u k) := by
  have e := idx3 t
  show (V c main_v40 : S1x100.Idx → EReal) (((cfg3.win 3).blk t).view.emb (ix2 u k)) = _
  refine congrArg _ (funext fun a => Fin.ext ?_)
  match a with
  | ⟨0, _⟩ => show win3_3.index t (0 : Fin 2) * 1 + 1 * u.val = u.val; omega
  | ⟨1, _⟩ => show win3_3.index t (1 : Fin 2) * 100 + 1 * k.val = k.val; omega

/-- The shift window's block is the whole row. -/
theorem iblk3_4_apply (c : Dev nD) (t : Fin cfg3.N) (u : Fin 1) (k : Fin 100) :
    iblk3 V c 4 t (ix2 u k) = (V c main_v41 : S1x100.Idx → EReal) (ix2 u k) := by
  have e := idx3 t
  show (V c main_v41 : S1x100.Idx → EReal) (((cfg3.win 4).blk t).view.emb (ix2 u k)) = _
  refine congrArg _ (funext fun a => Fin.ext ?_)
  match a with
  | ⟨0, _⟩ => show win3_4.index t (0 : Fin 2) * 1 + 1 * u.val = u.val; omega
  | ⟨1, _⟩ => show win3_4.index t (1 : Fin 2) * 100 + 1 * k.val = k.val; omega

/-- The weight window's block is the whole weight matrix. -/
theorem iblk3_5_apply (c : Dev nD) (t : Fin cfg3.N) (q : Fin 10) (k : Fin 100) :
    iblk3 V c 5 t (ix2 q k) = (V c main_arg13 : S10x100.Idx → EReal) (ix2 q k) := by
  have e := idx3 t
  show (V c main_arg13 : S10x100.Idx → EReal) (((cfg3.win 5).blk t).view.emb (ix2 q k)) = _
  refine congrArg _ (funext fun a => Fin.ext ?_)
  match a with
  | ⟨0, _⟩ => show win3_5.index t (0 : Fin 2) * 10 + 1 * q.val = q.val; omega
  | ⟨1, _⟩ => show win3_5.index t (1 : Fin 2) * 100 + 1 * k.val = k.val; omega

/-- The bias window's block is the whole bias row. -/
theorem iblk3_6_apply (c : Dev nD) (t : Fin cfg3.N) (u : Fin 1) (q : Fin 10) :
    iblk3 V c 6 t (ix2 u q) = (V c main_v42 : S1x10.Idx → EReal) (ix2 u q) := by
  have e := idx3 t
  show (V c main_v42 : S1x10.Idx → EReal) (((cfg3.win 6).blk t).view.emb (ix2 u q)) = _
  refine congrArg _ (funext fun a => Fin.ext ?_)
  match a with
  | ⟨0, _⟩ => show win3_6.index t (0 : Fin 2) * 1 + 1 * u.val = u.val; omega
  | ⟨1, _⟩ => show win3_6.index t (1 : Fin 2) * 10 + 1 * q.val = q.val; omega

/-- The stored entry at (p, q) of point t is the result at row 4096·t + p, column q. -/
theorem entry3 (c : Dev nD) (t : Fin cfg3.N) (p : Fin 4096) (q : Fin 10) :
    k3_pay1 (F := Ideal) (k3_pay2 (F := Ideal) (iblk3 V c 0 t) (iblk3 V c 3 t) (iblk3 V c 1 t) (iblk3 V c 2 t) (iblk3 V c 4 t) (iblk3 V c 5 t)) (k3_pay3 (F := Ideal) (iblk3 V c 6 t)) (ix2 p q) = out3 V c (ix2 (row3 t p) q) := by
  refine (pay3_1_apply _ (iblk3 V c 6 t) p q).trans ?_
  refine lsm_row _ (logits3 V c) p (row3 t p) (funext fun c' => ?_) q
  show k3_pay2 (F := Ideal) (iblk3 V c 0 t) (iblk3 V c 3 t) (iblk3 V c 1 t) (iblk3 V c 2 t) (iblk3 V c 4 t) (iblk3 V c 5 t) (ix2 p c')
    + iblk3 V c 6 t (ix2 (0 : Fin 1) c') = logits3 V c (row3 t p) c'
  rw [pay3_2_apply]
  unfold bn3
  simp only [iblk3_0_apply, iblk3_1_apply, iblk3_2_apply, iblk3_3_apply, iblk3_4_apply, iblk3_5_apply, iblk3_6_apply]
  rfl

/-- What point t writes back is block t of `out3`. -/
theorem flushed3_7_eq (c : Dev nD) (t : Fin cfg3.N) :
    (dat3 V c).flushed 7 t = ((cfg3.win 7).blk t).view.read (Elt Ideal) (out3 V c) := by
  show (cfg3.win 7).cut (grid3.coords t) ((dat3 V c).after 7 t) = _
  rw [after3_7]
  unfold out3_7
  rw [View.canon_unit_zero hz2]
  simp only [View.ld_unit_zero (S := S4096x100) hz2, View.ld_unit_zero (S := S1x100) hz2, View.ld_unit_zero (S := S10x100) hz2, View.ld_unit_zero (S := S1x10) hz2]
  funext y
  obtain ⟨p, q, rfl⟩ : ∃ (p : Fin 4096) (q : Fin 10), y = ix2 p q := ⟨y 0, y 1, eq_ix2 y⟩
  have e := idx3 t
  have hemb : ((cfg3.win 7).blk t).view.emb (ix2 p q) = (ix2 (row3 t p) q : S65536x10.Idx) := funext fun a => Fin.ext (by
    match a with
    | ⟨0, _⟩ => show win3_7.index t (0 : Fin 2) * 4096 + 1 * p.val = t.val * 4096 + p.val; omega
    | ⟨1, _⟩ => show win3_7.index t (1 : Fin 2) * 10 + 1 * q.val = q.val; omega)
  show k3_pay1 (F := Ideal) (k3_pay2 (F := Ideal) (iblk3 V c 0 t) (iblk3 V c 3 t) (iblk3 V c 1 t) (iblk3 V c 2 t) (iblk3 V c 4 t) (iblk3 V c 5 t)) (k3_pay3 (F := Ideal) (iblk3 V c 6 t)) (ix2 p q) = out3 V c (((cfg3.win 7).blk t).view.emb (ix2 p q))
  rw [hemb]
  exact entry3 V c t p q

/-- Every row of the result lies in the block of the point that is its tile. -/
theorem cover3_7' (i : S65536x10.Idx) : ∃ t : Fin cfg3.N, (cfg3.win 7).flush t = true ∧ i ∈ ((cfg3.win 7).blk t).view.set := by
  have hi0 : (i 0).val < 65536 := (i 0).isLt
  have hi1 : (i 1).val < 10 := (i 1).isLt
  let t : Fin cfg3.N := Fin.cast N_3.symm ⟨(i 0).val / 4096, by omega⟩
  have htv : t.val = (i 0).val / 4096 := rfl
  have e := idx3 t
  refine ⟨t, flush3_7 t, ?_⟩
  show i ∈ ((View.whole main_v43).slice (win3_7.rect t)).set
  rw [View.set_slice_whole, Rect.mem_set_unit]
  intro a
  match a with
  | ⟨0, _⟩ => show win3_7.index t (0 : Fin 2) * 4096 ≤ (i 0).val ∧ (i 0).val < win3_7.index t (0 : Fin 2) * 4096 + 4096; omega
  | ⟨1, _⟩ => show win3_7.index t (1 : Fin 2) * 10 ≤ (i 1).val ∧ (i 1).val < win3_7.index t (1 : Fin 2) * 10 + 10; omega

/-- The result array after the region. -/
theorem final3_7 (c : Dev nD) : (dat3 V c).arrAt 7 cfg3.N = out3 V c :=
  (dat3 V c).arrAt_eq_of_cover 7 (out3 V c) (fun t _ => flushed3_7_eq V c t) (cover3_7')

end Cert.KernelIdeal.Hand3

end
-- ==== Proof.Walk.lean ====
/-
  The argument arrays through the fold of the buffer contents.

  No host operation and no region of @main writes an argument array: a region reads it through an input window, a host
  operation reads it as an operand.  So at every stage of the fold of the buffer contents through @main's segments an
  argument's buffer still holds what was launched.  Stated here for the stages and arguments the value of the run reads.
-/
import proofs.«120646_j47201690583464_2_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

theorem W1_main_arg0 (c : Dev nD) : W1 m ρ c (Proc.devRef .tc main_arg0) = m ((c : Thread nD τ).loc main_arg0) :=
  calc W1 m ρ c (Proc.devRef .tc main_arg0)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W1_main_arg1 (c : Dev nD) : W1 m ρ c (Proc.devRef .tc main_arg1) = m ((c : Thread nD τ).loc main_arg1) :=
  calc W1 m ρ c (Proc.devRef .tc main_arg1)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W2_main_arg3 (c : Dev nD) : W2 m ρ c (Proc.devRef .tc main_arg3) = m ((c : Thread nD τ).loc main_arg3) :=
  calc W2 m ρ c (Proc.devRef .tc main_arg3)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W2_main_arg4 (c : Dev nD) : W2 m ρ c (Proc.devRef .tc main_arg4) = m ((c : Thread nD τ).loc main_arg4) :=
  calc W2 m ρ c (Proc.devRef .tc main_arg4)
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem W2_main_arg6 (c : Dev nD) : W2 m ρ c (Proc.devRef .tc main_arg6) = m ((c : Thread nD τ).loc main_arg6) :=
  calc W2 m ρ c (Proc.devRef .tc main_arg6)
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

theorem W3_main_arg5 (c : Dev nD) : W3 m ρ c (Proc.devRef .tc main_arg5) = m ((c : Thread nD τ).loc main_arg5) :=
  calc W3 m ρ c (Proc.devRef .tc main_arg5)
    _ = W2 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

theorem W4_main_arg7 (c : Dev nD) : W4 m ρ c (Proc.devRef .tc main_arg7) = m ((c : Thread nD τ).loc main_arg7) :=
  calc W4 m ρ c (Proc.devRef .tc main_arg7)
    _ = W3 m ρ c (Proc.devRef .tc main_arg7) := W4_of_ne m ρ c main_arg7 (by decide)
    _ = W2 m ρ c (Proc.devRef .tc main_arg7) := StableHlo.after_of_forall_not_mem (b := Proc.devRef .tc main_arg7) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl

theorem W4_main_arg8 (c : Dev nD) : W4 m ρ c (Proc.devRef .tc main_arg8) = m ((c : Thread nD τ).loc main_arg8) :=
  calc W4 m ρ c (Proc.devRef .tc main_arg8)
    _ = W3 m ρ c (Proc.devRef .tc main_arg8) := W4_of_ne m ρ c main_arg8 (by decide)
    _ = W2 m ρ c (Proc.devRef .tc main_arg8) := StableHlo.after_of_forall_not_mem (b := Proc.devRef .tc main_arg8) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := rfl

theorem W4_main_arg10 (c : Dev nD) : W4 m ρ c (Proc.devRef .tc main_arg10) = m ((c : Thread nD τ).loc main_arg10) :=
  calc W4 m ρ c (Proc.devRef .tc main_arg10)
    _ = W3 m ρ c (Proc.devRef .tc main_arg10) := W4_of_ne m ρ c main_arg10 (by decide)
    _ = W2 m ρ c (Proc.devRef .tc main_arg10) := StableHlo.after_of_forall_not_mem (b := Proc.devRef .tc main_arg10) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg10) := W2_of_ne m ρ c main_arg10 (by decide)
    _ = W0 m ρ c (Proc.devRef .tc main_arg10) := StableHlo.after_of_forall_not_mem (b := Proc.devRef .tc main_arg10) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg10) := rfl

theorem W5_main_arg9 (c : Dev nD) : W5 m ρ c (Proc.devRef .tc main_arg9) = m ((c : Thread nD τ).loc main_arg9) :=
  calc W5 m ρ c (Proc.devRef .tc main_arg9)
    _ = W4 m ρ c (Proc.devRef .tc main_arg9) := StableHlo.after_of_forall_not_mem (b := Proc.devRef .tc main_arg9) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg9) := W4_of_ne m ρ c main_arg9 (by decide)
    _ = W2 m ρ c (Proc.devRef .tc main_arg9) := StableHlo.after_of_forall_not_mem (b := Proc.devRef .tc main_arg9) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg9) := W2_of_ne m ρ c main_arg9 (by decide)
    _ = W0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg9) := rfl

theorem W6_main_arg11 (c : Dev nD) : W6 m ρ c (Proc.devRef .tc main_arg11) = m ((c : Thread nD τ).loc main_arg11) :=
  calc W6 m ρ c (Proc.devRef .tc main_arg11)
    _ = W5 m ρ c (Proc.devRef .tc main_arg11) := W6_of_ne m ρ c main_arg11 (by decide)
    _ = W4 m ρ c (Proc.devRef .tc main_arg11) := StableHlo.after_of_forall_not_mem (b := Proc.devRef .tc main_arg11) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg11) := W4_of_ne m ρ c main_arg11 (by decide)
    _ = W2 m ρ c (Proc.devRef .tc main_arg11) := StableHlo.after_of_forall_not_mem (b := Proc.devRef .tc main_arg11) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg11) := W2_of_ne m ρ c main_arg11 (by decide)
    _ = W0 m ρ c (Proc.devRef .tc main_arg11) := StableHlo.after_of_forall_not_mem (b := Proc.devRef .tc main_arg11) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg11) := rfl

theorem W6_main_arg12 (c : Dev nD) : W6 m ρ c (Proc.devRef .tc main_arg12) = m ((c : Thread nD τ).loc main_arg12) :=
  calc W6 m ρ c (Proc.devRef .tc main_arg12)
    _ = W5 m ρ c (Proc.devRef .tc main_arg12) := W6_of_ne m ρ c main_arg12 (by decide)
    _ = W4 m ρ c (Proc.devRef .tc main_arg12) := StableHlo.after_of_forall_not_mem (b := Proc.devRef .tc main_arg12) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg12) := W4_of_ne m ρ c main_arg12 (by decide)
    _ = W2 m ρ c (Proc.devRef .tc main_arg12) := StableHlo.after_of_forall_not_mem (b := Proc.devRef .tc main_arg12) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg12) := W2_of_ne m ρ c main_arg12 (by decide)
    _ = W0 m ρ c (Proc.devRef .tc main_arg12) := StableHlo.after_of_forall_not_mem (b := Proc.devRef .tc main_arg12) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg12) := rfl

theorem W6_main_arg14 (c : Dev nD) : W6 m ρ c (Proc.devRef .tc main_arg14) = m ((c : Thread nD τ).loc main_arg14) :=
  calc W6 m ρ c (Proc.devRef .tc main_arg14)
    _ = W5 m ρ c (Proc.devRef .tc main_arg14) := W6_of_ne m ρ c main_arg14 (by decide)
    _ = W4 m ρ c (Proc.devRef .tc main_arg14) := StableHlo.after_of_forall_not_mem (b := Proc.devRef .tc main_arg14) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg14) := W4_of_ne m ρ c main_arg14 (by decide)
    _ = W2 m ρ c (Proc.devRef .tc main_arg14) := StableHlo.after_of_forall_not_mem (b := Proc.devRef .tc main_arg14) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg14) := W2_of_ne m ρ c main_arg14 (by decide)
    _ = W0 m ρ c (Proc.devRef .tc main_arg14) := StableHlo.after_of_forall_not_mem (b := Proc.devRef .tc main_arg14) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg14) := rfl

theorem W7_main_arg13 (c : Dev nD) : W7 m ρ c (Proc.devRef .tc main_arg13) = m ((c : Thread nD τ).loc main_arg13) :=
  calc W7 m ρ c (Proc.devRef .tc main_arg13)
    _ = W6 m ρ c (Proc.devRef .tc main_arg13) := StableHlo.after_of_forall_not_mem (b := Proc.devRef .tc main_arg13) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg13) := W6_of_ne m ρ c main_arg13 (by decide)
    _ = W4 m ρ c (Proc.devRef .tc main_arg13) := StableHlo.after_of_forall_not_mem (b := Proc.devRef .tc main_arg13) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg13) := W4_of_ne m ρ c main_arg13 (by decide)
    _ = W2 m ρ c (Proc.devRef .tc main_arg13) := StableHlo.after_of_forall_not_mem (b := Proc.devRef .tc main_arg13) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg13) := W2_of_ne m ρ c main_arg13 (by decide)
    _ = W0 m ρ c (Proc.devRef .tc main_arg13) := StableHlo.after_of_forall_not_mem (b := Proc.devRef .tc main_arg13) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg13) := rfl

end Cert.KernelIdeal.Hand

end
-- ==== Proof.LibHostSum.lean ====
/-
  The host's float sum of a T×1×H array over its first two axes, read at an index.

  The reduction keeps the last axis only, so the indices that reduce into q are exactly (t, 0, q) for t below T, and the
  filtered sum over them is the sum over t.
-/
import Idealize.ShloMosaic.PureOps.Ideal.Laws
import Idealize.ShloMosaic.Lib.ValueIdx

noncomputable section

namespace Cert.HostSum

open Idealize.ShloMosaic Idealize.ShloMosaic.ValueIdx

/-- Dropping the first two coordinates of (a0, a1, a2) leaves a2. -/
theorem drop_val {T H : ℕ} (h' : (⟨3, ![T, 1, H]⟩ : Shape).ReducesTo [0, 1] ⟨1, ![H]⟩)
    (i : (⟨3, ![T, 1, H]⟩ : Shape).Idx) : ((h'.drop i) 0).val = (i 2).val := rfl

/-- An index reduces into q exactly when its last coordinate is q. -/
theorem drop_eq_iff {T H : ℕ} (h' : (⟨3, ![T, 1, H]⟩ : Shape).ReducesTo [0, 1] ⟨1, ![H]⟩)
    (i : (⟨3, ![T, 1, H]⟩ : Shape).Idx) (q : Fin H) : h'.drop i = ix1 q ↔ i 2 = q := by
  constructor
  · intro e
    have e0 : ((h'.drop i) 0).val = q.val := congrArg Fin.val (congrFun e 0)
    exact Fin.ext ((drop_val h' i).symm.trans e0)
  · intro e
    funext b
    match b with
    | ⟨0, _⟩ => exact Fin.ext ((drop_val h' i).trans (congrArg Fin.val e))

/-- An index whose last coordinate is q is (its first coordinate, 0, q). -/
theorem ix3_of_last {T H : ℕ} (a : (⟨3, ![T, 1, H]⟩ : Shape).Idx) (q : Fin H) (e2 : a 2 = q) :
    ix3 (a 0) (0 : Fin 1) q = a := by
  funext d
  match d with
  | ⟨0, _⟩ => rfl
  | ⟨1, _⟩ =>
    have h1 : (a 1).val < 1 := (a 1).isLt
    exact Fin.ext (show (0 : ℕ) = (a 1).val by omega)
  | ⟨2, _⟩ => exact e2.symm

/-- The sum of a T×1×H array over its first two axes, at q: the start value plus the sum over t of the entries
    (t, 0, q). -/
theorem hostReduceAdd_tiles {T H : ℕ} (h' : (⟨3, ![T, 1, H]⟩ : Shape).ReducesTo [0, 1] ⟨1, ![H]⟩)
    (x : (⟨3, ![T, 1, H]⟩ : Shape).Idx → EReal) (init : EReal) (q : Fin H) :
    Ideal.hostReduceAdd h' x init (ix1 q) = init + ∑ t : Fin T, x (ix3 t (0 : Fin 1) q) := by
  unfold Ideal.hostReduceAdd
  congr 1
  refine Finset.sum_nbij' (fun i => (i 0 : Fin T)) (fun t => ix3 t (0 : Fin 1) q) ?_ ?_ ?_ ?_ ?_
  · intro a _; exact Finset.mem_univ _
  · intro t _
    exact Finset.mem_filter.2 ⟨Finset.mem_univ _, (drop_eq_iff h' _ q).2 rfl⟩
  · intro a ha
    exact ix3_of_last a q ((drop_eq_iff h' a q).1 (Finset.mem_filter.1 ha).2)
  · intro t _; rfl
  · intro a ha
    exact congrArg x (ix3_of_last a q ((drop_eq_iff h' a q).1 (Finset.mem_filter.1 ha).2)).symm

end Cert.HostSum

end
-- ==== Proof.HostK.lean ====
/-
  The kernel program's host stretches, read at an index.

  Between its regions the kernel program runs short stretches of host operations.  Each turns the per-tile partial
  sums and partial sums of squares that the preceding region left into the column mean (their total over the batch
  size) and the column variance (the mean of the squares minus the square of the mean), and reshapes the next
  layer's scale, shift and bias vectors [n] into rows [1, n].  Here, for arbitrary buffer contents W at the start of a
  stretch, every buffer a later region reads is read at an index after the stretch, and the buffers the stretch does
  not write are shown to keep W's contents.  The literal words 0 and 65536 are the specification's and are never
  evaluated.
-/
import proofs.«120646_j47201690583464_2_alg».proof.Proof.Gen.KernelIdeal.Launch
import proofs.«120646_j47201690583464_2_alg».proof.Proof.Spec
import proofs.«120646_j47201690583464_2_alg».proof.Proof.LibHostSum
import Idealize.ShloMosaic.Lib.StableHlo.Run
import Idealize.ShloMosaic.Lib.Tactic
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.HostK

open Idealize.ShloMosaic Idealize.ShloMosaic.ValueIdx Idealize.ShloMosaic.TcCoe
open Cert.KernelIdeal Cert.KernelIdeal.Gen

variable (W : Valuation τ sig (Elt Ideal))

/-- The mean of a column q of a batch held as T tiles of partial sums: their total over the batch size. -/
abbrev colMean {T H : ℕ} (x : (⟨3, ![T, 1, H]⟩ : Shape).Idx → EReal) (q : Fin H) : EReal :=
  Ideal.div (Spec.zero + ∑ t : Fin T, x (ix3 t (0 : Fin 1) q)) Spec.cnt

/-- The variance of a column q from its tiles of partial sums x and of partial sums of squares y: the mean of the
    squares minus the square of the mean. -/
abbrev colVar {T H : ℕ} (x y : (⟨3, ![T, 1, H]⟩ : Shape).Idx → EReal) (q : Fin H) : EReal :=
  colMean y q - colMean x q * colMean x q

/-- A host sum over the tile axes divided by the broadcast batch size, at a column, is the column mean. -/
theorem div_sum_at {T H : ℕ} (h' : (⟨3, ![T, 1, H]⟩ : Shape).ReducesTo [0, 1] ⟨1, ![H]⟩)
    (hb : (⟨0, ![]⟩ : Shape).BroadcastsInDim ⟨1, ![H]⟩ (![] : Fin 0 → Fin 1)) (hu : 0 < (⟨0, ![]⟩ : Shape).numel)
    (x : (⟨3, ![T, 1, H]⟩ : Shape).Idx → EReal) (q : Fin H) :
    (Host.divf (F := Ideal) (φ := .f32)
      (Host.reduceAdd (F := Ideal) (φ := .f32) x (constant (F := Ideal) ⟨0, ![]⟩ .f32 0x00000000#32) h' hu)
      (broadcastInDim ⟨1, ![H]⟩ ![] hb (constant (F := Ideal) ⟨0, ![]⟩ .f32 0x47800000#32))) (ix1 q) = colMean x q := by
  show Ideal.div (Ideal.hostReduceAdd h' x Spec.zero (ix1 q)) Spec.cnt = _
  rw [HostSum.hostReduceAdd_tiles]

section Stretch0

/-- The buffer after the stretch, as one array. -/
theorem v0_term :
    (StableHlo.after (hostOps0 (F := Ideal)) W (Proc.devRef .tc main_v0) : S1x200.Idx → EReal)
      = shapeCast S1x200 (W (Proc.devRef .tc main_arg2) : S200.Idx → EReal) shapeCasts_S200_S1x200 := by
  dsimp only [hostOps0]
  after_results <;> rfl

/-- A reshaped argument: the row (0, j) is the argument's entry j. -/
theorem v0_at (j : Fin 200) :
    (StableHlo.after (hostOps0 (F := Ideal)) W (Proc.devRef .tc main_v0) : S1x200.Idx → EReal) (ix2 (0 : Fin 1) j)
      = (W (Proc.devRef .tc main_arg2) : S200.Idx → EReal) (ix1 j) := by
  rw [v0_term, shapeCast_a_1a_apply]

/-- The stretch does not write this buffer. -/
theorem arg0_keep0 :
    StableHlo.after (hostOps0 (F := Ideal)) W (Proc.devRef .tc main_arg0) = W (Proc.devRef .tc main_arg0) := by
  dsimp only [hostOps0]
  after_results <;> rfl

/-- The stretch does not write this buffer. -/
theorem arg1_keep0 :
    StableHlo.after (hostOps0 (F := Ideal)) W (Proc.devRef .tc main_arg1) = W (Proc.devRef .tc main_arg1) := by
  dsimp only [hostOps0]
  after_results <;> rfl

end Stretch0

section Stretch1

/-- The partial sums the preceding region leaves, tile by tile. -/
abbrev s1 : S32x1x200.Idx → EReal := W (Proc.devRef .tc main_v1_1)
/-- The partial sums of squares. -/
abbrev q1 : S32x1x200.Idx → EReal := W (Proc.devRef .tc main_v1_2)

/-- The mean array the stretch computes. -/
abbrev m1 : S200.Idx → EReal :=
  Host.divf (F := Ideal) (φ := .f32)
    (Host.reduceAdd (F := Ideal) (φ := .f32) (s1 W) (constant (F := Ideal) S_ .f32 0x00000000#32) reducesTo_S32x1x200_S200_d0_1 h_S_)
    (broadcastInDim S200 ![] bcast_S_S200 (constant (F := Ideal) S_ .f32 0x47800000#32))

/-- The mean-of-squares array the stretch computes. -/
abbrev e1 : S200.Idx → EReal :=
  Host.divf (F := Ideal) (φ := .f32)
    (Host.reduceAdd (F := Ideal) (φ := .f32) (q1 W) (constant (F := Ideal) S_ .f32 0x00000000#32) reducesTo_S32x1x200_S200_d0_1 h_S_)
    (broadcastInDim S200 ![] bcast_S_S200 (constant (F := Ideal) S_ .f32 0x47800000#32))

/-- The mean array at a column is the column mean. -/
theorem m1_at (q : Fin 200) : m1 W (ix1 q) = colMean (s1 W) q := div_sum_at _ _ _ _ q

/-- The mean-of-squares array at a column is the column mean of the squares. -/
theorem e1_at (q : Fin 200) : e1 W (ix1 q) = colMean (q1 W) q := div_sum_at _ _ _ _ q

/-- The buffer after the stretch, as one array. -/
theorem v10_term :
    (StableHlo.after (hostOps1 (F := Ideal)) W (Proc.devRef .tc main_v10) : S1x200.Idx → EReal)
      = shapeCast S1x200 (m1 W) shapeCasts_S200_S1x200 := by
  dsimp only [hostOps1]
  after_results <;> rfl

/-- The mean buffer holds the column means. -/
theorem v10_at (q : Fin 200) :
    (StableHlo.after (hostOps1 (F := Ideal)) W (Proc.devRef .tc main_v10) : S1x200.Idx → EReal) (ix2 (0 : Fin 1) q)
      = colMean (s1 W) q := by
  rw [v10_term, shapeCast_a_1a_apply]
  exact m1_at W q

/-- The buffer after the stretch, as one array. -/
theorem v11_term :
    (StableHlo.after (hostOps1 (F := Ideal)) W (Proc.devRef .tc main_v11) : S1x200.Idx → EReal)
      = shapeCast S1x200 (subf (F := Ideal) (φ := .f32) (e1 W) (mulf (F := Ideal) (φ := .f32) (m1 W) (m1 W))) shapeCasts_S200_S1x200 := by
  dsimp only [hostOps1]
  after_results <;> rfl

/-- The variance buffer holds the column variances, as mean of squares minus squared mean. -/
theorem v11_at (q : Fin 200) :
    (StableHlo.after (hostOps1 (F := Ideal)) W (Proc.devRef .tc main_v11) : S1x200.Idx → EReal) (ix2 (0 : Fin 1) q)
      = colVar (s1 W) (q1 W) q := by
  rw [v11_term, shapeCast_a_1a_apply]
  show e1 W (ix1 q) - m1 W (ix1 q) * m1 W (ix1 q) = _
  rw [e1_at, m1_at]

/-- The buffer after the stretch, as one array. -/
theorem v12_term :
    (StableHlo.after (hostOps1 (F := Ideal)) W (Proc.devRef .tc main_v12) : S1x200.Idx → EReal)
      = shapeCast S1x200 (W (Proc.devRef .tc main_arg3) : S200.Idx → EReal) shapeCasts_S200_S1x200 := by
  dsimp only [hostOps1]
  after_results <;> rfl

/-- A reshaped argument: the row (0, j) is the argument's entry j. -/
theorem v12_at (j : Fin 200) :
    (StableHlo.after (hostOps1 (F := Ideal)) W (Proc.devRef .tc main_v12) : S1x200.Idx → EReal) (ix2 (0 : Fin 1) j)
      = (W (Proc.devRef .tc main_arg3) : S200.Idx → EReal) (ix1 j) := by
  rw [v12_term, shapeCast_a_1a_apply]

/-- The buffer after the stretch, as one array. -/
theorem v13_term :
    (StableHlo.after (hostOps1 (F := Ideal)) W (Proc.devRef .tc main_v13) : S1x200.Idx → EReal)
      = shapeCast S1x200 (W (Proc.devRef .tc main_arg4) : S200.Idx → EReal) shapeCasts_S200_S1x200 := by
  dsimp only [hostOps1]
  after_results <;> rfl

/-- A reshaped argument: the row (0, j) is the argument's entry j. -/
theorem v13_at (j : Fin 200) :
    (StableHlo.after (hostOps1 (F := Ideal)) W (Proc.devRef .tc main_v13) : S1x200.Idx → EReal) (ix2 (0 : Fin 1) j)
      = (W (Proc.devRef .tc main_arg4) : S200.Idx → EReal) (ix1 j) := by
  rw [v13_term, shapeCast_a_1a_apply]

/-- The buffer after the stretch, as one array. -/
theorem v14_term :
    (StableHlo.after (hostOps1 (F := Ideal)) W (Proc.devRef .tc main_v14) : S1x100.Idx → EReal)
      = shapeCast S1x100 (W (Proc.devRef .tc main_arg6) : S100.Idx → EReal) shapeCasts_S100_S1x100 := by
  dsimp only [hostOps1]
  after_results <;> rfl

/-- A reshaped argument: the row (0, j) is the argument's entry j. -/
theorem v14_at (j : Fin 100) :
    (StableHlo.after (hostOps1 (F := Ideal)) W (Proc.devRef .tc main_v14) : S1x100.Idx → EReal) (ix2 (0 : Fin 1) j)
      = (W (Proc.devRef .tc main_arg6) : S100.Idx → EReal) (ix1 j) := by
  rw [v14_term, shapeCast_a_1a_apply]

/-- The stretch does not write this buffer. -/
theorem v1_0_keep1 :
    StableHlo.after (hostOps1 (F := Ideal)) W (Proc.devRef .tc main_v1_0) = W (Proc.devRef .tc main_v1_0) := by
  dsimp only [hostOps1]
  after_results <;> rfl

/-- The stretch does not write this buffer. -/
theorem arg5_keep1 :
    StableHlo.after (hostOps1 (F := Ideal)) W (Proc.devRef .tc main_arg5) = W (Proc.devRef .tc main_arg5) := by
  dsimp only [hostOps1]
  after_results <;> rfl

end Stretch1

section Stretch2

/-- The partial sums the preceding region leaves, tile by tile. -/
abbrev s2 : S16x1x100.Idx → EReal := W (Proc.devRef .tc main_v15_1)
/-- The partial sums of squares. -/
abbrev q2 : S16x1x100.Idx → EReal := W (Proc.devRef .tc main_v15_2)

/-- The mean array the stretch computes. -/
abbrev m2 : S100.Idx → EReal :=
  Host.divf (F := Ideal) (φ := .f32)
    (Host.reduceAdd (F := Ideal) (φ := .f32) (s2 W) (constant (F := Ideal) S_ .f32 0x00000000#32) reducesTo_S16x1x100_S100_d0_1 h_S_)
    (broadcastInDim S100 ![] bcast_S_S100 (constant (F := Ideal) S_ .f32 0x47800000#32))

/-- The mean-of-squares array the stretch computes. -/
abbrev e2 : S100.Idx → EReal :=
  Host.divf (F := Ideal) (φ := .f32)
    (Host.reduceAdd (F := Ideal) (φ := .f32) (q2 W) (constant (F := Ideal) S_ .f32 0x00000000#32) reducesTo_S16x1x100_S100_d0_1 h_S_)
    (broadcastInDim S100 ![] bcast_S_S100 (constant (F := Ideal) S_ .f32 0x47800000#32))

/-- The mean array at a column is the column mean. -/
theorem m2_at (q : Fin 100) : m2 W (ix1 q) = colMean (s2 W) q := div_sum_at _ _ _ _ q

/-- The mean-of-squares array at a column is the column mean of the squares. -/
theorem e2_at (q : Fin 100) : e2 W (ix1 q) = colMean (q2 W) q := div_sum_at _ _ _ _ q

/-- The buffer after the stretch, as one array. -/
theorem v24_term :
    (StableHlo.after (hostOps2 (F := Ideal)) W (Proc.devRef .tc main_v24) : S1x100.Idx → EReal)
      = shapeCast S1x100 (m2 W) shapeCasts_S100_S1x100 := by
  dsimp only [hostOps2]
  after_results <;> rfl

/-- The mean buffer holds the column means. -/
theorem v24_at (q : Fin 100) :
    (StableHlo.after (hostOps2 (F := Ideal)) W (Proc.devRef .tc main_v24) : S1x100.Idx → EReal) (ix2 (0 : Fin 1) q)
      = colMean (s2 W) q := by
  rw [v24_term, shapeCast_a_1a_apply]
  exact m2_at W q

/-- The buffer after the stretch, as one array. -/
theorem v25_term :
    (StableHlo.after (hostOps2 (F := Ideal)) W (Proc.devRef .tc main_v25) : S1x100.Idx → EReal)
      = shapeCast S1x100 (subf (F := Ideal) (φ := .f32) (e2 W) (mulf (F := Ideal) (φ := .f32) (m2 W) (m2 W))) shapeCasts_S100_S1x100 := by
  dsimp only [hostOps2]
  after_results <;> rfl

/-- The variance buffer holds the column variances, as mean of squares minus squared mean. -/
theorem v25_at (q : Fin 100) :
    (StableHlo.after (hostOps2 (F := Ideal)) W (Proc.devRef .tc main_v25) : S1x100.Idx → EReal) (ix2 (0 : Fin 1) q)
      = colVar (s2 W) (q2 W) q := by
  rw [v25_term, shapeCast_a_1a_apply]
  show e2 W (ix1 q) - m2 W (ix1 q) * m2 W (ix1 q) = _
  rw [e2_at, m2_at]

/-- The buffer after the stretch, as one array. -/
theorem v26_term :
    (StableHlo.after (hostOps2 (F := Ideal)) W (Proc.devRef .tc main_v26) : S1x100.Idx → EReal)
      = shapeCast S1x100 (W (Proc.devRef .tc main_arg7) : S100.Idx → EReal) shapeCasts_S100_S1x100 := by
  dsimp only [hostOps2]
  after_results <;> rfl

/-- A reshaped argument: the row (0, j) is the argument's entry j. -/
theorem v26_at (j : Fin 100) :
    (StableHlo.after (hostOps2 (F := Ideal)) W (Proc.devRef .tc main_v26) : S1x100.Idx → EReal) (ix2 (0 : Fin 1) j)
      = (W (Proc.devRef .tc main_arg7) : S100.Idx → EReal) (ix1 j) := by
  rw [v26_term, shapeCast_a_1a_apply]

/-- The buffer after the stretch, as one array. -/
theorem v27_term :
    (StableHlo.after (hostOps2 (F := Ideal)) W (Proc.devRef .tc main_v27) : S1x100.Idx → EReal)
      = shapeCast S1x100 (W (Proc.devRef .tc main_arg8) : S100.Idx → EReal) shapeCasts_S100_S1x100 := by
  dsimp only [hostOps2]
  after_results <;> rfl

/-- A reshaped argument: the row (0, j) is the argument's entry j. -/
theorem v27_at (j : Fin 100) :
    (StableHlo.after (hostOps2 (F := Ideal)) W (Proc.devRef .tc main_v27) : S1x100.Idx → EReal) (ix2 (0 : Fin 1) j)
      = (W (Proc.devRef .tc main_arg8) : S100.Idx → EReal) (ix1 j) := by
  rw [v27_term, shapeCast_a_1a_apply]

/-- The buffer after the stretch, as one array. -/
theorem v28_term :
    (StableHlo.after (hostOps2 (F := Ideal)) W (Proc.devRef .tc main_v28) : S1x100.Idx → EReal)
      = shapeCast S1x100 (W (Proc.devRef .tc main_arg10) : S100.Idx → EReal) shapeCasts_S100_S1x100 := by
  dsimp only [hostOps2]
  after_results <;> rfl

/-- A reshaped argument: the row (0, j) is the argument's entry j. -/
theorem v28_at (j : Fin 100) :
    (StableHlo.after (hostOps2 (F := Ideal)) W (Proc.devRef .tc main_v28) : S1x100.Idx → EReal) (ix2 (0 : Fin 1) j)
      = (W (Proc.devRef .tc main_arg10) : S100.Idx → EReal) (ix1 j) := by
  rw [v28_term, shapeCast_a_1a_apply]

/-- The stretch does not write this buffer. -/
theorem v15_0_keep2 :
    StableHlo.after (hostOps2 (F := Ideal)) W (Proc.devRef .tc main_v15_0) = W (Proc.devRef .tc main_v15_0) := by
  dsimp only [hostOps2]
  after_results <;> rfl

/-- The stretch does not write this buffer. -/
theorem arg9_keep2 :
    StableHlo.after (hostOps2 (F := Ideal)) W (Proc.devRef .tc main_arg9) = W (Proc.devRef .tc main_arg9) := by
  dsimp only [hostOps2]
  after_results <;> rfl

end Stretch2

section Stretch3

/-- The partial sums the preceding region leaves, tile by tile. -/
abbrev s3 : S16x1x100.Idx → EReal := W (Proc.devRef .tc main_v29_1)
/-- The partial sums of squares. -/
abbrev q3 : S16x1x100.Idx → EReal := W (Proc.devRef .tc main_v29_2)

/-- The mean array the stretch computes. -/
abbrev m3 : S100.Idx → EReal :=
  Host.divf (F := Ideal) (φ := .f32)
    (Host.reduceAdd (F := Ideal) (φ := .f32) (s3 W) (constant (F := Ideal) S_ .f32 0x00000000#32) reducesTo_S16x1x100_S100_d0_1 h_S_)
    (broadcastInDim S100 ![] bcast_S_S100 (constant (F := Ideal) S_ .f32 0x47800000#32))

/-- The mean-of-squares array the stretch computes. -/
abbrev e3 : S100.Idx → EReal :=
  Host.divf (F := Ideal) (φ := .f32)
    (Host.reduceAdd (F := Ideal) (φ := .f32) (q3 W) (constant (F := Ideal) S_ .f32 0x00000000#32) reducesTo_S16x1x100_S100_d0_1 h_S_)
    (broadcastInDim S100 ![] bcast_S_S100 (constant (F := Ideal) S_ .f32 0x47800000#32))

/-- The mean array at a column is the column mean. -/
theorem m3_at (q : Fin 100) : m3 W (ix1 q) = colMean (s3 W) q := div_sum_at _ _ _ _ q

/-- The mean-of-squares array at a column is the column mean of the squares. -/
theorem e3_at (q : Fin 100) : e3 W (ix1 q) = colMean (q3 W) q := div_sum_at _ _ _ _ q

/-- The buffer after the stretch, as one array. -/
theorem v38_term :
    (StableHlo.after (hostOps3 (F := Ideal)) W (Proc.devRef .tc main_v38) : S1x100.Idx → EReal)
      = shapeCast S1x100 (m3 W) shapeCasts_S100_S1x100 := by
  dsimp only [hostOps3]
  after_results <;> rfl

/-- The mean buffer holds the column means. -/
theorem v38_at (q : Fin 100) :
    (StableHlo.after (hostOps3 (F := Ideal)) W (Proc.devRef .tc main_v38) : S1x100.Idx → EReal) (ix2 (0 : Fin 1) q)
      = colMean (s3 W) q := by
  rw [v38_term, shapeCast_a_1a_apply]
  exact m3_at W q

/-- The buffer after the stretch, as one array. -/
theorem v39_term :
    (StableHlo.after (hostOps3 (F := Ideal)) W (Proc.devRef .tc main_v39) : S1x100.Idx → EReal)
      = shapeCast S1x100 (subf (F := Ideal) (φ := .f32) (e3 W) (mulf (F := Ideal) (φ := .f32) (m3 W) (m3 W))) shapeCasts_S100_S1x100 := by
  dsimp only [hostOps3]
  after_results <;> rfl

/-- The variance buffer holds the column variances, as mean of squares minus squared mean. -/
theorem v39_at (q : Fin 100) :
    (StableHlo.after (hostOps3 (F := Ideal)) W (Proc.devRef .tc main_v39) : S1x100.Idx → EReal) (ix2 (0 : Fin 1) q)
      = colVar (s3 W) (q3 W) q := by
  rw [v39_term, shapeCast_a_1a_apply]
  show e3 W (ix1 q) - m3 W (ix1 q) * m3 W (ix1 q) = _
  rw [e3_at, m3_at]

/-- The buffer after the stretch, as one array. -/
theorem v40_term :
    (StableHlo.after (hostOps3 (F := Ideal)) W (Proc.devRef .tc main_v40) : S1x100.Idx → EReal)
      = shapeCast S1x100 (W (Proc.devRef .tc main_arg11) : S100.Idx → EReal) shapeCasts_S100_S1x100 := by
  dsimp only [hostOps3]
  after_results <;> rfl

/-- A reshaped argument: the row (0, j) is the argument's entry j. -/
theorem v40_at (j : Fin 100) :
    (StableHlo.after (hostOps3 (F := Ideal)) W (Proc.devRef .tc main_v40) : S1x100.Idx → EReal) (ix2 (0 : Fin 1) j)
      = (W (Proc.devRef .tc main_arg11) : S100.Idx → EReal) (ix1 j) := by
  rw [v40_term, shapeCast_a_1a_apply]

/-- The buffer after the stretch, as one array. -/
theorem v41_term :
    (StableHlo.after (hostOps3 (F := Ideal)) W (Proc.devRef .tc main_v41) : S1x100.Idx → EReal)
      = shapeCast S1x100 (W (Proc.devRef .tc main_arg12) : S100.Idx → EReal) shapeCasts_S100_S1x100 := by
  dsimp only [hostOps3]
  after_results <;> rfl

/-- A reshaped argument: the row (0, j) is the argument's entry j. -/
theorem v41_at (j : Fin 100) :
    (StableHlo.after (hostOps3 (F := Ideal)) W (Proc.devRef .tc main_v41) : S1x100.Idx → EReal) (ix2 (0 : Fin 1) j)
      = (W (Proc.devRef .tc main_arg12) : S100.Idx → EReal) (ix1 j) := by
  rw [v41_term, shapeCast_a_1a_apply]

/-- The buffer after the stretch, as one array. -/
theorem v42_term :
    (StableHlo.after (hostOps3 (F := Ideal)) W (Proc.devRef .tc main_v42) : S1x10.Idx → EReal)
      = shapeCast S1x10 (W (Proc.devRef .tc main_arg14) : S10.Idx → EReal) shapeCasts_S10_S1x10 := by
  dsimp only [hostOps3]
  after_results <;> rfl

/-- A reshaped argument: the row (0, j) is the argument's entry j. -/
theorem v42_at (j : Fin 10) :
    (StableHlo.after (hostOps3 (F := Ideal)) W (Proc.devRef .tc main_v42) : S1x10.Idx → EReal) (ix2 (0 : Fin 1) j)
      = (W (Proc.devRef .tc main_arg14) : S10.Idx → EReal) (ix1 j) := by
  rw [v42_term, shapeCast_a_1a_apply]

/-- The stretch does not write this buffer. -/
theorem v29_0_keep3 :
    StableHlo.after (hostOps3 (F := Ideal)) W (Proc.devRef .tc main_v29_0) = W (Proc.devRef .tc main_v29_0) := by
  dsimp only [hostOps3]
  after_results <;> rfl

/-- The stretch does not write this buffer. -/
theorem arg13_keep3 :
    StableHlo.after (hostOps3 (F := Ideal)) W (Proc.devRef .tc main_arg13) = W (Proc.devRef .tc main_arg13) := by
  dsimp only [hostOps3]
  after_results <;> rfl

end Stretch3

end Cert.KernelIdeal.HostK

end
-- ==== Proof.Chain.lean ====
/-
  The fold of the buffer contents through @main, stage by stage, is the specification.

  Region by region: what a region finds at entry is what the stretch of host operations before it made of the previous
  region's results and of the launched arguments.  The per-tile column sums of a region's pre-activations add up to the
  sums over the whole batch, so the host's mean and variance are the specification's column mean and its variance as mean
  of squares minus squared mean; scales, shifts, weights and biases are the launched arguments re-laid as rows.  So each
  region's result is the specification's next layer of the launched arguments, and the last region's is its log-softmax.
-/
import proofs.«120646_j47201690583464_2_alg».proof.Proof.Reg0
import proofs.«120646_j47201690583464_2_alg».proof.Proof.Reg1
import proofs.«120646_j47201690583464_2_alg».proof.Proof.Reg2
import proofs.«120646_j47201690583464_2_alg».proof.Proof.Reg3
import proofs.«120646_j47201690583464_2_alg».proof.Proof.Walk
import proofs.«120646_j47201690583464_2_alg».proof.Proof.HostK

set_option maxRecDepth 16384

noncomputable section

namespace Cert.KernelIdeal.Chain

open Cert.KernelIdeal Cert.KernelIdeal.Gen Cert.KernelIdeal.Hand
open Idealize.ShloMosaic Idealize.ShloMosaic.TcCoe Idealize.ShloMosaic.ValueIdx Idealize.SL.Sem

/-! ## Tiles' sums and the batch's mean and variance -/

/-- The mean from T tiles of R-row partial sums is the mean over the batch. -/
theorem mean_of_tiles {T R H : ℕ} (hN : T * R = 65536) (p : Fin 65536 → Fin H → EReal)
    (x : (⟨3, ![T, 1, H]⟩ : Shape).Idx → EReal)
    (hx : ∀ (t : Fin T) (q : Fin H), x (ix3 t (0 : Fin 1) q) = ∑ r : Fin R, p (Cert.Tiles.row hN t r) q) (q : Fin H) :
    HostK.colMean x q = Cert.Spec.mean p q := by
  unfold HostK.colMean Cert.Spec.mean
  simp only [hx]
  rw [Cert.Tiles.sum_tiles hN (fun i => p i q)]

/-- The variance from tiles of partial sums and of partial sums of squares is the batch's mean of squares minus its squared mean. -/
theorem var_of_tiles {T R H : ℕ} (hN : T * R = 65536) (p : Fin 65536 → Fin H → EReal)
    (x y : (⟨3, ![T, 1, H]⟩ : Shape).Idx → EReal)
    (hx : ∀ (t : Fin T) (q : Fin H), x (ix3 t (0 : Fin 1) q) = ∑ r : Fin R, p (Cert.Tiles.row hN t r) q)
    (hy : ∀ (t : Fin T) (q : Fin H), y (ix3 t (0 : Fin 1) q) = ∑ r : Fin R, p (Cert.Tiles.row hN t r) q * p (Cert.Tiles.row hN t r) q)
    (q : Fin H) : HostK.colVar x y q = Cert.Spec.varSq p q := by
  unfold HostK.colVar Cert.Spec.varSq
  rw [mean_of_tiles hN p x hx q]
  unfold HostK.colMean
  simp only [hy]
  rw [Cert.Tiles.sum_tiles hN (fun i => p i q * p i q)]

/-- A layer of normalised signs depends only on its seven input arrays. -/
theorem lin_act_congr {B K H : ℕ} {P P' : Fin B → Fin K → EReal} {MU MU' VAR VAR' G G' BE BE' : Fin K → EReal}
    {W W' : Fin H → Fin K → EReal} {Bv Bv' : Fin H → EReal}
    (hP : P = P') (hMU : MU = MU') (hVAR : VAR = VAR') (hG : G = G') (hBE : BE = BE') (hW : W = W') (hB : Bv = Bv') :
    Cert.Spec.lin (Cert.Spec.act P MU VAR G BE) W Bv = Cert.Spec.lin (Cert.Spec.act P' MU' VAR' G' BE') W' Bv' := by
  subst hP hMU hVAR hG hBE hW hB
  rfl

variable (m : (ℓ : Loc nD τ sig) → Buf (Elt Ideal) ℓ) (ρ : Dev nD → PrngReg) (c : Dev nD)

/-! ## The launched arguments as functions of their coordinates -/

def aX : Fin 65536 → Fin 1024 → EReal := fun a k => (m ((c : Thread nD τ).loc main_arg0) : S65536x1024.Idx → EReal) (ix2 a k)
def aW1 : Fin 200 → Fin 1024 → EReal := fun j k => (m ((c : Thread nD τ).loc main_arg1) : S200x1024.Idx → EReal) (ix2 j k)
def aB1 : Fin 200 → EReal := fun j => (m ((c : Thread nD τ).loc main_arg2) : S200.Idx → EReal) (ix1 j)
def aG1 : Fin 200 → EReal := fun j => (m ((c : Thread nD τ).loc main_arg3) : S200.Idx → EReal) (ix1 j)
def aE1 : Fin 200 → EReal := fun j => (m ((c : Thread nD τ).loc main_arg4) : S200.Idx → EReal) (ix1 j)
def aW2 : Fin 100 → Fin 200 → EReal := fun j k => (m ((c : Thread nD τ).loc main_arg5) : S100x200.Idx → EReal) (ix2 j k)
def aB2 : Fin 100 → EReal := fun j => (m ((c : Thread nD τ).loc main_arg6) : S100.Idx → EReal) (ix1 j)
def aG2 : Fin 100 → EReal := fun j => (m ((c : Thread nD τ).loc main_arg7) : S100.Idx → EReal) (ix1 j)
def aE2 : Fin 100 → EReal := fun j => (m ((c : Thread nD τ).loc main_arg8) : S100.Idx → EReal) (ix1 j)
def aW3 : Fin 100 → Fin 100 → EReal := fun j k => (m ((c : Thread nD τ).loc main_arg9) : S100x100.Idx → EReal) (ix2 j k)
def aB3 : Fin 100 → EReal := fun j => (m ((c : Thread nD τ).loc main_arg10) : S100.Idx → EReal) (ix1 j)
def aG3 : Fin 100 → EReal := fun j => (m ((c : Thread nD τ).loc main_arg11) : S100.Idx → EReal) (ix1 j)
def aE3 : Fin 100 → EReal := fun j => (m ((c : Thread nD τ).loc main_arg12) : S100.Idx → EReal) (ix1 j)
def aW5 : Fin 10 → Fin 100 → EReal := fun j k => (m ((c : Thread nD τ).loc main_arg13) : S10x100.Idx → EReal) (ix2 j k)
def aB5 : Fin 10 → EReal := fun j => (m ((c : Thread nD τ).loc main_arg14) : S10.Idx → EReal) (ix1 j)

/-! ## Region 0 -/

/-- The first region's pre-activations are the specification's first layer (with the residue product) of the launched
    input, weights and bias. -/
theorem pre0_eq : pre0 (V1 m ρ) c = fun i => Cert.Spec.preA1 (aX m c) (aW1 m c) (aB1 m c) (i 0) (i 1) := by
  funext i
  unfold pre0
  have h0 : (V1 m ρ c main_arg0 : S65536x1024.Idx → EReal) = m ((c : Thread nD τ).loc main_arg0) := W1_main_arg0 m ρ c
  have h1 : (V1 m ρ c main_arg1 : S200x1024.Idx → EReal) = m ((c : Thread nD τ).loc main_arg1) := W1_main_arg1 m ρ c
  have h2 : ∀ j : Fin 200, (V1 m ρ c main_v0 : S1x200.Idx → EReal) (ix2 (0 : Fin 1) j) = aB1 m c j := fun j => HostK.v0_at (W0 m ρ c) j
  rw [h0, h1]
  simp only [h2]
  rfl

/-! ## Region 1 -/

/-- What the region finds: the previous layer's pre-activations, their column mean and variance from the tiles' sums, and
    the launched scale, shift, weights and bias. -/
theorem in1_pre : (V3 m ρ c main_v1_0 : S65536x200.Idx → EReal) = fun i => Cert.Spec.preA1 (aX m c) (aW1 m c) (aB1 m c) (i 0) (i 1) :=
  (HostK.v1_0_keep1 (W2 m ρ c)).trans ((W2_arr m ρ c 3).trans ((final0_3 (V1 m ρ) c).trans (pre0_eq m ρ c)))

theorem tiles1_sum : (W2 m ρ c (Proc.devRef .tc main_v1_1) : S32x1x200.Idx → EReal) = sum0 (V1 m ρ) c :=
  (W2_arr m ρ c 4).trans (final0_4 (V1 m ρ) c)
theorem tiles1_sq : (W2 m ρ c (Proc.devRef .tc main_v1_2) : S32x1x200.Idx → EReal) = sq0 (V1 m ρ) c :=
  (W2_arr m ρ c 5).trans (final0_5 (V1 m ρ) c)

theorem in1_mean (q : Fin 200) : (V3 m ρ c main_v10 : S1x200.Idx → EReal) (ix2 (0 : Fin 1) q)
    = Cert.Spec.mean (Cert.Spec.preA1 (aX m c) (aW1 m c) (aB1 m c)) q := by
  refine (HostK.v10_at (W2 m ρ c) q).trans ?_
  refine mean_of_tiles (T := 32) (R := 2048) rfl _ _ (fun t q' => ?_) q
  show (W2 m ρ c (Proc.devRef .tc main_v1_1) : S32x1x200.Idx → EReal) (ix3 t (0 : Fin 1) q') = _
  rw [tiles1_sum]
  show ∑ r : Fin 2048, pre0 (V1 m ρ) c (ix2 (Cert.Tiles.row (T := 32) (R := 2048) (N := 65536) rfl t r) q') = _
  simp only [show ∀ (a : Fin 65536) (j : Fin 200), pre0 (V1 m ρ) c (ix2 a j) = Cert.Spec.preA1 (aX m c) (aW1 m c) (aB1 m c) a j from
      fun a j => congrFun (pre0_eq m ρ c) (ix2 a j)]

theorem in1_var (q : Fin 200) : (V3 m ρ c main_v11 : S1x200.Idx → EReal) (ix2 (0 : Fin 1) q)
    = Cert.Spec.varSq (Cert.Spec.preA1 (aX m c) (aW1 m c) (aB1 m c)) q := by
  refine (HostK.v11_at (W2 m ρ c) q).trans ?_
  refine var_of_tiles (T := 32) (R := 2048) rfl _ _ _ (fun t q' => ?_) (fun t q' => ?_) q
  · show (W2 m ρ c (Proc.devRef .tc main_v1_1) : S32x1x200.Idx → EReal) (ix3 t (0 : Fin 1) q') = _
    rw [tiles1_sum]
    show ∑ r : Fin 2048, pre0 (V1 m ρ) c (ix2 (Cert.Tiles.row (T := 32) (R := 2048) (N := 65536) rfl t r) q') = _
    simp only [show ∀ (a : Fin 65536) (j : Fin 200), pre0 (V1 m ρ) c (ix2 a j) = Cert.Spec.preA1 (aX m c) (aW1 m c) (aB1 m c) a j from
      fun a j => congrFun (pre0_eq m ρ c) (ix2 a j)]
  · show (W2 m ρ c (Proc.devRef .tc main_v1_2) : S32x1x200.Idx → EReal) (ix3 t (0 : Fin 1) q') = _
    rw [tiles1_sq]
    show ∑ r : Fin 2048, pre0 (V1 m ρ) c (ix2 (Cert.Tiles.row (T := 32) (R := 2048) (N := 65536) rfl t r) q')
      * pre0 (V1 m ρ) c (ix2 (Cert.Tiles.row (T := 32) (R := 2048) (N := 65536) rfl t r) q') = _
    simp only [show ∀ (a : Fin 65536) (j : Fin 200), pre0 (V1 m ρ) c (ix2 a j) = Cert.Spec.preA1 (aX m c) (aW1 m c) (aB1 m c) a j from
      fun a j => congrFun (pre0_eq m ρ c) (ix2 a j)]

theorem in1_g (j : Fin 200) : (V3 m ρ c main_v12 : S1x200.Idx → EReal) (ix2 (0 : Fin 1) j) = aG1 m c j :=
  (HostK.v12_at (W2 m ρ c) j).trans (congrFun (W2_main_arg3 m ρ c) (ix1 j))
theorem in1_be (j : Fin 200) : (V3 m ρ c main_v13 : S1x200.Idx → EReal) (ix2 (0 : Fin 1) j) = aE1 m c j :=
  (HostK.v13_at (W2 m ρ c) j).trans (congrFun (W2_main_arg4 m ρ c) (ix1 j))
theorem in1_b (j : Fin 100) : (V3 m ρ c main_v14 : S1x100.Idx → EReal) (ix2 (0 : Fin 1) j) = aB2 m c j :=
  (HostK.v14_at (W2 m ρ c) j).trans (congrFun (W2_main_arg6 m ρ c) (ix1 j))
theorem in1_w : (V3 m ρ c main_arg5 : S100x200.Idx → EReal) = m ((c : Thread nD τ).loc main_arg5) := W3_main_arg5 m ρ c

/-- This region's pre-activations are the specification's. -/
theorem pre1_eq : Hand1.pre1 (V3 m ρ) c = fun i => Cert.Spec.preA2 (aX m c) (aW1 m c) (aB1 m c) (aG1 m c) (aE1 m c) (aW2 m c) (aB2 m c) (i 0) (i 1) := by
  funext i
  unfold Hand1.pre1
  exact congrFun (congrFun (lin_act_congr
    (funext fun a => funext fun k => congrFun (in1_pre m ρ c) (ix2 a k))
    (funext (in1_mean m ρ c)) (funext (in1_var m ρ c)) (funext (in1_g m ρ c)) (funext (in1_be m ρ c))
    (funext fun j => funext fun k => congrFun (in1_w m ρ c) (ix2 j k)) (funext (in1_b m ρ c))) (i 0)) (i 1)

/-! ## Region 2 -/

/-- What the region finds: the previous layer's pre-activations, their column mean and variance from the tiles' sums, and
    the launched scale, shift, weights and bias. -/
theorem in2_pre : (V5 m ρ c main_v15_0 : S65536x100.Idx → EReal) = fun i => Cert.Spec.preA2 (aX m c) (aW1 m c) (aB1 m c) (aG1 m c) (aE1 m c) (aW2 m c) (aB2 m c) (i 0) (i 1) :=
  (HostK.v15_0_keep2 (W4 m ρ c)).trans ((W4_arr m ρ c 7).trans ((Hand1.final1_7 (V3 m ρ) c).trans (pre1_eq m ρ c)))

theorem tiles2_sum : (W4 m ρ c (Proc.devRef .tc main_v15_1) : S16x1x100.Idx → EReal) = Hand1.sum1 (V3 m ρ) c :=
  (W4_arr m ρ c 8).trans (Hand1.final1_8 (V3 m ρ) c)
theorem tiles2_sq : (W4 m ρ c (Proc.devRef .tc main_v15_2) : S16x1x100.Idx → EReal) = Hand1.sq1 (V3 m ρ) c :=
  (W4_arr m ρ c 9).trans (Hand1.final1_9 (V3 m ρ) c)

theorem in2_mean (q : Fin 100) : (V5 m ρ c main_v24 : S1x100.Idx → EReal) (ix2 (0 : Fin 1) q)
    = Cert.Spec.mean (Cert.Spec.preA2 (aX m c) (aW1 m c) (aB1 m c) (aG1 m c) (aE1 m c) (aW2 m c) (aB2 m c)) q := by
  refine (HostK.v24_at (W4 m ρ c) q).trans ?_
  refine mean_of_tiles (T := 16) (R := 4096) rfl _ _ (fun t q' => ?_) q
  show (W4 m ρ c (Proc.devRef .tc main_v15_1) : S16x1x100.Idx → EReal) (ix3 t (0 : Fin 1) q') = _
  rw [tiles2_sum]
  show ∑ r : Fin 4096, Hand1.pre1 (V3 m ρ) c (ix2 (Cert.Tiles.row (T := 16) (R := 4096) (N := 65536) rfl t r) q') = _
  simp only [show ∀ (a : Fin 65536) (j : Fin 100), Hand1.pre1 (V3 m ρ) c (ix2 a j) = Cert.Spec.preA2 (aX m c) (aW1 m c) (aB1 m c) (aG1 m c) (aE1 m c) (aW2 m c) (aB2 m c) a j from
      fun a j => congrFun (pre1_eq m ρ c) (ix2 a j)]

theorem in2_var (q : Fin 100) : (V5 m ρ c main_v25 : S1x100.Idx → EReal) (ix2 (0 : Fin 1) q)
    = Cert.Spec.varSq (Cert.Spec.preA2 (aX m c) (aW1 m c) (aB1 m c) (aG1 m c) (aE1 m c) (aW2 m c) (aB2 m c)) q := by
  refine (HostK.v25_at (W4 m ρ c) q).trans ?_
  refine var_of_tiles (T := 16) (R := 4096) rfl _ _ _ (fun t q' => ?_) (fun t q' => ?_) q
  · show (W4 m ρ c (Proc.devRef .tc main_v15_1) : S16x1x100.Idx → EReal) (ix3 t (0 : Fin 1) q') = _
    rw [tiles2_sum]
    show ∑ r : Fin 4096, Hand1.pre1 (V3 m ρ) c (ix2 (Cert.Tiles.row (T := 16) (R := 4096) (N := 65536) rfl t r) q') = _
    simp only [show ∀ (a : Fin 65536) (j : Fin 100), Hand1.pre1 (V3 m ρ) c (ix2 a j) = Cert.Spec.preA2 (aX m c) (aW1 m c) (aB1 m c) (aG1 m c) (aE1 m c) (aW2 m c) (aB2 m c) a j from
      fun a j => congrFun (pre1_eq m ρ c) (ix2 a j)]
  · show (W4 m ρ c (Proc.devRef .tc main_v15_2) : S16x1x100.Idx → EReal) (ix3 t (0 : Fin 1) q') = _
    rw [tiles2_sq]
    show ∑ r : Fin 4096, Hand1.pre1 (V3 m ρ) c (ix2 (Cert.Tiles.row (T := 16) (R := 4096) (N := 65536) rfl t r) q')
      * Hand1.pre1 (V3 m ρ) c (ix2 (Cert.Tiles.row (T := 16) (R := 4096) (N := 65536) rfl t r) q') = _
    simp only [show ∀ (a : Fin 65536) (j : Fin 100), Hand1.pre1 (V3 m ρ) c (ix2 a j) = Cert.Spec.preA2 (aX m c) (aW1 m c) (aB1 m c) (aG1 m c) (aE1 m c) (aW2 m c) (aB2 m c) a j from
      fun a j => congrFun (pre1_eq m ρ c) (ix2 a j)]

theorem in2_g (j : Fin 100) : (V5 m ρ c main_v26 : S1x100.Idx → EReal) (ix2 (0 : Fin 1) j) = aG2 m c j :=
  (HostK.v26_at (W4 m ρ c) j).trans (congrFun (W4_main_arg7 m ρ c) (ix1 j))
theorem in2_be (j : Fin 100) : (V5 m ρ c main_v27 : S1x100.Idx → EReal) (ix2 (0 : Fin 1) j) = aE2 m c j :=
  (HostK.v27_at (W4 m ρ c) j).trans (congrFun (W4_main_arg8 m ρ c) (ix1 j))
theorem in2_b (j : Fin 100) : (V5 m ρ c main_v28 : S1x100.Idx → EReal) (ix2 (0 : Fin 1) j) = aB3 m c j :=
  (HostK.v28_at (W4 m ρ c) j).trans (congrFun (W4_main_arg10 m ρ c) (ix1 j))
theorem in2_w : (V5 m ρ c main_arg9 : S100x100.Idx → EReal) = m ((c : Thread nD τ).loc main_arg9) := W5_main_arg9 m ρ c

/-- This region's pre-activations are the specification's. -/
theorem pre2_eq : Hand2.pre2 (V5 m ρ) c = fun i => Cert.Spec.preA3 (aX m c) (aW1 m c) (aB1 m c) (aG1 m c) (aE1 m c) (aW2 m c) (aB2 m c) (aG2 m c) (aE2 m c) (aW3 m c) (aB3 m c) (i 0) (i 1) := by
  funext i
  unfold Hand2.pre2
  exact congrFun (congrFun (lin_act_congr
    (funext fun a => funext fun k => congrFun (in2_pre m ρ c) (ix2 a k))
    (funext (in2_mean m ρ c)) (funext (in2_var m ρ c)) (funext (in2_g m ρ c)) (funext (in2_be m ρ c))
    (funext fun j => funext fun k => congrFun (in2_w m ρ c) (ix2 j k)) (funext (in2_b m ρ c))) (i 0)) (i 1)

/-! ## Region 3 -/

/-- What the region finds: the previous layer's pre-activations, their column mean and variance from the tiles' sums, and
    the launched scale, shift, weights and bias. -/
theorem in3_pre : (V7 m ρ c main_v29_0 : S65536x100.Idx → EReal) = fun i => Cert.Spec.preA3 (aX m c) (aW1 m c) (aB1 m c) (aG1 m c) (aE1 m c) (aW2 m c) (aB2 m c) (aG2 m c) (aE2 m c) (aW3 m c) (aB3 m c) (i 0) (i 1) :=
  (HostK.v29_0_keep3 (W6 m ρ c)).trans ((W6_arr m ρ c 7).trans ((Hand2.final2_7 (V5 m ρ) c).trans (pre2_eq m ρ c)))

theorem tiles3_sum : (W6 m ρ c (Proc.devRef .tc main_v29_1) : S16x1x100.Idx → EReal) = Hand2.sum2 (V5 m ρ) c :=
  (W6_arr m ρ c 8).trans (Hand2.final2_8 (V5 m ρ) c)
theorem tiles3_sq : (W6 m ρ c (Proc.devRef .tc main_v29_2) : S16x1x100.Idx → EReal) = Hand2.sq2 (V5 m ρ) c :=
  (W6_arr m ρ c 9).trans (Hand2.final2_9 (V5 m ρ) c)

theorem in3_mean (q : Fin 100) : (V7 m ρ c main_v38 : S1x100.Idx → EReal) (ix2 (0 : Fin 1) q)
    = Cert.Spec.mean (Cert.Spec.preA3 (aX m c) (aW1 m c) (aB1 m c) (aG1 m c) (aE1 m c) (aW2 m c) (aB2 m c) (aG2 m c) (aE2 m c) (aW3 m c) (aB3 m c)) q := by
  refine (HostK.v38_at (W6 m ρ c) q).trans ?_
  refine mean_of_tiles (T := 16) (R := 4096) rfl _ _ (fun t q' => ?_) q
  show (W6 m ρ c (Proc.devRef .tc main_v29_1) : S16x1x100.Idx → EReal) (ix3 t (0 : Fin 1) q') = _
  rw [tiles3_sum]
  show ∑ r : Fin 4096, Hand2.pre2 (V5 m ρ) c (ix2 (Cert.Tiles.row (T := 16) (R := 4096) (N := 65536) rfl t r) q') = _
  simp only [show ∀ (a : Fin 65536) (j : Fin 100), Hand2.pre2 (V5 m ρ) c (ix2 a j) = Cert.Spec.preA3 (aX m c) (aW1 m c) (aB1 m c) (aG1 m c) (aE1 m c) (aW2 m c) (aB2 m c) (aG2 m c) (aE2 m c) (aW3 m c) (aB3 m c) a j from
      fun a j => congrFun (pre2_eq m ρ c) (ix2 a j)]

theorem in3_var (q : Fin 100) : (V7 m ρ c main_v39 : S1x100.Idx → EReal) (ix2 (0 : Fin 1) q)
    = Cert.Spec.varSq (Cert.Spec.preA3 (aX m c) (aW1 m c) (aB1 m c) (aG1 m c) (aE1 m c) (aW2 m c) (aB2 m c) (aG2 m c) (aE2 m c) (aW3 m c) (aB3 m c)) q := by
  refine (HostK.v39_at (W6 m ρ c) q).trans ?_
  refine var_of_tiles (T := 16) (R := 4096) rfl _ _ _ (fun t q' => ?_) (fun t q' => ?_) q
  · show (W6 m ρ c (Proc.devRef .tc main_v29_1) : S16x1x100.Idx → EReal) (ix3 t (0 : Fin 1) q') = _
    rw [tiles3_sum]
    show ∑ r : Fin 4096, Hand2.pre2 (V5 m ρ) c (ix2 (Cert.Tiles.row (T := 16) (R := 4096) (N := 65536) rfl t r) q') = _
    simp only [show ∀ (a : Fin 65536) (j : Fin 100), Hand2.pre2 (V5 m ρ) c (ix2 a j) = Cert.Spec.preA3 (aX m c) (aW1 m c) (aB1 m c) (aG1 m c) (aE1 m c) (aW2 m c) (aB2 m c) (aG2 m c) (aE2 m c) (aW3 m c) (aB3 m c) a j from
      fun a j => congrFun (pre2_eq m ρ c) (ix2 a j)]
  · show (W6 m ρ c (Proc.devRef .tc main_v29_2) : S16x1x100.Idx → EReal) (ix3 t (0 : Fin 1) q') = _
    rw [tiles3_sq]
    show ∑ r : Fin 4096, Hand2.pre2 (V5 m ρ) c (ix2 (Cert.Tiles.row (T := 16) (R := 4096) (N := 65536) rfl t r) q')
      * Hand2.pre2 (V5 m ρ) c (ix2 (Cert.Tiles.row (T := 16) (R := 4096) (N := 65536) rfl t r) q') = _
    simp only [show ∀ (a : Fin 65536) (j : Fin 100), Hand2.pre2 (V5 m ρ) c (ix2 a j) = Cert.Spec.preA3 (aX m c) (aW1 m c) (aB1 m c) (aG1 m c) (aE1 m c) (aW2 m c) (aB2 m c) (aG2 m c) (aE2 m c) (aW3 m c) (aB3 m c) a j from
      fun a j => congrFun (pre2_eq m ρ c) (ix2 a j)]

theorem in3_g (j : Fin 100) : (V7 m ρ c main_v40 : S1x100.Idx → EReal) (ix2 (0 : Fin 1) j) = aG3 m c j :=
  (HostK.v40_at (W6 m ρ c) j).trans (congrFun (W6_main_arg11 m ρ c) (ix1 j))
theorem in3_be (j : Fin 100) : (V7 m ρ c main_v41 : S1x100.Idx → EReal) (ix2 (0 : Fin 1) j) = aE3 m c j :=
  (HostK.v41_at (W6 m ρ c) j).trans (congrFun (W6_main_arg12 m ρ c) (ix1 j))
theorem in3_b (j : Fin 10) : (V7 m ρ c main_v42 : S1x10.Idx → EReal) (ix2 (0 : Fin 1) j) = aB5 m c j :=
  (HostK.v42_at (W6 m ρ c) j).trans (congrFun (W6_main_arg14 m ρ c) (ix1 j))
theorem in3_w : (V7 m ρ c main_arg13 : S10x100.Idx → EReal) = m ((c : Thread nD τ).loc main_arg13) := W7_main_arg13 m ρ c

/-- The last region's logits are the specification's. -/
theorem logits3_eq : Hand3.logits3 (V7 m ρ) c
    = Cert.Spec.lin (Cert.Spec.hidA3 (aX m c) (aW1 m c) (aB1 m c) (aG1 m c) (aE1 m c) (aW2 m c) (aB2 m c) (aG2 m c) (aE2 m c) (aW3 m c) (aB3 m c) (aG3 m c) (aE3 m c)) (aW5 m c) (aB5 m c) := by
  unfold Hand3.logits3
  exact lin_act_congr
    (funext fun a => funext fun k => congrFun (in3_pre m ρ c) (ix2 a k))
    (funext (in3_mean m ρ c)) (funext (in3_var m ρ c)) (funext (in3_g m ρ c)) (funext (in3_be m ρ c))
    (funext fun j => funext fun k => congrFun (in3_w m ρ c) (ix2 j k)) (funext (in3_b m ρ c))

/-! ## The result -/

/-- The last stage of the fold at the result buffer is the specification's result of the launched arguments. -/
theorem result_eq : (W8 m ρ c (Proc.devRef .tc main_v43) : S65536x10.Idx → EReal)
    = fun i => Cert.Spec.outA (aX m c) (aW1 m c) (aB1 m c) (aG1 m c) (aE1 m c) (aW2 m c) (aB2 m c) (aG2 m c) (aE2 m c) (aW3 m c) (aB3 m c) (aG3 m c) (aE3 m c) (aW5 m c) (aB5 m c) (i 0) (i 1) := by
  refine (W8_arr m ρ c 7).trans ((Hand3.final3_7 (V7 m ρ) c).trans ?_)
  funext i
  unfold Hand3.out3
  rw [logits3_eq]
  rfl

end Cert.KernelIdeal.Chain

end
-- ==== Proof.LibTRef.lean ====
/-
  A typed reference's two transports cancel.

  A typed reference to a host buffer carries the equation between the buffer's recorded type and the value's type; an
  operation stated over typed references carries contents of the value's type into the buffer's type on the way in and back
  on the way out. Carrying a value in and straight back out is the identity, whatever the equation's proof.
-/
import Idealize.ShloMosaic.Lib.StableHlo

namespace Cert.LibTRef

open Idealize.ShloMosaic Idealize.ShloMosaic.StableHlo

/-- Contents carried into a typed reference's buffer type and back out are the contents. -/
theorem ofBuf_toBuf {sig : RefSig} {T : BufTy} {Val : EltTy → Type} (x : TRef sig T) (v : T.Contents Val) :
    x.ofBuf (x.toBuf v) = v := by
  obtain ⟨r, rfl, _, _⟩ := x
  rfl

end Cert.LibTRef
-- ==== Proof.RefRun.lean ====
/-
  The reference program's run, layer by layer.

  The reference is a straight line of 188 host operations.  Run from any buffer contents, a stretch of the line leaves in
  each buffer it writes the value of its operation at what the operands' buffers held, and leaves every other buffer as
  it was.  The line is cut after each hidden layer's activation; each stretch is shown to compute that layer's stage of
  the program read one operation at a time from the stage before it and the layer's own arguments; the four stretches
  composed give the result buffer after the whole line, and with it the run: every weakly fair execution terminates with
  the result buffer holding the specification's network of the argument buffers and the arguments unchanged.
-/
import proofs.«120646_j47201690583464_2_alg».proof.Proof.RefReadP
import proofs.«120646_j47201690583464_2_alg».proof.Proof.LibTRef
import Idealize.ShloMosaic.Lib.StableHlo.Run
import Idealize.ShloMosaic.Lib.Tactic

noncomputable section

namespace Cert.RefRun

open Cert.ReferenceIdeal Cert.ReferenceIdeal.Gen Idealize.ShloMosaic Idealize.ShloMosaic.TcCoe Idealize.SL.Sem Idealize.ShloMosaic.StableHlo

/-- Two lines run one after the other from contents V: the second runs from what the first leaves. -/
theorem after_append {Val : EltTy → Type} (l₁ l₂ : List (HloOp τ sig Val)) (V : Valuation τ sig Val) :
    after (l₁ ++ l₂) V = after l₂ (after l₁ V) := by
  induction l₁ generalizing V with
  | nil => rfl
  | cons op l ih => exact ih (op.result V)

section Lists
variable {F : FTy → Type} [FloatOps F]

/-- The first layer's operations: through the first activation. -/
abbrev opsA : List (HloOp τ sig (Elt F)) :=
  [ nullary main_cst (constant S_ .f32 0x00000000#32),
    unary main_cst main_v0 (broadcastInDim S200x1024 ![] bcast_S_S200x1024 : (⟨S_, .f32⟩ : BufTy).Contents (Elt F) → (⟨S200x1024, .f32⟩ : BufTy).Contents (Elt F)),
    binary main_arg1 main_v0 main_v1 (cmpf .oge : (⟨S200x1024, .f32⟩ : BufTy).Contents (Elt F) → (⟨S200x1024, .f32⟩ : BufTy).Contents (Elt F) → (⟨S200x1024, .i1⟩ : BufTy).Contents (Elt F)),
    nullary main_cst_0 (constant S_ .f32 0x3F800000#32),
    nullary main_cst_1 (constant S_ .f32 0xBF800000#32),
    TRef.unary (TRef.of (T := ⟨S_, .f32⟩) main_cst_0) (TRef.of (T := ⟨S200x1024, .f32⟩) main_call0_v0) (broadcastInDim S200x1024 ![] bcast_S_S200x1024),
    TRef.unary (TRef.of (T := ⟨S_, .f32⟩) main_cst_1) (TRef.of (T := ⟨S200x1024, .f32⟩) main_call0_v1) (broadcastInDim S200x1024 ![] bcast_S_S200x1024),
    TRef.ternary (TRef.of (T := ⟨S200x1024, .i1⟩) main_v1) (TRef.of (T := ⟨S200x1024, .f32⟩) main_call0_v0) (TRef.of (T := ⟨S200x1024, .f32⟩) main_call0_v1) (TRef.of (T := ⟨S200x1024, .f32⟩) main_v2) select,
    unary main_v2 main_v3 (id : (⟨S200x1024, .f32⟩ : BufTy).Contents (Elt F) → (⟨S200x1024, .f32⟩ : BufTy).Contents (Elt F)),
    unary main_v3 main_v4 ((transpose S1024x200 [1, 0] · transposes_S200x1024_S1024x200_1_0) : (⟨S200x1024, .f32⟩ : BufTy).Contents (Elt F) → (⟨S1024x200, .f32⟩ : BufTy).Contents (Elt F)),
    binary main_arg0 main_v4 main_v5 ((fun l r => Host.dotGeneral dot_S65536x1024_S1024x200_S65536x200_1_0_0_1_n_n none l r) : (⟨S65536x1024, .f32⟩ : BufTy).Contents (Elt F) → (⟨S1024x200, .f32⟩ : BufTy).Contents (Elt F) → (⟨S65536x200, .f32⟩ : BufTy).Contents (Elt F)),
    unary main_arg2 main_v6 (broadcastInDim S1x200 ![1] bcast_S200_S1x200_1 : (⟨S200, .f32⟩ : BufTy).Contents (Elt F) → (⟨S1x200, .f32⟩ : BufTy).Contents (Elt F)),
    unary main_v6 main_v7 (broadcastInDim S65536x200 ![0, 1] bcast_S1x200_S65536x200_0_1 : (⟨S1x200, .f32⟩ : BufTy).Contents (Elt F) → (⟨S65536x200, .f32⟩ : BufTy).Contents (Elt F)),
    binary main_v5 main_v7 main_v8 (addf : (⟨S65536x200, .f32⟩ : BufTy).Contents (Elt F) → (⟨S65536x200, .f32⟩ : BufTy).Contents (Elt F) → (⟨S65536x200, .f32⟩ : BufTy).Contents (Elt F)),
    nullary main_cst_2 (constant S_ .f32 0x00000000#32),
    binary main_v8 main_cst_2 main_v9 ((fun x v => Host.reduceAdd x v reducesTo_S65536x200_S200_d0 h_S_) : (⟨S65536x200, .f32⟩ : BufTy).Contents (Elt F) → (⟨S_, .f32⟩ : BufTy).Contents (Elt F) → (⟨S200, .f32⟩ : BufTy).Contents (Elt F)),
    nullary main_cst_3 (constant S_ .f32 0x47800000#32),
    unary main_cst_3 main_v10 (broadcastInDim S200 ![] bcast_S_S200 : (⟨S_, .f32⟩ : BufTy).Contents (Elt F) → (⟨S200, .f32⟩ : BufTy).Contents (Elt F)),
    binary main_v9 main_v10 main_v11 (Host.divf : (⟨S200, .f32⟩ : BufTy).Contents (Elt F) → (⟨S200, .f32⟩ : BufTy).Contents (Elt F) → (⟨S200, .f32⟩ : BufTy).Contents (Elt F)),
    unary main_v11 main_v12 (broadcastInDim S1x200 ![1] bcast_S200_S1x200_1 : (⟨S200, .f32⟩ : BufTy).Contents (Elt F) → (⟨S1x200, .f32⟩ : BufTy).Contents (Elt F)),
    unary main_v12 main_v13 (broadcastInDim S65536x200 ![0, 1] bcast_S1x200_S65536x200_0_1 : (⟨S1x200, .f32⟩ : BufTy).Contents (Elt F) → (⟨S65536x200, .f32⟩ : BufTy).Contents (Elt F)),
    binary main_v8 main_v13 main_v14 (subf : (⟨S65536x200, .f32⟩ : BufTy).Contents (Elt F) → (⟨S65536x200, .f32⟩ : BufTy).Contents (Elt F) → (⟨S65536x200, .f32⟩ : BufTy).Contents (Elt F)),
    binary main_v14 main_v14 main_v15 (mulf : (⟨S65536x200, .f32⟩ : BufTy).Contents (Elt F) → (⟨S65536x200, .f32⟩ : BufTy).Contents (Elt F) → (⟨S65536x200, .f32⟩ : BufTy).Contents (Elt F)),
    nullary main_cst_4 (constant S_ .f32 0x00000000#32),
    binary main_v15 main_cst_4 main_v16 ((fun x v => Host.reduceAdd x v reducesTo_S65536x200_S200_d0 h_S_) : (⟨S65536x200, .f32⟩ : BufTy).Contents (Elt F) → (⟨S_, .f32⟩ : BufTy).Contents (Elt F) → (⟨S200, .f32⟩ : BufTy).Contents (Elt F)),
    nullary main_cst_5 (constant S_ .f32 0x47800000#32),
    unary main_cst_5 main_v17 (broadcastInDim S200 ![] bcast_S_S200 : (⟨S_, .f32⟩ : BufTy).Contents (Elt F) → (⟨S200, .f32⟩ : BufTy).Contents (Elt F)),
    binary main_v16 main_v17 main_v18 (Host.divf : (⟨S200, .f32⟩ : BufTy).Contents (Elt F) → (⟨S200, .f32⟩ : BufTy).Contents (Elt F) → (⟨S200, .f32⟩ : BufTy).Contents (Elt F)),
    unary main_v11 main_v19 (broadcastInDim S1x200 ![1] bcast_S200_S1x200_1 : (⟨S200, .f32⟩ : BufTy).Contents (Elt F) → (⟨S1x200, .f32⟩ : BufTy).Contents (Elt F)),
    unary main_v19 main_v20 (broadcastInDim S65536x200 ![0, 1] bcast_S1x200_S65536x200_0_1 : (⟨S1x200, .f32⟩ : BufTy).Contents (Elt F) → (⟨S65536x200, .f32⟩ : BufTy).Contents (Elt F)),
    binary main_v8 main_v20 main_v21 (subf : (⟨S65536x200, .f32⟩ : BufTy).Contents (Elt F) → (⟨S65536x200, .f32⟩ : BufTy).Contents (Elt F) → (⟨S65536x200, .f32⟩ : BufTy).Contents (Elt F)),
    unary main_arg3 main_v22 (broadcastInDim S1x200 ![1] bcast_S200_S1x200_1 : (⟨S200, .f32⟩ : BufTy).Contents (Elt F) → (⟨S1x200, .f32⟩ : BufTy).Contents (Elt F)),
    unary main_v22 main_v23 (broadcastInDim S65536x200 ![0, 1] bcast_S1x200_S65536x200_0_1 : (⟨S1x200, .f32⟩ : BufTy).Contents (Elt F) → (⟨S65536x200, .f32⟩ : BufTy).Contents (Elt F)),
    binary main_v23 main_v21 main_v24 (mulf : (⟨S65536x200, .f32⟩ : BufTy).Contents (Elt F) → (⟨S65536x200, .f32⟩ : BufTy).Contents (Elt F) → (⟨S65536x200, .f32⟩ : BufTy).Contents (Elt F)),
    nullary main_cst_6 (constant S_ .f32 0x38D1B717#32),
    unary main_cst_6 main_v25 (broadcastInDim S200 ![] bcast_S_S200 : (⟨S_, .f32⟩ : BufTy).Contents (Elt F) → (⟨S200, .f32⟩ : BufTy).Contents (Elt F)),
    binary main_v18 main_v25 main_v26 (addf : (⟨S200, .f32⟩ : BufTy).Contents (Elt F) → (⟨S200, .f32⟩ : BufTy).Contents (Elt F) → (⟨S200, .f32⟩ : BufTy).Contents (Elt F)),
    unary main_v26 main_v27 (Host.rsqrt : (⟨S200, .f32⟩ : BufTy).Contents (Elt F) → (⟨S200, .f32⟩ : BufTy).Contents (Elt F)),
    unary main_v27 main_v28 (broadcastInDim S1x200 ![1] bcast_S200_S1x200_1 : (⟨S200, .f32⟩ : BufTy).Contents (Elt F) → (⟨S1x200, .f32⟩ : BufTy).Contents (Elt F)),
    unary main_v28 main_v29 (broadcastInDim S65536x200 ![0, 1] bcast_S1x200_S65536x200_0_1 : (⟨S1x200, .f32⟩ : BufTy).Contents (Elt F) → (⟨S65536x200, .f32⟩ : BufTy).Contents (Elt F)),
    binary main_v24 main_v29 main_v30 (mulf : (⟨S65536x200, .f32⟩ : BufTy).Contents (Elt F) → (⟨S65536x200, .f32⟩ : BufTy).Contents (Elt F) → (⟨S65536x200, .f32⟩ : BufTy).Contents (Elt F)),
    unary main_arg4 main_v31 (broadcastInDim S1x200 ![1] bcast_S200_S1x200_1 : (⟨S200, .f32⟩ : BufTy).Contents (Elt F) → (⟨S1x200, .f32⟩ : BufTy).Contents (Elt F)),
    unary main_v31 main_v32 (broadcastInDim S65536x200 ![0, 1] bcast_S1x200_S65536x200_0_1 : (⟨S1x200, .f32⟩ : BufTy).Contents (Elt F) → (⟨S65536x200, .f32⟩ : BufTy).Contents (Elt F)),
    binary main_v30 main_v32 main_v33 (addf : (⟨S65536x200, .f32⟩ : BufTy).Contents (Elt F) → (⟨S65536x200, .f32⟩ : BufTy).Contents (Elt F) → (⟨S65536x200, .f32⟩ : BufTy).Contents (Elt F)),
    nullary main_cst_7 (constant S_ .f32 0x00000000#32),
    unary main_cst_7 main_v34 (broadcastInDim S65536x200 ![] bcast_S_S65536x200 : (⟨S_, .f32⟩ : BufTy).Contents (Elt F) → (⟨S65536x200, .f32⟩ : BufTy).Contents (Elt F)),
    binary main_v33 main_v34 main_v35 (cmpf .oge : (⟨S65536x200, .f32⟩ : BufTy).Contents (Elt F) → (⟨S65536x200, .f32⟩ : BufTy).Contents (Elt F) → (⟨S65536x200, .i1⟩ : BufTy).Contents (Elt F)),
    nullary main_cst_8 (constant S_ .f32 0x3F800000#32),
    nullary main_cst_9 (constant S_ .f32 0xBF800000#32),
    TRef.unary (TRef.of (T := ⟨S_, .f32⟩) main_cst_8) (TRef.of (T := ⟨S65536x200, .f32⟩) main_call1_v0) (broadcastInDim S65536x200 ![] bcast_S_S65536x200),
    TRef.unary (TRef.of (T := ⟨S_, .f32⟩) main_cst_9) (TRef.of (T := ⟨S65536x200, .f32⟩) main_call1_v1) (broadcastInDim S65536x200 ![] bcast_S_S65536x200),
    TRef.ternary (TRef.of (T := ⟨S65536x200, .i1⟩) main_v35) (TRef.of (T := ⟨S65536x200, .f32⟩) main_call1_v0) (TRef.of (T := ⟨S65536x200, .f32⟩) main_call1_v1) (TRef.of (T := ⟨S65536x200, .f32⟩) main_v36) select,
    unary main_v36 main_v37 (id : (⟨S65536x200, .f32⟩ : BufTy).Contents (Elt F) → (⟨S65536x200, .f32⟩ : BufTy).Contents (Elt F)) ]

/-- The second layer's operations: through the second activation. -/
abbrev opsB : List (HloOp τ sig (Elt F)) :=
  [ nullary main_cst_10 (constant S_ .f32 0x00000000#32),
    unary main_cst_10 main_v38 (broadcastInDim S100x200 ![] bcast_S_S100x200 : (⟨S_, .f32⟩ : BufTy).Contents (Elt F) → (⟨S100x200, .f32⟩ : BufTy).Contents (Elt F)),
    binary main_arg5 main_v38 main_v39 (cmpf .oge : (⟨S100x200, .f32⟩ : BufTy).Contents (Elt F) → (⟨S100x200, .f32⟩ : BufTy).Contents (Elt F) → (⟨S100x200, .i1⟩ : BufTy).Contents (Elt F)),
    nullary main_cst_11 (constant S_ .f32 0x3F800000#32),
    nullary main_cst_12 (constant S_ .f32 0xBF800000#32),
    TRef.unary (TRef.of (T := ⟨S_, .f32⟩) main_cst_11) (TRef.of (T := ⟨S100x200, .f32⟩) main_call2_v0) (broadcastInDim S100x200 ![] bcast_S_S100x200),
    TRef.unary (TRef.of (T := ⟨S_, .f32⟩) main_cst_12) (TRef.of (T := ⟨S100x200, .f32⟩) main_call2_v1) (broadcastInDim S100x200 ![] bcast_S_S100x200),
    TRef.ternary (TRef.of (T := ⟨S100x200, .i1⟩) main_v39) (TRef.of (T := ⟨S100x200, .f32⟩) main_call2_v0) (TRef.of (T := ⟨S100x200, .f32⟩) main_call2_v1) (TRef.of (T := ⟨S100x200, .f32⟩) main_v40) select,
    unary main_v40 main_v41 (id : (⟨S100x200, .f32⟩ : BufTy).Contents (Elt F) → (⟨S100x200, .f32⟩ : BufTy).Contents (Elt F)),
    unary main_v41 main_v42 ((transpose S200x100 [1, 0] · transposes_S100x200_S200x100_1_0) : (⟨S100x200, .f32⟩ : BufTy).Contents (Elt F) → (⟨S200x100, .f32⟩ : BufTy).Contents (Elt F)),
    binary main_v37 main_v42 main_v43 ((fun l r => Host.dotGeneral dot_S65536x200_S200x100_S65536x100_1_0_0_1_n_n none l r) : (⟨S65536x200, .f32⟩ : BufTy).Contents (Elt F) → (⟨S200x100, .f32⟩ : BufTy).Contents (Elt F) → (⟨S65536x100, .f32⟩ : BufTy).Contents (Elt F)),
    unary main_arg6 main_v44 (broadcastInDim S1x100 ![1] bcast_S100_S1x100_1 : (⟨S100, .f32⟩ : BufTy).Contents (Elt F) → (⟨S1x100, .f32⟩ : BufTy).Contents (Elt F)),
    unary main_v44 main_v45 (broadcastInDim S65536x100 ![0, 1] bcast_S1x100_S65536x100_0_1 : (⟨S1x100, .f32⟩ : BufTy).Contents (Elt F) → (⟨S65536x100, .f32⟩ : BufTy).Contents (Elt F)),
    binary main_v43 main_v45 main_v46 (addf : (⟨S65536x100, .f32⟩ : BufTy).Contents (Elt F) → (⟨S65536x100, .f32⟩ : BufTy).Contents (Elt F) → (⟨S65536x100, .f32⟩ : BufTy).Contents (Elt F)),
    nullary main_cst_13 (constant S_ .f32 0x00000000#32),
    binary main_v46 main_cst_13 main_v47 ((fun x v => Host.reduceAdd x v reducesTo_S65536x100_S100_d0 h_S_) : (⟨S65536x100, .f32⟩ : BufTy).Contents (Elt F) → (⟨S_, .f32⟩ : BufTy).Contents (Elt F) → (⟨S100, .f32⟩ : BufTy).Contents (Elt F)),
    nullary main_cst_14 (constant S_ .f32 0x47800000#32),
    unary main_cst_14 main_v48 (broadcastInDim S100 ![] bcast_S_S100 : (⟨S_, .f32⟩ : BufTy).Contents (Elt F) → (⟨S100, .f32⟩ : BufTy).Contents (Elt F)),
    binary main_v47 main_v48 main_v49 (Host.divf : (⟨S100, .f32⟩ : BufTy).Contents (Elt F) → (⟨S100, .f32⟩ : BufTy).Contents (Elt F) → (⟨S100, .f32⟩ : BufTy).Contents (Elt F)),
    unary main_v49 main_v50 (broadcastInDim S1x100 ![1] bcast_S100_S1x100_1 : (⟨S100, .f32⟩ : BufTy).Contents (Elt F) → (⟨S1x100, .f32⟩ : BufTy).Contents (Elt F)),
    unary main_v50 main_v51 (broadcastInDim S65536x100 ![0, 1] bcast_S1x100_S65536x100_0_1 : (⟨S1x100, .f32⟩ : BufTy).Contents (Elt F) → (⟨S65536x100, .f32⟩ : BufTy).Contents (Elt F)),
    binary main_v46 main_v51 main_v52 (subf : (⟨S65536x100, .f32⟩ : BufTy).Contents (Elt F) → (⟨S65536x100, .f32⟩ : BufTy).Contents (Elt F) → (⟨S65536x100, .f32⟩ : BufTy).Contents (Elt F)),
    binary main_v52 main_v52 main_v53 (mulf : (⟨S65536x100, .f32⟩ : BufTy).Contents (Elt F) → (⟨S65536x100, .f32⟩ : BufTy).Contents (Elt F) → (⟨S65536x100, .f32⟩ : BufTy).Contents (Elt F)),
    nullary main_cst_15 (constant S_ .f32 0x00000000#32),
    binary main_v53 main_cst_15 main_v54 ((fun x v => Host.reduceAdd x v reducesTo_S65536x100_S100_d0 h_S_) : (⟨S65536x100, .f32⟩ : BufTy).Contents (Elt F) → (⟨S_, .f32⟩ : BufTy).Contents (Elt F) → (⟨S100, .f32⟩ : BufTy).Contents (Elt F)),
    nullary main_cst_16 (constant S_ .f32 0x47800000#32),
    unary main_cst_16 main_v55 (broadcastInDim S100 ![] bcast_S_S100 : (⟨S_, .f32⟩ : BufTy).Contents (Elt F) → (⟨S100, .f32⟩ : BufTy).Contents (Elt F)),
    binary main_v54 main_v55 main_v56 (Host.divf : (⟨S100, .f32⟩ : BufTy).Contents (Elt F) → (⟨S100, .f32⟩ : BufTy).Contents (Elt F) → (⟨S100, .f32⟩ : BufTy).Contents (Elt F)),
    unary main_v49 main_v57 (broadcastInDim S1x100 ![1] bcast_S100_S1x100_1 : (⟨S100, .f32⟩ : BufTy).Contents (Elt F) → (⟨S1x100, .f32⟩ : BufTy).Contents (Elt F)),
    unary main_v57 main_v58 (broadcastInDim S65536x100 ![0, 1] bcast_S1x100_S65536x100_0_1 : (⟨S1x100, .f32⟩ : BufTy).Contents (Elt F) → (⟨S65536x100, .f32⟩ : BufTy).Contents (Elt F)),
    binary main_v46 main_v58 main_v59 (subf : (⟨S65536x100, .f32⟩ : BufTy).Contents (Elt F) → (⟨S65536x100, .f32⟩ : BufTy).Contents (Elt F) → (⟨S65536x100, .f32⟩ : BufTy).Contents (Elt F)),
    unary main_arg7 main_v60 (broadcastInDim S1x100 ![1] bcast_S100_S1x100_1 : (⟨S100, .f32⟩ : BufTy).Contents (Elt F) → (⟨S1x100, .f32⟩ : BufTy).Contents (Elt F)),
    unary main_v60 main_v61 (broadcastInDim S65536x100 ![0, 1] bcast_S1x100_S65536x100_0_1 : (⟨S1x100, .f32⟩ : BufTy).Contents (Elt F) → (⟨S65536x100, .f32⟩ : BufTy).Contents (Elt F)),
    binary main_v61 main_v59 main_v62 (mulf : (⟨S65536x100, .f32⟩ : BufTy).Contents (Elt F) → (⟨S65536x100, .f32⟩ : BufTy).Contents (Elt F) → (⟨S65536x100, .f32⟩ : BufTy).Contents (Elt F)),
    nullary main_cst_17 (constant S_ .f32 0x38D1B717#32),
    unary main_cst_17 main_v63 (broadcastInDim S100 ![] bcast_S_S100 : (⟨S_, .f32⟩ : BufTy).Contents (Elt F) → (⟨S100, .f32⟩ : BufTy).Contents (Elt F)),
    binary main_v56 main_v63 main_v64 (addf : (⟨S100, .f32⟩ : BufTy).Contents (Elt F) → (⟨S100, .f32⟩ : BufTy).Contents (Elt F) → (⟨S100, .f32⟩ : BufTy).Contents (Elt F)),
    unary main_v64 main_v65 (Host.rsqrt : (⟨S100, .f32⟩ : BufTy).Contents (Elt F) → (⟨S100, .f32⟩ : BufTy).Contents (Elt F)),
    unary main_v65 main_v66 (broadcastInDim S1x100 ![1] bcast_S100_S1x100_1 : (⟨S100, .f32⟩ : BufTy).Contents (Elt F) → (⟨S1x100, .f32⟩ : BufTy).Contents (Elt F)),
    unary main_v66 main_v67 (broadcastInDim S65536x100 ![0, 1] bcast_S1x100_S65536x100_0_1 : (⟨S1x100, .f32⟩ : BufTy).Contents (Elt F) → (⟨S65536x100, .f32⟩ : BufTy).Contents (Elt F)),
    binary main_v62 main_v67 main_v68 (mulf : (⟨S65536x100, .f32⟩ : BufTy).Contents (Elt F) → (⟨S65536x100, .f32⟩ : BufTy).Contents (Elt F) → (⟨S65536x100, .f32⟩ : BufTy).Contents (Elt F)),
    unary main_arg8 main_v69 (broadcastInDim S1x100 ![1] bcast_S100_S1x100_1 : (⟨S100, .f32⟩ : BufTy).Contents (Elt F) → (⟨S1x100, .f32⟩ : BufTy).Contents (Elt F)),
    unary main_v69 main_v70 (broadcastInDim S65536x100 ![0, 1] bcast_S1x100_S65536x100_0_1 : (⟨S1x100, .f32⟩ : BufTy).Contents (Elt F) → (⟨S65536x100, .f32⟩ : BufTy).Contents (Elt F)),
    binary main_v68 main_v70 main_v71 (addf : (⟨S65536x100, .f32⟩ : BufTy).Contents (Elt F) → (⟨S65536x100, .f32⟩ : BufTy).Contents (Elt F) → (⟨S65536x100, .f32⟩ : BufTy).Contents (Elt F)),
    nullary main_cst_18 (constant S_ .f32 0x00000000#32),
    unary main_cst_18 main_v72 (broadcastInDim S65536x100 ![] bcast_S_S65536x100 : (⟨S_, .f32⟩ : BufTy).Contents (Elt F) → (⟨S65536x100, .f32⟩ : BufTy).Contents (Elt F)),
    binary main_v71 main_v72 main_v73 (cmpf .oge : (⟨S65536x100, .f32⟩ : BufTy).Contents (Elt F) → (⟨S65536x100, .f32⟩ : BufTy).Contents (Elt F) → (⟨S65536x100, .i1⟩ : BufTy).Contents (Elt F)),
    nullary main_cst_19 (constant S_ .f32 0x3F800000#32),
    nullary main_cst_20 (constant S_ .f32 0xBF800000#32),
    TRef.unary (TRef.of (T := ⟨S_, .f32⟩) main_cst_19) (TRef.of (T := ⟨S65536x100, .f32⟩) main_call3_v0) (broadcastInDim S65536x100 ![] bcast_S_S65536x100),
    TRef.unary (TRef.of (T := ⟨S_, .f32⟩) main_cst_20) (TRef.of (T := ⟨S65536x100, .f32⟩) main_call3_v1) (broadcastInDim S65536x100 ![] bcast_S_S65536x100),
    TRef.ternary (TRef.of (T := ⟨S65536x100, .i1⟩) main_v73) (TRef.of (T := ⟨S65536x100, .f32⟩) main_call3_v0) (TRef.of (T := ⟨S65536x100, .f32⟩) main_call3_v1) (TRef.of (T := ⟨S65536x100, .f32⟩) main_v74) select,
    unary main_v74 main_v75 (id : (⟨S65536x100, .f32⟩ : BufTy).Contents (Elt F) → (⟨S65536x100, .f32⟩ : BufTy).Contents (Elt F)) ]

/-- The third layer's operations: through the third activation. -/
abbrev opsC : List (HloOp τ sig (Elt F)) :=
  [ nullary main_cst_21 (constant S_ .f32 0x00000000#32),
    unary main_cst_21 main_v76 (broadcastInDim S100x100 ![] bcast_S_S100x100 : (⟨S_, .f32⟩ : BufTy).Contents (Elt F) → (⟨S100x100, .f32⟩ : BufTy).Contents (Elt F)),
    binary main_arg9 main_v76 main_v77 (cmpf .oge : (⟨S100x100, .f32⟩ : BufTy).Contents (Elt F) → (⟨S100x100, .f32⟩ : BufTy).Contents (Elt F) → (⟨S100x100, .i1⟩ : BufTy).Contents (Elt F)),
    nullary main_cst_22 (constant S_ .f32 0x3F800000#32),
    nullary main_cst_23 (constant S_ .f32 0xBF800000#32),
    TRef.unary (TRef.of (T := ⟨S_, .f32⟩) main_cst_22) (TRef.of (T := ⟨S100x100, .f32⟩) main_call4_v0) (broadcastInDim S100x100 ![] bcast_S_S100x100),
    TRef.unary (TRef.of (T := ⟨S_, .f32⟩) main_cst_23) (TRef.of (T := ⟨S100x100, .f32⟩) main_call4_v1) (broadcastInDim S100x100 ![] bcast_S_S100x100),
    TRef.ternary (TRef.of (T := ⟨S100x100, .i1⟩) main_v77) (TRef.of (T := ⟨S100x100, .f32⟩) main_call4_v0) (TRef.of (T := ⟨S100x100, .f32⟩) main_call4_v1) (TRef.of (T := ⟨S100x100, .f32⟩) main_v78) select,
    unary main_v78 main_v79 (id : (⟨S100x100, .f32⟩ : BufTy).Contents (Elt F) → (⟨S100x100, .f32⟩ : BufTy).Contents (Elt F)),
    unary main_v79 main_v80 ((transpose S100x100 [1, 0] · transposes_S100x100_S100x100_1_0) : (⟨S100x100, .f32⟩ : BufTy).Contents (Elt F) → (⟨S100x100, .f32⟩ : BufTy).Contents (Elt F)),
    binary main_v75 main_v80 main_v81 ((fun l r => Host.dotGeneral dot_S65536x100_S100x100_S65536x100_1_0_0_1_n_n none l r) : (⟨S65536x100, .f32⟩ : BufTy).Contents (Elt F) → (⟨S100x100, .f32⟩ : BufTy).Contents (Elt F) → (⟨S65536x100, .f32⟩ : BufTy).Contents (Elt F)),
    unary main_arg10 main_v82 (broadcastInDim S1x100 ![1] bcast_S100_S1x100_1 : (⟨S100, .f32⟩ : BufTy).Contents (Elt F) → (⟨S1x100, .f32⟩ : BufTy).Contents (Elt F)),
    unary main_v82 main_v83 (broadcastInDim S65536x100 ![0, 1] bcast_S1x100_S65536x100_0_1 : (⟨S1x100, .f32⟩ : BufTy).Contents (Elt F) → (⟨S65536x100, .f32⟩ : BufTy).Contents (Elt F)),
    binary main_v81 main_v83 main_v84 (addf : (⟨S65536x100, .f32⟩ : BufTy).Contents (Elt F) → (⟨S65536x100, .f32⟩ : BufTy).Contents (Elt F) → (⟨S65536x100, .f32⟩ : BufTy).Contents (Elt F)),
    nullary main_cst_24 (constant S_ .f32 0x00000000#32),
    binary main_v84 main_cst_24 main_v85 ((fun x v => Host.reduceAdd x v reducesTo_S65536x100_S100_d0 h_S_) : (⟨S65536x100, .f32⟩ : BufTy).Contents (Elt F) → (⟨S_, .f32⟩ : BufTy).Contents (Elt F) → (⟨S100, .f32⟩ : BufTy).Contents (Elt F)),
    nullary main_cst_25 (constant S_ .f32 0x47800000#32),
    unary main_cst_25 main_v86 (broadcastInDim S100 ![] bcast_S_S100 : (⟨S_, .f32⟩ : BufTy).Contents (Elt F) → (⟨S100, .f32⟩ : BufTy).Contents (Elt F)),
    binary main_v85 main_v86 main_v87 (Host.divf : (⟨S100, .f32⟩ : BufTy).Contents (Elt F) → (⟨S100, .f32⟩ : BufTy).Contents (Elt F) → (⟨S100, .f32⟩ : BufTy).Contents (Elt F)),
    unary main_v87 main_v88 (broadcastInDim S1x100 ![1] bcast_S100_S1x100_1 : (⟨S100, .f32⟩ : BufTy).Contents (Elt F) → (⟨S1x100, .f32⟩ : BufTy).Contents (Elt F)),
    unary main_v88 main_v89 (broadcastInDim S65536x100 ![0, 1] bcast_S1x100_S65536x100_0_1 : (⟨S1x100, .f32⟩ : BufTy).Contents (Elt F) → (⟨S65536x100, .f32⟩ : BufTy).Contents (Elt F)),
    binary main_v84 main_v89 main_v90 (subf : (⟨S65536x100, .f32⟩ : BufTy).Contents (Elt F) → (⟨S65536x100, .f32⟩ : BufTy).Contents (Elt F) → (⟨S65536x100, .f32⟩ : BufTy).Contents (Elt F)),
    binary main_v90 main_v90 main_v91 (mulf : (⟨S65536x100, .f32⟩ : BufTy).Contents (Elt F) → (⟨S65536x100, .f32⟩ : BufTy).Contents (Elt F) → (⟨S65536x100, .f32⟩ : BufTy).Contents (Elt F)),
    nullary main_cst_26 (constant S_ .f32 0x00000000#32),
    binary main_v91 main_cst_26 main_v92 ((fun x v => Host.reduceAdd x v reducesTo_S65536x100_S100_d0 h_S_) : (⟨S65536x100, .f32⟩ : BufTy).Contents (Elt F) → (⟨S_, .f32⟩ : BufTy).Contents (Elt F) → (⟨S100, .f32⟩ : BufTy).Contents (Elt F)),
    nullary main_cst_27 (constant S_ .f32 0x47800000#32),
    unary main_cst_27 main_v93 (broadcastInDim S100 ![] bcast_S_S100 : (⟨S_, .f32⟩ : BufTy).Contents (Elt F) → (⟨S100, .f32⟩ : BufTy).Contents (Elt F)),
    binary main_v92 main_v93 main_v94 (Host.divf : (⟨S100, .f32⟩ : BufTy).Contents (Elt F) → (⟨S100, .f32⟩ : BufTy).Contents (Elt F) → (⟨S100, .f32⟩ : BufTy).Contents (Elt F)),
    unary main_v87 main_v95 (broadcastInDim S1x100 ![1] bcast_S100_S1x100_1 : (⟨S100, .f32⟩ : BufTy).Contents (Elt F) → (⟨S1x100, .f32⟩ : BufTy).Contents (Elt F)),
    unary main_v95 main_v96 (broadcastInDim S65536x100 ![0, 1] bcast_S1x100_S65536x100_0_1 : (⟨S1x100, .f32⟩ : BufTy).Contents (Elt F) → (⟨S65536x100, .f32⟩ : BufTy).Contents (Elt F)),
    binary main_v84 main_v96 main_v97 (subf : (⟨S65536x100, .f32⟩ : BufTy).Contents (Elt F) → (⟨S65536x100, .f32⟩ : BufTy).Contents (Elt F) → (⟨S65536x100, .f32⟩ : BufTy).Contents (Elt F)),
    unary main_arg11 main_v98 (broadcastInDim S1x100 ![1] bcast_S100_S1x100_1 : (⟨S100, .f32⟩ : BufTy).Contents (Elt F) → (⟨S1x100, .f32⟩ : BufTy).Contents (Elt F)),
    unary main_v98 main_v99 (broadcastInDim S65536x100 ![0, 1] bcast_S1x100_S65536x100_0_1 : (⟨S1x100, .f32⟩ : BufTy).Contents (Elt F) → (⟨S65536x100, .f32⟩ : BufTy).Contents (Elt F)),
    binary main_v99 main_v97 main_v100 (mulf : (⟨S65536x100, .f32⟩ : BufTy).Contents (Elt F) → (⟨S65536x100, .f32⟩ : BufTy).Contents (Elt F) → (⟨S65536x100, .f32⟩ : BufTy).Contents (Elt F)),
    nullary main_cst_28 (constant S_ .f32 0x38D1B717#32),
    unary main_cst_28 main_v101 (broadcastInDim S100 ![] bcast_S_S100 : (⟨S_, .f32⟩ : BufTy).Contents (Elt F) → (⟨S100, .f32⟩ : BufTy).Contents (Elt F)),
    binary main_v94 main_v101 main_v102 (addf : (⟨S100, .f32⟩ : BufTy).Contents (Elt F) → (⟨S100, .f32⟩ : BufTy).Contents (Elt F) → (⟨S100, .f32⟩ : BufTy).Contents (Elt F)),
    unary main_v102 main_v103 (Host.rsqrt : (⟨S100, .f32⟩ : BufTy).Contents (Elt F) → (⟨S100, .f32⟩ : BufTy).Contents (Elt F)),
    unary main_v103 main_v104 (broadcastInDim S1x100 ![1] bcast_S100_S1x100_1 : (⟨S100, .f32⟩ : BufTy).Contents (Elt F) → (⟨S1x100, .f32⟩ : BufTy).Contents (Elt F)),
    unary main_v104 main_v105 (broadcastInDim S65536x100 ![0, 1] bcast_S1x100_S65536x100_0_1 : (⟨S1x100, .f32⟩ : BufTy).Contents (Elt F) → (⟨S65536x100, .f32⟩ : BufTy).Contents (Elt F)),
    binary main_v100 main_v105 main_v106 (mulf : (⟨S65536x100, .f32⟩ : BufTy).Contents (Elt F) → (⟨S65536x100, .f32⟩ : BufTy).Contents (Elt F) → (⟨S65536x100, .f32⟩ : BufTy).Contents (Elt F)),
    unary main_arg12 main_v107 (broadcastInDim S1x100 ![1] bcast_S100_S1x100_1 : (⟨S100, .f32⟩ : BufTy).Contents (Elt F) → (⟨S1x100, .f32⟩ : BufTy).Contents (Elt F)),
    unary main_v107 main_v108 (broadcastInDim S65536x100 ![0, 1] bcast_S1x100_S65536x100_0_1 : (⟨S1x100, .f32⟩ : BufTy).Contents (Elt F) → (⟨S65536x100, .f32⟩ : BufTy).Contents (Elt F)),
    binary main_v106 main_v108 main_v109 (addf : (⟨S65536x100, .f32⟩ : BufTy).Contents (Elt F) → (⟨S65536x100, .f32⟩ : BufTy).Contents (Elt F) → (⟨S65536x100, .f32⟩ : BufTy).Contents (Elt F)),
    nullary main_cst_29 (constant S_ .f32 0x00000000#32),
    unary main_cst_29 main_v110 (broadcastInDim S65536x100 ![] bcast_S_S65536x100 : (⟨S_, .f32⟩ : BufTy).Contents (Elt F) → (⟨S65536x100, .f32⟩ : BufTy).Contents (Elt F)),
    binary main_v109 main_v110 main_v111 (cmpf .oge : (⟨S65536x100, .f32⟩ : BufTy).Contents (Elt F) → (⟨S65536x100, .f32⟩ : BufTy).Contents (Elt F) → (⟨S65536x100, .i1⟩ : BufTy).Contents (Elt F)),
    nullary main_cst_30 (constant S_ .f32 0x3F800000#32),
    nullary main_cst_31 (constant S_ .f32 0xBF800000#32),
    TRef.unary (TRef.of (T := ⟨S_, .f32⟩) main_cst_30) (TRef.of (T := ⟨S65536x100, .f32⟩) main_call5_v0) (broadcastInDim S65536x100 ![] bcast_S_S65536x100),
    TRef.unary (TRef.of (T := ⟨S_, .f32⟩) main_cst_31) (TRef.of (T := ⟨S65536x100, .f32⟩) main_call5_v1) (broadcastInDim S65536x100 ![] bcast_S_S65536x100),
    TRef.ternary (TRef.of (T := ⟨S65536x100, .i1⟩) main_v111) (TRef.of (T := ⟨S65536x100, .f32⟩) main_call5_v0) (TRef.of (T := ⟨S65536x100, .f32⟩) main_call5_v1) (TRef.of (T := ⟨S65536x100, .f32⟩) main_v112) select,
    unary main_v112 main_v113 (id : (⟨S65536x100, .f32⟩ : BufTy).Contents (Elt F) → (⟨S65536x100, .f32⟩ : BufTy).Contents (Elt F)) ]

/-- The last layer's operations and the log-softmax's. -/
abbrev opsD : List (HloOp τ sig (Elt F)) :=
  [ nullary main_cst_32 (constant S_ .f32 0x00000000#32),
    unary main_cst_32 main_v114 (broadcastInDim S10x100 ![] bcast_S_S10x100 : (⟨S_, .f32⟩ : BufTy).Contents (Elt F) → (⟨S10x100, .f32⟩ : BufTy).Contents (Elt F)),
    binary main_arg13 main_v114 main_v115 (cmpf .oge : (⟨S10x100, .f32⟩ : BufTy).Contents (Elt F) → (⟨S10x100, .f32⟩ : BufTy).Contents (Elt F) → (⟨S10x100, .i1⟩ : BufTy).Contents (Elt F)),
    nullary main_cst_33 (constant S_ .f32 0x3F800000#32),
    nullary main_cst_34 (constant S_ .f32 0xBF800000#32),
    TRef.unary (TRef.of (T := ⟨S_, .f32⟩) main_cst_33) (TRef.of (T := ⟨S10x100, .f32⟩) main_call6_v0) (broadcastInDim S10x100 ![] bcast_S_S10x100),
    TRef.unary (TRef.of (T := ⟨S_, .f32⟩) main_cst_34) (TRef.of (T := ⟨S10x100, .f32⟩) main_call6_v1) (broadcastInDim S10x100 ![] bcast_S_S10x100),
    TRef.ternary (TRef.of (T := ⟨S10x100, .i1⟩) main_v115) (TRef.of (T := ⟨S10x100, .f32⟩) main_call6_v0) (TRef.of (T := ⟨S10x100, .f32⟩) main_call6_v1) (TRef.of (T := ⟨S10x100, .f32⟩) main_v116) select,
    unary main_v116 main_v117 (id : (⟨S10x100, .f32⟩ : BufTy).Contents (Elt F) → (⟨S10x100, .f32⟩ : BufTy).Contents (Elt F)),
    unary main_v117 main_v118 ((transpose S100x10 [1, 0] · transposes_S10x100_S100x10_1_0) : (⟨S10x100, .f32⟩ : BufTy).Contents (Elt F) → (⟨S100x10, .f32⟩ : BufTy).Contents (Elt F)),
    binary main_v113 main_v118 main_v119 ((fun l r => Host.dotGeneral dot_S65536x100_S100x10_S65536x10_1_0_0_1_n_n none l r) : (⟨S65536x100, .f32⟩ : BufTy).Contents (Elt F) → (⟨S100x10, .f32⟩ : BufTy).Contents (Elt F) → (⟨S65536x10, .f32⟩ : BufTy).Contents (Elt F)),
    unary main_arg14 main_v120 (broadcastInDim S1x10 ![1] bcast_S10_S1x10_1 : (⟨S10, .f32⟩ : BufTy).Contents (Elt F) → (⟨S1x10, .f32⟩ : BufTy).Contents (Elt F)),
    unary main_v120 main_v121 (broadcastInDim S65536x10 ![0, 1] bcast_S1x10_S65536x10_0_1 : (⟨S1x10, .f32⟩ : BufTy).Contents (Elt F) → (⟨S65536x10, .f32⟩ : BufTy).Contents (Elt F)),
    binary main_v119 main_v121 main_v122 (addf : (⟨S65536x10, .f32⟩ : BufTy).Contents (Elt F) → (⟨S65536x10, .f32⟩ : BufTy).Contents (Elt F) → (⟨S65536x10, .f32⟩ : BufTy).Contents (Elt F)),
    TRef.nullary (TRef.of (T := ⟨S_, .f32⟩) main_call7_cst) (constant S_ .f32 0xFF800000#32),
    TRef.binary (TRef.of (T := ⟨S65536x10, .f32⟩) main_v122) (TRef.of (T := ⟨S_, .f32⟩) main_call7_cst) (TRef.of (T := ⟨S65536, .f32⟩) main_call7_v0) (fun x v => Host.reduce FloatOps.maximumf x v reducesTo_S65536x10_S65536_d1 h_S_),
    TRef.nullary (TRef.of (T := ⟨S_, .f32⟩) main_call7_cst_0) (constant S_ .f32 0xFF800000#32),
    TRef.unary (TRef.of (T := ⟨S_, .f32⟩) main_call7_cst_0) (TRef.of (T := ⟨S65536, .f32⟩) main_call7_v1) (broadcastInDim S65536 ![] bcast_S_S65536),
    TRef.binary (TRef.of (T := ⟨S65536, .f32⟩) main_call7_v1) (TRef.of (T := ⟨S65536, .f32⟩) main_call7_v0) (TRef.of (T := ⟨S65536, .f32⟩) main_call7_v2) maximumf,
    TRef.unary (TRef.of (T := ⟨S65536, .f32⟩) main_call7_v2) (TRef.of (T := ⟨S65536x1, .f32⟩) main_call7_v3) (broadcastInDim S65536x1 ![0] bcast_S65536_S65536x1_0),
    TRef.unary (TRef.of (T := ⟨S65536x1, .f32⟩) main_call7_v3) (TRef.of (T := ⟨S65536x10, .f32⟩) main_call7_v4) (broadcastInDim S65536x10 ![0, 1] bcast_S65536x1_S65536x10_0_1),
    TRef.binary (TRef.of (T := ⟨S65536x10, .f32⟩) main_v122) (TRef.of (T := ⟨S65536x10, .f32⟩) main_call7_v4) (TRef.of (T := ⟨S65536x10, .f32⟩) main_call7_v5) subf,
    TRef.unary (TRef.of (T := ⟨S65536x10, .f32⟩) main_call7_v5) (TRef.of (T := ⟨S65536x10, .f32⟩) main_call7_v6) Host.exp,
    TRef.nullary (TRef.of (T := ⟨S_, .f32⟩) main_call7_cst_1) (constant S_ .f32 0x00000000#32),
    TRef.binary (TRef.of (T := ⟨S65536x10, .f32⟩) main_call7_v6) (TRef.of (T := ⟨S_, .f32⟩) main_call7_cst_1) (TRef.of (T := ⟨S65536, .f32⟩) main_call7_v7) (fun x v => Host.reduceAdd x v reducesTo_S65536x10_S65536_d1 h_S_),
    TRef.unary (TRef.of (T := ⟨S65536, .f32⟩) main_call7_v7) (TRef.of (T := ⟨S65536x1, .f32⟩) main_call7_v8) (broadcastInDim S65536x1 ![0] bcast_S65536_S65536x1_0),
    TRef.unary (TRef.of (T := ⟨S65536x1, .f32⟩) main_call7_v8) (TRef.of (T := ⟨S65536x1, .f32⟩) main_call7_v9) Host.log,
    TRef.unary (TRef.of (T := ⟨S65536x1, .f32⟩) main_call7_v9) (TRef.of (T := ⟨S65536x10, .f32⟩) main_call7_v10) (broadcastInDim S65536x10 ![0, 1] bcast_S65536x1_S65536x10_0_1),
    TRef.binary (TRef.of (T := ⟨S65536x10, .f32⟩) main_call7_v5) (TRef.of (T := ⟨S65536x10, .f32⟩) main_call7_v10) (TRef.of (T := ⟨S65536x10, .f32⟩) main_v123) subf ]

/-- The program's line is the four stretches in order. -/
theorem ops_eq : (ValueP.ops (F := F)) = opsA ++ opsB ++ opsC ++ opsD := rfl

end Lists

variable (W : Valuation τ sig (Elt Ideal))

/-- After the first stretch the first activation's buffer holds the first layer's stage of the arguments. -/
theorem afterA :
    after (opsA (F := Ideal)) W (Proc.devRef .tc main_v37)
      = ReadP.val_main_v37 (F := Ideal) (W (Proc.devRef .tc main_arg0)) (W (Proc.devRef .tc main_arg1)) (W (Proc.devRef .tc main_arg2)) (W (Proc.devRef .tc main_arg3)) (W (Proc.devRef .tc main_arg4)) := by
  dsimp only [opsA]
  after_results_simp
  simp only [Cert.LibTRef.ofBuf_toBuf]
  rfl

/-- After the second stretch, run from contents whose first activation's buffer holds the first layer's stage, the second
    activation's buffer holds the second layer's stage. -/
theorem afterB (x0 : (⟨S65536x1024, .f32⟩ : BufTy).Contents (Elt Ideal)) (x1 : (⟨S200x1024, .f32⟩ : BufTy).Contents (Elt Ideal))
    (x2 x3 x4 : (⟨S200, .f32⟩ : BufTy).Contents (Elt Ideal))
    (hin : W (Proc.devRef .tc main_v37) = ReadP.val_main_v37 (F := Ideal) x0 x1 x2 x3 x4) :
    after (opsB (F := Ideal)) W (Proc.devRef .tc main_v75)
      = ReadP.val_main_v75 (F := Ideal) x0 x1 x2 x3 x4 (W (Proc.devRef .tc main_arg5)) (W (Proc.devRef .tc main_arg6)) (W (Proc.devRef .tc main_arg7)) (W (Proc.devRef .tc main_arg8)) := by
  dsimp only [opsB]
  after_results_simp
  simp only [Cert.LibTRef.ofBuf_toBuf]
  rw [hin]
  rfl

/-- After the third stretch, likewise, the third activation's buffer holds the third layer's stage. -/
theorem afterC (x0 : (⟨S65536x1024, .f32⟩ : BufTy).Contents (Elt Ideal)) (x1 : (⟨S200x1024, .f32⟩ : BufTy).Contents (Elt Ideal))
    (x2 x3 x4 : (⟨S200, .f32⟩ : BufTy).Contents (Elt Ideal)) (x5 : (⟨S100x200, .f32⟩ : BufTy).Contents (Elt Ideal))
    (x6 x7 x8 : (⟨S100, .f32⟩ : BufTy).Contents (Elt Ideal))
    (hin : W (Proc.devRef .tc main_v75) = ReadP.val_main_v75 (F := Ideal) x0 x1 x2 x3 x4 x5 x6 x7 x8) :
    after (opsC (F := Ideal)) W (Proc.devRef .tc main_v113)
      = ReadP.val_main_v113 (F := Ideal) x0 x1 x2 x3 x4 x5 x6 x7 x8 (W (Proc.devRef .tc main_arg9)) (W (Proc.devRef .tc main_arg10)) (W (Proc.devRef .tc main_arg11)) (W (Proc.devRef .tc main_arg12)) := by
  dsimp only [opsC]
  after_results_simp
  simp only [Cert.LibTRef.ofBuf_toBuf]
  rw [hin]
  rfl

/-- After the last stretch, likewise, the result buffer holds the program's last stage. -/
theorem afterD (x0 : (⟨S65536x1024, .f32⟩ : BufTy).Contents (Elt Ideal)) (x1 : (⟨S200x1024, .f32⟩ : BufTy).Contents (Elt Ideal))
    (x2 x3 x4 : (⟨S200, .f32⟩ : BufTy).Contents (Elt Ideal)) (x5 : (⟨S100x200, .f32⟩ : BufTy).Contents (Elt Ideal))
    (x6 x7 x8 : (⟨S100, .f32⟩ : BufTy).Contents (Elt Ideal)) (x9 : (⟨S100x100, .f32⟩ : BufTy).Contents (Elt Ideal))
    (x10 x11 x12 : (⟨S100, .f32⟩ : BufTy).Contents (Elt Ideal))
    (hin : W (Proc.devRef .tc main_v113) = ReadP.val_main_v113 (F := Ideal) x0 x1 x2 x3 x4 x5 x6 x7 x8 x9 x10 x11 x12) :
    after (opsD (F := Ideal)) W (Proc.devRef .tc main_v123)
      = ReadP.val_main_v123 (F := Ideal) x0 x1 x2 x3 x4 x5 x6 x7 x8 x9 x10 x11 x12 (W (Proc.devRef .tc main_arg13)) (W (Proc.devRef .tc main_arg14)) := by
  dsimp only [opsD]
  after_results_simp
  simp only [Cert.LibTRef.ofBuf_toBuf]
  rw [hin]
  rfl

/-! ## The buffers a stretch does not write

No operation of a stretch writes an argument's buffer, so the arguments the later stretches read are still the launch's. -/

theorem keepA_arg5 : after (opsA (F := Ideal)) W (Proc.devRef .tc main_arg5) = W (Proc.devRef .tc main_arg5) := by
  dsimp only [opsA]
  after_results_simp <;> rfl
theorem keepA_arg6 : after (opsA (F := Ideal)) W (Proc.devRef .tc main_arg6) = W (Proc.devRef .tc main_arg6) := by
  dsimp only [opsA]
  after_results_simp <;> rfl
theorem keepA_arg7 : after (opsA (F := Ideal)) W (Proc.devRef .tc main_arg7) = W (Proc.devRef .tc main_arg7) := by
  dsimp only [opsA]
  after_results_simp <;> rfl
theorem keepA_arg8 : after (opsA (F := Ideal)) W (Proc.devRef .tc main_arg8) = W (Proc.devRef .tc main_arg8) := by
  dsimp only [opsA]
  after_results_simp <;> rfl
theorem keepA_arg9 : after (opsA (F := Ideal)) W (Proc.devRef .tc main_arg9) = W (Proc.devRef .tc main_arg9) := by
  dsimp only [opsA]
  after_results_simp <;> rfl
theorem keepA_arg10 : after (opsA (F := Ideal)) W (Proc.devRef .tc main_arg10) = W (Proc.devRef .tc main_arg10) := by
  dsimp only [opsA]
  after_results_simp <;> rfl
theorem keepA_arg11 : after (opsA (F := Ideal)) W (Proc.devRef .tc main_arg11) = W (Proc.devRef .tc main_arg11) := by
  dsimp only [opsA]
  after_results_simp <;> rfl
theorem keepA_arg12 : after (opsA (F := Ideal)) W (Proc.devRef .tc main_arg12) = W (Proc.devRef .tc main_arg12) := by
  dsimp only [opsA]
  after_results_simp <;> rfl
theorem keepA_arg13 : after (opsA (F := Ideal)) W (Proc.devRef .tc main_arg13) = W (Proc.devRef .tc main_arg13) := by
  dsimp only [opsA]
  after_results_simp <;> rfl
theorem keepA_arg14 : after (opsA (F := Ideal)) W (Proc.devRef .tc main_arg14) = W (Proc.devRef .tc main_arg14) := by
  dsimp only [opsA]
  after_results_simp <;> rfl
theorem keepB_arg9 : after (opsB (F := Ideal)) W (Proc.devRef .tc main_arg9) = W (Proc.devRef .tc main_arg9) := by
  dsimp only [opsB]
  after_results_simp <;> rfl
theorem keepB_arg10 : after (opsB (F := Ideal)) W (Proc.devRef .tc main_arg10) = W (Proc.devRef .tc main_arg10) := by
  dsimp only [opsB]
  after_results_simp <;> rfl
theorem keepB_arg11 : after (opsB (F := Ideal)) W (Proc.devRef .tc main_arg11) = W (Proc.devRef .tc main_arg11) := by
  dsimp only [opsB]
  after_results_simp <;> rfl
theorem keepB_arg12 : after (opsB (F := Ideal)) W (Proc.devRef .tc main_arg12) = W (Proc.devRef .tc main_arg12) := by
  dsimp only [opsB]
  after_results_simp <;> rfl
theorem keepB_arg13 : after (opsB (F := Ideal)) W (Proc.devRef .tc main_arg13) = W (Proc.devRef .tc main_arg13) := by
  dsimp only [opsB]
  after_results_simp <;> rfl
theorem keepB_arg14 : after (opsB (F := Ideal)) W (Proc.devRef .tc main_arg14) = W (Proc.devRef .tc main_arg14) := by
  dsimp only [opsB]
  after_results_simp <;> rfl
theorem keepC_arg13 : after (opsC (F := Ideal)) W (Proc.devRef .tc main_arg13) = W (Proc.devRef .tc main_arg13) := by
  dsimp only [opsC]
  after_results_simp <;> rfl
theorem keepC_arg14 : after (opsC (F := Ideal)) W (Proc.devRef .tc main_arg14) = W (Proc.devRef .tc main_arg14) := by
  dsimp only [opsC]
  after_results_simp <;> rfl

/-! ## The whole line -/

/-- After the whole line, run from contents W, the result buffer holds the program's last stage of W's argument buffers:
    each stretch runs from what the stretches before it leave, its input the stage before and its arguments unchanged. -/
theorem after_ops :
    after (ValueP.ops (F := Ideal)) W (Proc.devRef .tc main_v123)
      = ReadP.val_main_v123 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) := by
  rw [ops_eq (F := Ideal), after_append, after_append, after_append]
  have hA := afterA W
  have hB := afterB (after opsA W) _ _ _ _ _ hA
  rw [keepA_arg5, keepA_arg6, keepA_arg7, keepA_arg8] at hB
  have hC := afterC (after opsB (after opsA W)) _ _ _ _ _ _ _ _ _ hB
  rw [keepB_arg9, keepB_arg10, keepB_arg11, keepB_arg12, keepA_arg9, keepA_arg10, keepA_arg11, keepA_arg12] at hC
  have hD := afterD (after opsC (after opsB (after opsA W))) _ _ _ _ _ _ _ _ _ _ _ _ _ hC
  rw [keepC_arg13, keepC_arg14, keepB_arg13, keepB_arg14, keepA_arg13, keepA_arg14] at hD
  exact hD

end Cert.RefRun

end
-- ==== Proof.RefValue.lean ====
/-
  The reference program computes the network of the specification.

  The reference's run is read one operation at a time: every operation's value at an index is a function of its
  operands at indices.  Layer by layer the stages are identified with the specification's: a layer's product with the
  sign matrix of its weights plus the bias, the column mean over the batch, the column variance as the mean of the
  squared deviations, the normalised, scaled and shifted activation's sign; then the logits, and the log-softmax of a
  row with its maximum taken once more against −∞ and its sum of exponentials started from 0.

  All arrays are read at indices given by their coordinates; a row vector broadcast down the batch is the vector at the
  column, and a reduction over the batch axis of an array at column j runs over the entries (k, j).
-/
import proofs.«120646_j47201690583464_2_alg».proof.Proof.Spec
import proofs.«120646_j47201690583464_2_alg».proof.Proof.RefReadP

noncomputable section

namespace Cert.RefValue

open Cert.ReferenceIdeal Cert.ReferenceIdeal.Gen Cert.ReferenceIdeal.ReadP Idealize.ShloMosaic Idealize.ShloMosaic.ValueIdx
  Idealize.ShloMosaic.TcCoe Idealize.SL.Sem Idealize.ShloMosaic.StableHlo

/-- A rank-2 array as a function of its two coordinates. -/
abbrev c2 {m n : ℕ} (x : (⟨2, ![m, n]⟩ : Shape).Idx → EReal) : Fin m → Fin n → EReal := fun a k => x (ix2 a k)
/-- A rank-1 array as a function of its coordinate. -/
abbrev c1 {n : ℕ} (x : (⟨1, ![n]⟩ : Shape).Idx → EReal) : Fin n → EReal := fun j => x (ix1 j)

variable (x0 : (⟨S65536x1024, .f32⟩ : BufTy).Contents (Elt Ideal)) (x1 : (⟨S200x1024, .f32⟩ : BufTy).Contents (Elt Ideal))
  (x2 x3 x4 : (⟨S200, .f32⟩ : BufTy).Contents (Elt Ideal)) (x5 : (⟨S100x200, .f32⟩ : BufTy).Contents (Elt Ideal))
  (x6 x7 x8 : (⟨S100, .f32⟩ : BufTy).Contents (Elt Ideal)) (x9 : (⟨S100x100, .f32⟩ : BufTy).Contents (Elt Ideal))
  (x10 x11 x12 : (⟨S100, .f32⟩ : BufTy).Contents (Elt Ideal)) (x13 : (⟨S10x100, .f32⟩ : BufTy).Contents (Elt Ideal))
  (x14 : (⟨S10, .f32⟩ : BufTy).Contents (Elt Ideal))

/-! ## The first layer -/

/-- The pre-activations of this layer, as the specification names them. -/
abbrev P1 : Fin 65536 → Fin 200 → EReal := Spec.preB1 (c2 x0) (c2 x1) (c1 x2)
/-- The activations of this layer. -/
abbrev H1 : Fin 65536 → Fin 200 → EReal := Spec.hidB1 (c2 x0) (c2 x1) (c1 x2) (c1 x3) (c1 x4)

/-- The sign matrix of the layer's weights at (j, k): 1 where the weight is at least 0, else −1. -/
theorem sgn1 (j : Fin 200) (k : Fin 1024) :
    val_main_v3 (F := Ideal) x1 (ix2 j k) = Spec.sgn (x1 (ix2 j k)) := by
  rw [val_main_v3_apply, val_main_v2_apply, val_main_v1_apply, val_main_v0_apply, val_main_cst_apply,
    val_main_call0_v0_apply, val_main_cst_0_apply, val_main_call0_v1_apply, val_main_cst_1_apply]
  rfl

/-- The product of row a of the input with row j of the sign matrix (the transposed matrix is read at (k, j)). -/
theorem dot1 (a : Fin 65536) (j : Fin 200) :
    val_main_v5 (F := Ideal) x0 x1 (ix2 a j) = ∑ k : Fin 1024, x0 (ix2 a k) * Spec.sgn (x1 (ix2 j k)) := by
  rw [val_main_v5_apply]
  refine Finset.sum_congr rfl fun k _ => ?_
  rw [val_main_v4_apply,
    show lidx_main_v5 (ix2 a j) k = ix2 a k from
      funext fun d => Fin.ext (by match d with | ⟨0, _⟩ => rfl | ⟨1, _⟩ => rfl),
    show idx_main_v4 (ridx_main_v5 (ix2 a j) k) = ix2 j k from
      funext fun d => Fin.ext (by match d with | ⟨0, _⟩ => rfl | ⟨1, _⟩ => rfl),
    sgn1]

/-- The bias broadcast down the batch, at (a, j), is the bias at j. -/
theorem bias1 (a : Fin 65536) (j : Fin 200) : val_main_v7 (F := Ideal) x2 (ix2 a j) = x2 (ix1 j) := by
  rw [val_main_v7_apply, val_main_v6_apply]
  exact congrArg x2 (funext fun d => Fin.ext (by match d with | ⟨0, _⟩ => rfl))

/-- The pre-activation. -/
theorem pre1 (a : Fin 65536) (j : Fin 200) : val_main_v8 (F := Ideal) x0 x1 x2 (ix2 a j) = P1 x0 x1 x2 a j := by
  rw [val_main_v8_apply, dot1, bias1]
  rfl

/-- The column mean of the pre-activations: the sum over the batch of the entries (k, j), from 0, over 65536. -/
theorem mean1 (j : Fin 200) : val_main_v11 (F := Ideal) x0 x1 x2 (ix1 j) = Spec.mean (P1 x0 x1 x2) j := by
  rw [val_main_v11_apply, val_main_v9_apply, val_main_cst_2_apply, val_main_v10_apply, val_main_cst_3_apply]
  have hs : ∀ k : Fin 65536, val_main_v8 (F := Ideal) x0 x1 x2 (idx_main_v9 (ix1 j) k) = P1 x0 x1 x2 k j := fun k => by
    rw [show idx_main_v9 (ix1 j) k = ix2 k j from
      funext fun d => Fin.ext (by match d with | ⟨0, _⟩ => rfl | ⟨1, _⟩ => rfl), pre1]
  rw [Finset.sum_congr rfl fun k _ => hs k]
  rfl

/-- The deviation from the column mean, at (a, j). -/
theorem dev1 (a : Fin 65536) (j : Fin 200) :
    val_main_v14 (F := Ideal) x0 x1 x2 (ix2 a j) = P1 x0 x1 x2 a j - Spec.mean (P1 x0 x1 x2) j := by
  rw [val_main_v14_apply, val_main_v13_apply, val_main_v12_apply, pre1,
    show idx_main_v12 (idx_main_v13 (ix2 a j)) = ix1 j from
      funext fun d => Fin.ext (by match d with | ⟨0, _⟩ => rfl), mean1]
  rfl

/-- The column variance: the mean of the squared deviations. -/
theorem var1 (j : Fin 200) : val_main_v18 (F := Ideal) x0 x1 x2 (ix1 j) = Spec.varDev (P1 x0 x1 x2) j := by
  rw [val_main_v18_apply, val_main_v16_apply, val_main_cst_4_apply, val_main_v17_apply, val_main_cst_5_apply]
  have hs : ∀ k : Fin 65536, val_main_v15 (F := Ideal) x0 x1 x2 (idx_main_v16 (ix1 j) k)
      = (P1 x0 x1 x2 k j - Spec.mean (P1 x0 x1 x2) j) * (P1 x0 x1 x2 k j - Spec.mean (P1 x0 x1 x2) j) := fun k => by
    rw [show idx_main_v16 (ix1 j) k = ix2 k j from
      funext fun d => Fin.ext (by match d with | ⟨0, _⟩ => rfl | ⟨1, _⟩ => rfl), val_main_v15_apply, dev1]
    rfl
  rw [Finset.sum_congr rfl fun k _ => hs k]
  rfl

/-- The reciprocal square root of the variance plus ε, at column j. -/
theorem scale1 (j : Fin 200) :
    val_main_v27 (F := Ideal) x0 x1 x2 (ix1 j) = Ideal.rsqrt (Spec.varDev (P1 x0 x1 x2) j + Spec.eps) := by
  rw [val_main_v27_apply, val_main_v26_apply, val_main_v25_apply, val_main_cst_6_apply, var1]
  rfl

/-- The normalised, scaled and shifted pre-activation, at (a, j). -/
theorem norm1 (a : Fin 65536) (j : Fin 200) :
    val_main_v33 (F := Ideal) x0 x1 x2 x3 x4 (ix2 a j)
      = x3 (ix1 j) * (P1 x0 x1 x2 a j - Spec.mean (P1 x0 x1 x2) j)
          * Ideal.rsqrt (Spec.varDev (P1 x0 x1 x2) j + Spec.eps) + x4 (ix1 j) := by
  rw [val_main_v33_apply, val_main_v30_apply, val_main_v24_apply, val_main_v23_apply, val_main_v22_apply,
    val_main_v21_apply, val_main_v20_apply, val_main_v19_apply, val_main_v29_apply, val_main_v28_apply,
    val_main_v32_apply, val_main_v31_apply, pre1,
    show idx_main_v22 (idx_main_v23 (ix2 a j)) = ix1 j from
      funext fun d => Fin.ext (by match d with | ⟨0, _⟩ => rfl),
    show idx_main_v19 (idx_main_v20 (ix2 a j)) = ix1 j from
      funext fun d => Fin.ext (by match d with | ⟨0, _⟩ => rfl),
    show idx_main_v28 (idx_main_v29 (ix2 a j)) = ix1 j from
      funext fun d => Fin.ext (by match d with | ⟨0, _⟩ => rfl),
    show idx_main_v31 (idx_main_v32 (ix2 a j)) = ix1 j from
      funext fun d => Fin.ext (by match d with | ⟨0, _⟩ => rfl),
    mean1, scale1]
  rfl

/-- The layer's activation: the sign of the normalised pre-activation. -/
theorem hid1 (a : Fin 65536) (j : Fin 200) :
    val_main_v37 (F := Ideal) x0 x1 x2 x3 x4 (ix2 a j) = H1 x0 x1 x2 x3 x4 a j := by
  rw [val_main_v37_apply, val_main_v36_apply, val_main_v35_apply, val_main_v34_apply, val_main_cst_7_apply,
    val_main_call1_v0_apply, val_main_cst_8_apply, val_main_call1_v1_apply, val_main_cst_9_apply, norm1]
  rfl

/-! ## The second layer -/

/-- The pre-activations of this layer, as the specification names them. -/
abbrev P2 : Fin 65536 → Fin 100 → EReal := Spec.preB2 (c2 x0) (c2 x1) (c1 x2) (c1 x3) (c1 x4) (c2 x5) (c1 x6)
/-- The activations of this layer. -/
abbrev H2 : Fin 65536 → Fin 100 → EReal := Spec.hidB2 (c2 x0) (c2 x1) (c1 x2) (c1 x3) (c1 x4) (c2 x5) (c1 x6) (c1 x7) (c1 x8)

/-- The sign matrix of the layer's weights at (j, k): 1 where the weight is at least 0, else −1. -/
theorem sgn2 (j : Fin 100) (k : Fin 200) :
    val_main_v41 (F := Ideal) x5 (ix2 j k) = Spec.sgn (x5 (ix2 j k)) := by
  rw [val_main_v41_apply, val_main_v40_apply, val_main_v39_apply, val_main_v38_apply, val_main_cst_10_apply,
    val_main_call2_v0_apply, val_main_cst_11_apply, val_main_call2_v1_apply, val_main_cst_12_apply]
  rfl

/-- The product of row a of the first layer's activations with row j of the sign matrix (the transposed matrix is read at (k, j)). -/
theorem dot2 (a : Fin 65536) (j : Fin 100) :
    val_main_v43 (F := Ideal) x0 x1 x2 x3 x4 x5 (ix2 a j) = ∑ k : Fin 200, H1 x0 x1 x2 x3 x4 a k * Spec.sgn (x5 (ix2 j k)) := by
  rw [val_main_v43_apply]
  refine Finset.sum_congr rfl fun k _ => ?_
  rw [val_main_v42_apply,
    show lidx_main_v43 (ix2 a j) k = ix2 a k from
      funext fun d => Fin.ext (by match d with | ⟨0, _⟩ => rfl | ⟨1, _⟩ => rfl),
    show idx_main_v42 (ridx_main_v43 (ix2 a j) k) = ix2 j k from
      funext fun d => Fin.ext (by match d with | ⟨0, _⟩ => rfl | ⟨1, _⟩ => rfl),
    sgn2, hid1]

/-- The bias broadcast down the batch, at (a, j), is the bias at j. -/
theorem bias2 (a : Fin 65536) (j : Fin 100) : val_main_v45 (F := Ideal) x6 (ix2 a j) = x6 (ix1 j) := by
  rw [val_main_v45_apply, val_main_v44_apply]
  exact congrArg x6 (funext fun d => Fin.ext (by match d with | ⟨0, _⟩ => rfl))

/-- The pre-activation. -/
theorem pre2 (a : Fin 65536) (j : Fin 100) : val_main_v46 (F := Ideal) x0 x1 x2 x3 x4 x5 x6 (ix2 a j) = P2 x0 x1 x2 x3 x4 x5 x6 a j := by
  rw [val_main_v46_apply, dot2, bias2]
  rfl

/-- The column mean of the pre-activations: the sum over the batch of the entries (k, j), from 0, over 65536. -/
theorem mean2 (j : Fin 100) : val_main_v49 (F := Ideal) x0 x1 x2 x3 x4 x5 x6 (ix1 j) = Spec.mean (P2 x0 x1 x2 x3 x4 x5 x6) j := by
  rw [val_main_v49_apply, val_main_v47_apply, val_main_cst_13_apply, val_main_v48_apply, val_main_cst_14_apply]
  have hs : ∀ k : Fin 65536, val_main_v46 (F := Ideal) x0 x1 x2 x3 x4 x5 x6 (idx_main_v47 (ix1 j) k) = P2 x0 x1 x2 x3 x4 x5 x6 k j := fun k => by
    rw [show idx_main_v47 (ix1 j) k = ix2 k j from
      funext fun d => Fin.ext (by match d with | ⟨0, _⟩ => rfl | ⟨1, _⟩ => rfl), pre2]
  rw [Finset.sum_congr rfl fun k _ => hs k]
  rfl

/-- The deviation from the column mean, at (a, j). -/
theorem dev2 (a : Fin 65536) (j : Fin 100) :
    val_main_v52 (F := Ideal) x0 x1 x2 x3 x4 x5 x6 (ix2 a j) = P2 x0 x1 x2 x3 x4 x5 x6 a j - Spec.mean (P2 x0 x1 x2 x3 x4 x5 x6) j := by
  rw [val_main_v52_apply, val_main_v51_apply, val_main_v50_apply, pre2,
    show idx_main_v50 (idx_main_v51 (ix2 a j)) = ix1 j from
      funext fun d => Fin.ext (by match d with | ⟨0, _⟩ => rfl), mean2]
  rfl

/-- The column variance: the mean of the squared deviations. -/
theorem var2 (j : Fin 100) : val_main_v56 (F := Ideal) x0 x1 x2 x3 x4 x5 x6 (ix1 j) = Spec.varDev (P2 x0 x1 x2 x3 x4 x5 x6) j := by
  rw [val_main_v56_apply, val_main_v54_apply, val_main_cst_15_apply, val_main_v55_apply, val_main_cst_16_apply]
  have hs : ∀ k : Fin 65536, val_main_v53 (F := Ideal) x0 x1 x2 x3 x4 x5 x6 (idx_main_v54 (ix1 j) k)
      = (P2 x0 x1 x2 x3 x4 x5 x6 k j - Spec.mean (P2 x0 x1 x2 x3 x4 x5 x6) j) * (P2 x0 x1 x2 x3 x4 x5 x6 k j - Spec.mean (P2 x0 x1 x2 x3 x4 x5 x6) j) := fun k => by
    rw [show idx_main_v54 (ix1 j) k = ix2 k j from
      funext fun d => Fin.ext (by match d with | ⟨0, _⟩ => rfl | ⟨1, _⟩ => rfl), val_main_v53_apply, dev2]
    rfl
  rw [Finset.sum_congr rfl fun k _ => hs k]
  rfl

/-- The reciprocal square root of the variance plus ε, at column j. -/
theorem scale2 (j : Fin 100) :
    val_main_v65 (F := Ideal) x0 x1 x2 x3 x4 x5 x6 (ix1 j) = Ideal.rsqrt (Spec.varDev (P2 x0 x1 x2 x3 x4 x5 x6) j + Spec.eps) := by
  rw [val_main_v65_apply, val_main_v64_apply, val_main_v63_apply, val_main_cst_17_apply, var2]
  rfl

/-- The normalised, scaled and shifted pre-activation, at (a, j). -/
theorem norm2 (a : Fin 65536) (j : Fin 100) :
    val_main_v71 (F := Ideal) x0 x1 x2 x3 x4 x5 x6 x7 x8 (ix2 a j)
      = x7 (ix1 j) * (P2 x0 x1 x2 x3 x4 x5 x6 a j - Spec.mean (P2 x0 x1 x2 x3 x4 x5 x6) j)
          * Ideal.rsqrt (Spec.varDev (P2 x0 x1 x2 x3 x4 x5 x6) j + Spec.eps) + x8 (ix1 j) := by
  rw [val_main_v71_apply, val_main_v68_apply, val_main_v62_apply, val_main_v61_apply, val_main_v60_apply,
    val_main_v59_apply, val_main_v58_apply, val_main_v57_apply, val_main_v67_apply, val_main_v66_apply,
    val_main_v70_apply, val_main_v69_apply, pre2,
    show idx_main_v60 (idx_main_v61 (ix2 a j)) = ix1 j from
      funext fun d => Fin.ext (by match d with | ⟨0, _⟩ => rfl),
    show idx_main_v57 (idx_main_v58 (ix2 a j)) = ix1 j from
      funext fun d => Fin.ext (by match d with | ⟨0, _⟩ => rfl),
    show idx_main_v66 (idx_main_v67 (ix2 a j)) = ix1 j from
      funext fun d => Fin.ext (by match d with | ⟨0, _⟩ => rfl),
    show idx_main_v69 (idx_main_v70 (ix2 a j)) = ix1 j from
      funext fun d => Fin.ext (by match d with | ⟨0, _⟩ => rfl),
    mean2, scale2]
  rfl

/-- The layer's activation: the sign of the normalised pre-activation. -/
theorem hid2 (a : Fin 65536) (j : Fin 100) :
    val_main_v75 (F := Ideal) x0 x1 x2 x3 x4 x5 x6 x7 x8 (ix2 a j) = H2 x0 x1 x2 x3 x4 x5 x6 x7 x8 a j := by
  rw [val_main_v75_apply, val_main_v74_apply, val_main_v73_apply, val_main_v72_apply, val_main_cst_18_apply,
    val_main_call3_v0_apply, val_main_cst_19_apply, val_main_call3_v1_apply, val_main_cst_20_apply, norm2]
  rfl

/-! ## The third layer -/

/-- The pre-activations of this layer, as the specification names them. -/
abbrev P3 : Fin 65536 → Fin 100 → EReal := Spec.preB3 (c2 x0) (c2 x1) (c1 x2) (c1 x3) (c1 x4) (c2 x5) (c1 x6) (c1 x7) (c1 x8) (c2 x9) (c1 x10)
/-- The activations of this layer. -/
abbrev H3 : Fin 65536 → Fin 100 → EReal := Spec.hidB3 (c2 x0) (c2 x1) (c1 x2) (c1 x3) (c1 x4) (c2 x5) (c1 x6) (c1 x7) (c1 x8) (c2 x9) (c1 x10) (c1 x11) (c1 x12)

/-- The sign matrix of the layer's weights at (j, k): 1 where the weight is at least 0, else −1. -/
theorem sgn3 (j : Fin 100) (k : Fin 100) :
    val_main_v79 (F := Ideal) x9 (ix2 j k) = Spec.sgn (x9 (ix2 j k)) := by
  rw [val_main_v79_apply, val_main_v78_apply, val_main_v77_apply, val_main_v76_apply, val_main_cst_21_apply,
    val_main_call4_v0_apply, val_main_cst_22_apply, val_main_call4_v1_apply, val_main_cst_23_apply]
  rfl

/-- The product of row a of the second layer's activations with row j of the sign matrix (the transposed matrix is read at (k, j)). -/
theorem dot3 (a : Fin 65536) (j : Fin 100) :
    val_main_v81 (F := Ideal) x0 x1 x2 x3 x4 x5 x6 x7 x8 x9 (ix2 a j) = ∑ k : Fin 100, H2 x0 x1 x2 x3 x4 x5 x6 x7 x8 a k * Spec.sgn (x9 (ix2 j k)) := by
  rw [val_main_v81_apply]
  refine Finset.sum_congr rfl fun k _ => ?_
  rw [val_main_v80_apply,
    show lidx_main_v81 (ix2 a j) k = ix2 a k from
      funext fun d => Fin.ext (by match d with | ⟨0, _⟩ => rfl | ⟨1, _⟩ => rfl),
    show idx_main_v80 (ridx_main_v81 (ix2 a j) k) = ix2 j k from
      funext fun d => Fin.ext (by match d with | ⟨0, _⟩ => rfl | ⟨1, _⟩ => rfl),
    sgn3, hid2]

/-- The bias broadcast down the batch, at (a, j), is the bias at j. -/
theorem bias3 (a : Fin 65536) (j : Fin 100) : val_main_v83 (F := Ideal) x10 (ix2 a j) = x10 (ix1 j) := by
  rw [val_main_v83_apply, val_main_v82_apply]
  exact congrArg x10 (funext fun d => Fin.ext (by match d with | ⟨0, _⟩ => rfl))

/-- The pre-activation. -/
theorem pre3 (a : Fin 65536) (j : Fin 100) : val_main_v84 (F := Ideal) x0 x1 x2 x3 x4 x5 x6 x7 x8 x9 x10 (ix2 a j) = P3 x0 x1 x2 x3 x4 x5 x6 x7 x8 x9 x10 a j := by
  rw [val_main_v84_apply, dot3, bias3]
  rfl

/-- The column mean of the pre-activations: the sum over the batch of the entries (k, j), from 0, over 65536. -/
theorem mean3 (j : Fin 100) : val_main_v87 (F := Ideal) x0 x1 x2 x3 x4 x5 x6 x7 x8 x9 x10 (ix1 j) = Spec.mean (P3 x0 x1 x2 x3 x4 x5 x6 x7 x8 x9 x10) j := by
  rw [val_main_v87_apply, val_main_v85_apply, val_main_cst_24_apply, val_main_v86_apply, val_main_cst_25_apply]
  have hs : ∀ k : Fin 65536, val_main_v84 (F := Ideal) x0 x1 x2 x3 x4 x5 x6 x7 x8 x9 x10 (idx_main_v85 (ix1 j) k) = P3 x0 x1 x2 x3 x4 x5 x6 x7 x8 x9 x10 k j := fun k => by
    rw [show idx_main_v85 (ix1 j) k = ix2 k j from
      funext fun d => Fin.ext (by match d with | ⟨0, _⟩ => rfl | ⟨1, _⟩ => rfl), pre3]
  rw [Finset.sum_congr rfl fun k _ => hs k]
  rfl

/-- The deviation from the column mean, at (a, j). -/
theorem dev3 (a : Fin 65536) (j : Fin 100) :
    val_main_v90 (F := Ideal) x0 x1 x2 x3 x4 x5 x6 x7 x8 x9 x10 (ix2 a j) = P3 x0 x1 x2 x3 x4 x5 x6 x7 x8 x9 x10 a j - Spec.mean (P3 x0 x1 x2 x3 x4 x5 x6 x7 x8 x9 x10) j := by
  rw [val_main_v90_apply, val_main_v89_apply, val_main_v88_apply, pre3,
    show idx_main_v88 (idx_main_v89 (ix2 a j)) = ix1 j from
      funext fun d => Fin.ext (by match d with | ⟨0, _⟩ => rfl), mean3]
  rfl

/-- The column variance: the mean of the squared deviations. -/
theorem var3 (j : Fin 100) : val_main_v94 (F := Ideal) x0 x1 x2 x3 x4 x5 x6 x7 x8 x9 x10 (ix1 j) = Spec.varDev (P3 x0 x1 x2 x3 x4 x5 x6 x7 x8 x9 x10) j := by
  rw [val_main_v94_apply, val_main_v92_apply, val_main_cst_26_apply, val_main_v93_apply, val_main_cst_27_apply]
  have hs : ∀ k : Fin 65536, val_main_v91 (F := Ideal) x0 x1 x2 x3 x4 x5 x6 x7 x8 x9 x10 (idx_main_v92 (ix1 j) k)
      = (P3 x0 x1 x2 x3 x4 x5 x6 x7 x8 x9 x10 k j - Spec.mean (P3 x0 x1 x2 x3 x4 x5 x6 x7 x8 x9 x10) j) * (P3 x0 x1 x2 x3 x4 x5 x6 x7 x8 x9 x10 k j - Spec.mean (P3 x0 x1 x2 x3 x4 x5 x6 x7 x8 x9 x10) j) := fun k => by
    rw [show idx_main_v92 (ix1 j) k = ix2 k j from
      funext fun d => Fin.ext (by match d with | ⟨0, _⟩ => rfl | ⟨1, _⟩ => rfl), val_main_v91_apply, dev3]
    rfl
  rw [Finset.sum_congr rfl fun k _ => hs k]
  rfl

/-- The reciprocal square root of the variance plus ε, at column j. -/
theorem scale3 (j : Fin 100) :
    val_main_v103 (F := Ideal) x0 x1 x2 x3 x4 x5 x6 x7 x8 x9 x10 (ix1 j) = Ideal.rsqrt (Spec.varDev (P3 x0 x1 x2 x3 x4 x5 x6 x7 x8 x9 x10) j + Spec.eps) := by
  rw [val_main_v103_apply, val_main_v102_apply, val_main_v101_apply, val_main_cst_28_apply, var3]
  rfl

/-- The normalised, scaled and shifted pre-activation, at (a, j). -/
theorem norm3 (a : Fin 65536) (j : Fin 100) :
    val_main_v109 (F := Ideal) x0 x1 x2 x3 x4 x5 x6 x7 x8 x9 x10 x11 x12 (ix2 a j)
      = x11 (ix1 j) * (P3 x0 x1 x2 x3 x4 x5 x6 x7 x8 x9 x10 a j - Spec.mean (P3 x0 x1 x2 x3 x4 x5 x6 x7 x8 x9 x10) j)
          * Ideal.rsqrt (Spec.varDev (P3 x0 x1 x2 x3 x4 x5 x6 x7 x8 x9 x10) j + Spec.eps) + x12 (ix1 j) := by
  rw [val_main_v109_apply, val_main_v106_apply, val_main_v100_apply, val_main_v99_apply, val_main_v98_apply,
    val_main_v97_apply, val_main_v96_apply, val_main_v95_apply, val_main_v105_apply, val_main_v104_apply,
    val_main_v108_apply, val_main_v107_apply, pre3,
    show idx_main_v98 (idx_main_v99 (ix2 a j)) = ix1 j from
      funext fun d => Fin.ext (by match d with | ⟨0, _⟩ => rfl),
    show idx_main_v95 (idx_main_v96 (ix2 a j)) = ix1 j from
      funext fun d => Fin.ext (by match d with | ⟨0, _⟩ => rfl),
    show idx_main_v104 (idx_main_v105 (ix2 a j)) = ix1 j from
      funext fun d => Fin.ext (by match d with | ⟨0, _⟩ => rfl),
    show idx_main_v107 (idx_main_v108 (ix2 a j)) = ix1 j from
      funext fun d => Fin.ext (by match d with | ⟨0, _⟩ => rfl),
    mean3, scale3]
  rfl

/-- The layer's activation: the sign of the normalised pre-activation. -/
theorem hid3 (a : Fin 65536) (j : Fin 100) :
    val_main_v113 (F := Ideal) x0 x1 x2 x3 x4 x5 x6 x7 x8 x9 x10 x11 x12 (ix2 a j) = H3 x0 x1 x2 x3 x4 x5 x6 x7 x8 x9 x10 x11 x12 a j := by
  rw [val_main_v113_apply, val_main_v112_apply, val_main_v111_apply, val_main_v110_apply, val_main_cst_29_apply,
    val_main_call5_v0_apply, val_main_cst_30_apply, val_main_call5_v1_apply, val_main_cst_31_apply, norm3]
  rfl

/-! ## The logits and the log-softmax -/

/-- The logits, as the specification names them: the last layer on the third layer's activations. -/
abbrev Z : Fin 65536 → Fin 10 → EReal := Spec.lin (H3 x0 x1 x2 x3 x4 x5 x6 x7 x8 x9 x10 x11 x12) (c2 x13) (c1 x14)

/-- The sign matrix of the last layer's weights at (j, k). -/
theorem sgn4 (j : Fin 10) (k : Fin 100) :
    val_main_v117 (F := Ideal) x13 (ix2 j k) = Spec.sgn (x13 (ix2 j k)) := by
  rw [val_main_v117_apply, val_main_v116_apply, val_main_v115_apply, val_main_v114_apply, val_main_cst_32_apply,
    val_main_call6_v0_apply, val_main_cst_33_apply, val_main_call6_v1_apply, val_main_cst_34_apply]
  rfl

/-- The product of row a of the third layer's activations with row j of the sign matrix. -/
theorem dot4 (a : Fin 65536) (j : Fin 10) :
    val_main_v119 (F := Ideal) x0 x1 x2 x3 x4 x5 x6 x7 x8 x9 x10 x11 x12 x13 (ix2 a j)
      = ∑ k : Fin 100, H3 x0 x1 x2 x3 x4 x5 x6 x7 x8 x9 x10 x11 x12 a k * Spec.sgn (x13 (ix2 j k)) := by
  rw [val_main_v119_apply]
  refine Finset.sum_congr rfl fun k _ => ?_
  rw [val_main_v118_apply,
    show lidx_main_v119 (ix2 a j) k = ix2 a k from
      funext fun d => Fin.ext (by match d with | ⟨0, _⟩ => rfl | ⟨1, _⟩ => rfl),
    show idx_main_v118 (ridx_main_v119 (ix2 a j) k) = ix2 j k from
      funext fun d => Fin.ext (by match d with | ⟨0, _⟩ => rfl | ⟨1, _⟩ => rfl),
    sgn4, hid3]

/-- The bias broadcast down the batch, at (a, j), is the bias at j. -/
theorem bias4 (a : Fin 65536) (j : Fin 10) : val_main_v121 (F := Ideal) x14 (ix2 a j) = x14 (ix1 j) := by
  rw [val_main_v121_apply, val_main_v120_apply]
  exact congrArg x14 (funext fun d => Fin.ext (by match d with | ⟨0, _⟩ => rfl))

/-- The logits. -/
theorem logits (a : Fin 65536) (j : Fin 10) : val_main_v122 (F := Ideal) x0 x1 x2 x3 x4 x5 x6 x7 x8 x9 x10 x11 x12 x13 x14 (ix2 a j) = Z x0 x1 x2 x3 x4 x5 x6 x7 x8 x9 x10 x11 x12 x13 x14 a j := by
  rw [val_main_v122_apply, dot4, bias4]
  rfl

/-- The index of row a with the coordinate c put back on the reduced axis is (a, c). -/
theorem lift_row (h : S65536x10.Reduces [1] S65536) (a : Fin 65536) (c : Fin (S65536x10.size 1)) :
    h.lift (ix1 a) c = ix2 a (⟨c.val, c.isLt⟩ : Fin 10) := by
  funext d; apply Fin.ext
  fin_cases d <;> rfl

/-- The row maximum: the host's reduction with a maximum body over the row's axis is the fold of the maximum from −∞
    over the row's ten logits. -/
theorem rowmax (a : Fin 65536) :
    val_main_call7_v0 (F := Ideal) x0 x1 x2 x3 x4 x5 x6 x7 x8 x9 x10 x11 x12 x13 x14 (ix1 a) = Spec.rowMax (Z x0 x1 x2 x3 x4 x5 x6 x7 x8 x9 x10 x11 x12 x13 x14) a := by
  unfold val_main_call7_v0
  have h : S65536x10.Reduces [1] S65536 := by decide
  rw [Host.reduce_eq_fold_single FloatOps.maximumf _ _ reducesTo_S65536x10_S65536_d1 h h_S_]
  have hf : (val_main_v122 (F := Ideal) x0 x1 x2 x3 x4 x5 x6 x7 x8 x9 x10 x11 x12 x13 x14 ∘ h.lift (ix1 a)) = fun c : Fin 10 => Z x0 x1 x2 x3 x4 x5 x6 x7 x8 x9 x10 x11 x12 x13 x14 a c :=
    funext fun c => by
      show val_main_v122 (F := Ideal) x0 x1 x2 x3 x4 x5 x6 x7 x8 x9 x10 x11 x12 x13 x14 (h.lift (ix1 a) c) = _
      rw [lift_row h a c]
      exact logits x0 x1 x2 x3 x4 x5 x6 x7 x8 x9 x10 x11 x12 x13 x14 a ⟨c.val, c.isLt⟩
  exact congrArg (fun f => Finset.fold max (Ideal.ofBits .f32 0xFF800000#32) f (Finset.univ : Finset (Fin 10))) hf

/-- A logit less the row's maximum (taken once more against −∞), at (a, c). -/
theorem shifted (a : Fin 65536) (c : Fin 10) :
    val_main_call7_v5 (F := Ideal) x0 x1 x2 x3 x4 x5 x6 x7 x8 x9 x10 x11 x12 x13 x14 (ix2 a c)
      = Z x0 x1 x2 x3 x4 x5 x6 x7 x8 x9 x10 x11 x12 x13 x14 a c - max Spec.ninf (Spec.rowMax (Z x0 x1 x2 x3 x4 x5 x6 x7 x8 x9 x10 x11 x12 x13 x14) a) := by
  rw [val_main_call7_v5_apply, val_main_call7_v4_apply, val_main_call7_v3_apply, val_main_call7_v2_apply,
    val_main_call7_v1_apply, val_main_call7_cst_0_apply, logits,
    show idx_main_call7_v3 (idx_main_call7_v4 (ix2 a c)) = ix1 a from
      funext fun d => Fin.ext (by match d with | ⟨0, _⟩ => rfl), rowmax]
  rfl

/-- The sum of the row's exponentials, started from 0. -/
theorem sumexp (a : Fin 65536) :
    val_main_call7_v7 (F := Ideal) x0 x1 x2 x3 x4 x5 x6 x7 x8 x9 x10 x11 x12 x13 x14 (ix1 a)
      = Spec.zero + ∑ c : Fin 10, Ideal.exp (Z x0 x1 x2 x3 x4 x5 x6 x7 x8 x9 x10 x11 x12 x13 x14 a c - max Spec.ninf (Spec.rowMax (Z x0 x1 x2 x3 x4 x5 x6 x7 x8 x9 x10 x11 x12 x13 x14) a)) := by
  rw [val_main_call7_v7_apply, val_main_call7_cst_1_apply]
  have hs : ∀ c : Fin 10, val_main_call7_v6 (F := Ideal) x0 x1 x2 x3 x4 x5 x6 x7 x8 x9 x10 x11 x12 x13 x14 (idx_main_call7_v7 (ix1 a) c)
      = Ideal.exp (Z x0 x1 x2 x3 x4 x5 x6 x7 x8 x9 x10 x11 x12 x13 x14 a c - max Spec.ninf (Spec.rowMax (Z x0 x1 x2 x3 x4 x5 x6 x7 x8 x9 x10 x11 x12 x13 x14) a)) := fun c => by
    rw [show idx_main_call7_v7 (ix1 a) c = ix2 a c from
      funext fun d => Fin.ext (by match d with | ⟨0, _⟩ => rfl | ⟨1, _⟩ => rfl), val_main_call7_v6_apply, shifted]
    rfl
  rw [Finset.sum_congr rfl fun c _ => hs c]
  rfl

/-- The result at (a, c): the log-softmax of row a of the logits. -/
theorem out_eq (a : Fin 65536) (c : Fin 10) :
    val_main_v123 (F := Ideal) x0 x1 x2 x3 x4 x5 x6 x7 x8 x9 x10 x11 x12 x13 x14 (ix2 a c)
      = Spec.outB (c2 x0) (c2 x1) (c1 x2) (c1 x3) (c1 x4) (c2 x5) (c1 x6) (c1 x7) (c1 x8) (c2 x9) (c1 x10) (c1 x11) (c1 x12) (c2 x13) (c1 x14) a c := by
  rw [val_main_v123_apply, val_main_call7_v10_apply, val_main_call7_v9_apply, val_main_call7_v8_apply, shifted,
    show idx_main_call7_v8 (idx_main_call7_v10 (ix2 a c)) = ix1 a from
      funext fun d => Fin.ext (by match d with | ⟨0, _⟩ => rfl), sumexp]
  rfl

/-- The reference's result at an index is the specification's network at the index's coordinates. -/
theorem result_eq (i : S65536x10.Idx) :
    val_main_v123 (F := Ideal) x0 x1 x2 x3 x4 x5 x6 x7 x8 x9 x10 x11 x12 x13 x14 i
      = Spec.outB (fun a k => x0 (ix2 a k)) (fun j k => x1 (ix2 j k)) (fun j => x2 (ix1 j)) (fun j => x3 (ix1 j))
          (fun j => x4 (ix1 j)) (fun j k => x5 (ix2 j k)) (fun j => x6 (ix1 j)) (fun j => x7 (ix1 j))
          (fun j => x8 (ix1 j)) (fun j k => x9 (ix2 j k)) (fun j => x10 (ix1 j)) (fun j => x11 (ix1 j))
          (fun j => x12 (ix1 j)) (fun j k => x13 (ix2 j k)) (fun j => x14 (ix1 j)) (i 0) (i 1) := by
  obtain ⟨a, c, rfl⟩ : ∃ (a : Fin 65536) (c : Fin 10), i = ix2 a c := ⟨i 0, i 1, eq_ix2 i⟩
  exact out_eq x0 x1 x2 x3 x4 x5 x6 x7 x8 x9 x10 x11 x12 x13 x14 a c

end Cert.RefValue

end
-- ==== Proof.RefRunTop.lean ====
/-
  The reference program's run, stated by the specification.

  The straight line of the reference's operations, run from the launch's buffer contents, leaves in the result buffer the
  program's last stage of the argument buffers, which is the specification's network read at each index; and no
  operation of the line writes an argument's buffer.
-/
import proofs.«120646_j47201690583464_2_alg».proof.Proof.RefRun
import proofs.«120646_j47201690583464_2_alg».proof.Proof.RefValue
import proofs.«120646_j47201690583464_2_alg».proof.Proof.Spec

noncomputable section

namespace Cert.RefRun

open Cert.ReferenceIdeal Cert.ReferenceIdeal.Gen Idealize.ShloMosaic Idealize.ShloMosaic.ValueIdx Idealize.ShloMosaic.TcCoe
  Idealize.SL.Sem Idealize.ShloMosaic.StableHlo

section Keep
variable (W : Valuation τ sig (Elt Ideal))

/-! ## The arguments after the whole line

No operation of the line writes an argument's buffer. -/

set_option maxRecDepth 8192 in
set_option maxHeartbeats 4000000 in
theorem keep_arg0 : after (ValueP.ops (F := Ideal)) W (Proc.devRef .tc main_arg0) = W (Proc.devRef .tc main_arg0) := by
  after_results_simp <;> rfl
set_option maxRecDepth 8192 in
set_option maxHeartbeats 4000000 in
theorem keep_arg1 : after (ValueP.ops (F := Ideal)) W (Proc.devRef .tc main_arg1) = W (Proc.devRef .tc main_arg1) := by
  after_results_simp <;> rfl
set_option maxRecDepth 8192 in
set_option maxHeartbeats 4000000 in
theorem keep_arg2 : after (ValueP.ops (F := Ideal)) W (Proc.devRef .tc main_arg2) = W (Proc.devRef .tc main_arg2) := by
  after_results_simp <;> rfl
set_option maxRecDepth 8192 in
set_option maxHeartbeats 4000000 in
theorem keep_arg3 : after (ValueP.ops (F := Ideal)) W (Proc.devRef .tc main_arg3) = W (Proc.devRef .tc main_arg3) := by
  after_results_simp <;> rfl
set_option maxRecDepth 8192 in
set_option maxHeartbeats 4000000 in
theorem keep_arg4 : after (ValueP.ops (F := Ideal)) W (Proc.devRef .tc main_arg4) = W (Proc.devRef .tc main_arg4) := by
  after_results_simp <;> rfl
set_option maxRecDepth 8192 in
set_option maxHeartbeats 4000000 in
theorem keep_arg5 : after (ValueP.ops (F := Ideal)) W (Proc.devRef .tc main_arg5) = W (Proc.devRef .tc main_arg5) := by
  after_results_simp <;> rfl
set_option maxRecDepth 8192 in
set_option maxHeartbeats 4000000 in
theorem keep_arg6 : after (ValueP.ops (F := Ideal)) W (Proc.devRef .tc main_arg6) = W (Proc.devRef .tc main_arg6) := by
  after_results_simp <;> rfl
set_option maxRecDepth 8192 in
set_option maxHeartbeats 4000000 in
theorem keep_arg7 : after (ValueP.ops (F := Ideal)) W (Proc.devRef .tc main_arg7) = W (Proc.devRef .tc main_arg7) := by
  after_results_simp <;> rfl
set_option maxRecDepth 8192 in
set_option maxHeartbeats 4000000 in
theorem keep_arg8 : after (ValueP.ops (F := Ideal)) W (Proc.devRef .tc main_arg8) = W (Proc.devRef .tc main_arg8) := by
  after_results_simp <;> rfl
set_option maxRecDepth 8192 in
set_option maxHeartbeats 4000000 in
theorem keep_arg9 : after (ValueP.ops (F := Ideal)) W (Proc.devRef .tc main_arg9) = W (Proc.devRef .tc main_arg9) := by
  after_results_simp <;> rfl
set_option maxRecDepth 8192 in
set_option maxHeartbeats 4000000 in
theorem keep_arg10 : after (ValueP.ops (F := Ideal)) W (Proc.devRef .tc main_arg10) = W (Proc.devRef .tc main_arg10) := by
  after_results_simp <;> rfl
set_option maxRecDepth 8192 in
set_option maxHeartbeats 4000000 in
theorem keep_arg11 : after (ValueP.ops (F := Ideal)) W (Proc.devRef .tc main_arg11) = W (Proc.devRef .tc main_arg11) := by
  after_results_simp <;> rfl
set_option maxRecDepth 8192 in
set_option maxHeartbeats 4000000 in
theorem keep_arg12 : after (ValueP.ops (F := Ideal)) W (Proc.devRef .tc main_arg12) = W (Proc.devRef .tc main_arg12) := by
  after_results_simp <;> rfl
set_option maxRecDepth 8192 in
set_option maxHeartbeats 4000000 in
theorem keep_arg13 : after (ValueP.ops (F := Ideal)) W (Proc.devRef .tc main_arg13) = W (Proc.devRef .tc main_arg13) := by
  after_results_simp <;> rfl
set_option maxRecDepth 8192 in
set_option maxHeartbeats 4000000 in
theorem keep_arg14 : after (ValueP.ops (F := Ideal)) W (Proc.devRef .tc main_arg14) = W (Proc.devRef .tc main_arg14) := by
  after_results_simp <;> rfl

end Keep

/-- On every device, from any memory with zero counters: every weakly fair execution of the reference terminates with the
    result buffer holding the specification's network of the argument buffers, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v123)
        = (fun i => Spec.outB (fun a k => (m ((c.tc : Thread nD τ).loc main_arg0)) (ix2 a k))
            (fun a k => (m ((c.tc : Thread nD τ).loc main_arg1)) (ix2 a k))
            (fun j => (m ((c.tc : Thread nD τ).loc main_arg2)) (ix1 j))
            (fun j => (m ((c.tc : Thread nD τ).loc main_arg3)) (ix1 j))
            (fun j => (m ((c.tc : Thread nD τ).loc main_arg4)) (ix1 j))
            (fun a k => (m ((c.tc : Thread nD τ).loc main_arg5)) (ix2 a k))
            (fun j => (m ((c.tc : Thread nD τ).loc main_arg6)) (ix1 j))
            (fun j => (m ((c.tc : Thread nD τ).loc main_arg7)) (ix1 j))
            (fun j => (m ((c.tc : Thread nD τ).loc main_arg8)) (ix1 j))
            (fun a k => (m ((c.tc : Thread nD τ).loc main_arg9)) (ix2 a k))
            (fun j => (m ((c.tc : Thread nD τ).loc main_arg10)) (ix1 j))
            (fun j => (m ((c.tc : Thread nD τ).loc main_arg11)) (ix1 j))
            (fun j => (m ((c.tc : Thread nD τ).loc main_arg12)) (ix1 j))
            (fun a k => (m ((c.tc : Thread nD τ).loc main_arg13)) (ix2 a k))
            (fun j => (m ((c.tc : Thread nD τ).loc main_arg14)) (ix1 j))
            (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun _ h c => ⟨(h c main_v123).trans ((after_ops (launchContents m c)).trans
        (funext fun i => Cert.RefValue.result_eq _ _ _ _ _ _ _ _ _ _ _ _ _ _ _ i)),
      (h c main_arg0).trans (keep_arg0 (launchContents m c)),
      (h c main_arg1).trans (keep_arg1 (launchContents m c)),
      (h c main_arg2).trans (keep_arg2 (launchContents m c)),
      (h c main_arg3).trans (keep_arg3 (launchContents m c)),
      (h c main_arg4).trans (keep_arg4 (launchContents m c)),
      (h c main_arg5).trans (keep_arg5 (launchContents m c)),
      (h c main_arg6).trans (keep_arg6 (launchContents m c)),
      (h c main_arg7).trans (keep_arg7 (launchContents m c)),
      (h c main_arg8).trans (keep_arg8 (launchContents m c)),
      (h c main_arg9).trans (keep_arg9 (launchContents m c)),
      (h c main_arg10).trans (keep_arg10 (launchContents m c)),
      (h c main_arg11).trans (keep_arg11 (launchContents m c)),
      (h c main_arg12).trans (keep_arg12 (launchContents m c)),
      (h c main_arg13).trans (keep_arg13 (launchContents m c)),
      (h c main_arg14).trans (keep_arg14 (launchContents m c))⟩)
    (run_seq ValueP.scopedRefs_eq ValueP.scopedSems_eq defs main (fun _ => ValueP.ops) ValueP.main_eq (fun _ => ValueP.ops_sub) m ρ)

end Cert.RefRun

end
-- ==== Proof.Bridge.lean ====
/-
  The two forms of the network of the specification compute one function when the input and the three hidden biases
  are finite.

  A real activation a has a − a = 0, so the residue product of the first layer vanishes.  A layer of real
  activations with a real bias is real whatever the weights are, since the weights enter only through their signs,
  which are ±1.  For a real column y over a batch of n = 65536 rows with mean μ = (Σ y)/n,
      (Σ y²)/n − μ² = (Σ (y − μ)²)/n,
  by expanding (y − μ)² = y² − 2μy + μ² and Σ μ² = n·μ².  The activations after a normalisation are signs, hence real
  again, so the argument repeats layer by layer.  In the log-softmax, max(−∞, m) = m and 0 + s = s.
-/
import proofs.«120646_j47201690583464_2_alg».proof.Proof.Spec

noncomputable section

namespace Cert.Bridge

open Idealize.ShloMosaic
open Cert.Spec

/-! ### The literal words -/

/-- The word of 0. -/
theorem zero_eq : Spec.zero = 0 := by
  simp [Ideal.ofBits, Ideal.ieee]

/-- The word of 1. -/
theorem pos1_eq : Spec.pos1 = ((1 : ℝ) : EReal) := by
  simp [Ideal.ofBits, Ideal.ieee, -EReal.coe_mul]; norm_num

/-- The word of −1. -/
theorem neg1_eq : Spec.neg1 = ((-1 : ℝ) : EReal) := by
  simp [Ideal.ofBits, Ideal.ieee, -EReal.coe_mul]; norm_num

/-- The word of the batch size 65536. -/
theorem cnt_eq : Spec.cnt = ((65536 : ℝ) : EReal) := by
  simp [Ideal.ofBits, Ideal.ieee, -EReal.coe_mul]; norm_num

/-- The word of −∞. -/
theorem ninf_eq : Spec.ninf = ⊥ := by
  simp [Ideal.ofBits, Ideal.ieee]

/-! ### Sums of reals -/

/-- The coercion of a finite sum of reals is the sum of the coercions. -/
theorem coe_sum {ι : Type*} (s : Finset ι) (f : ι → ℝ) :
    ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- The variance identity over the reals: the mean of the squares minus the square of the mean is the mean of the
    squared deviations from the mean. -/
theorem real_var {n : ℕ} (c : ℝ) (hc : (n : ℝ) = c) (hc0 : c ≠ 0) (y : Fin n → ℝ) :
    (∑ i, y i * y i) * (1 / c) - ((∑ i, y i) * (1 / c)) * ((∑ i, y i) * (1 / c))
      = (∑ i, (y i - (∑ i, y i) * (1 / c)) * (y i - (∑ i, y i) * (1 / c))) * (1 / c) := by
  have h1 : ∀ μ : ℝ, ∑ i, (y i - μ) * (y i - μ) = (∑ i, y i * y i) - 2 * μ * (∑ i, y i) + c * (μ * μ) := by
    intro μ
    have h2 : ∀ i, (y i - μ) * (y i - μ) = y i * y i - 2 * μ * y i + μ * μ := fun i => by ring
    simp only [h2, Finset.sum_add_distrib, Finset.sum_sub_distrib, ← Finset.mul_sum, Finset.sum_const,
      Finset.card_univ, Fintype.card_fin, nsmul_eq_mul, hc]
    ring
  rw [h1]
  field_simp
  ring

/-! ### The sign is a real -/

/-- The sign is 1 or −1, a real, at every extended real. -/
theorem sgn_real (v : EReal) : ∃ r : ℝ, Spec.sgn v = (r : EReal) := by
  unfold Spec.sgn Scalar.select
  split
  · exact ⟨1, pos1_eq⟩
  · exact ⟨-1, neg1_eq⟩

/-- A finite sum of reals is a real. -/
theorem sum_real {ι : Type*} [Fintype ι] (f : ι → EReal) (h : ∀ i, ∃ r : ℝ, f i = (r : EReal)) :
    ∃ r : ℝ, ∑ i, f i = (r : EReal) := by
  choose y hy using h
  exact ⟨∑ i, y i, by simp only [hy]; exact coe_sum _ _⟩

variable {B K H C : ℕ}

/-! ### The layer -/

/-- With real activations the residue product vanishes. -/
theorem linSplit_eq_lin (a : Fin B → Fin K → EReal) (w : Fin H → Fin K → EReal) (b : Fin H → EReal)
    (ha : ∀ i k, ∃ r : ℝ, a i k = (r : EReal)) : Spec.linSplit a w b = Spec.lin a w b := by
  funext i j
  unfold Spec.linSplit Spec.lin
  have h0 : ∀ k, (a i k - a i k) * Spec.sgn (w j k) = 0 := by
    intro k
    obtain ⟨r, hr⟩ := ha i k
    rw [hr, ← EReal.coe_sub, sub_self, EReal.coe_zero, zero_mul]
  simp only [h0, Finset.sum_const_zero, add_zero]

/-- A layer of real activations with a real bias is real, whatever the weights. -/
theorem lin_real (a : Fin B → Fin K → EReal) (w : Fin H → Fin K → EReal) (b : Fin H → EReal)
    (ha : ∀ i k, ∃ r : ℝ, a i k = (r : EReal)) (hb : ∀ j, ∃ r : ℝ, b j = (r : EReal)) (i : Fin B) (j : Fin H) :
    ∃ r : ℝ, Spec.lin a w b i j = (r : EReal) := by
  unfold Spec.lin
  obtain ⟨s, hs⟩ := sum_real (fun k => a i k * Spec.sgn (w j k)) (fun k => by
    obtain ⟨r, hr⟩ := ha i k
    obtain ⟨t, ht⟩ := sgn_real (w j k)
    exact ⟨r * t, by rw [hr, ht, EReal.coe_mul]⟩)
  obtain ⟨t, ht⟩ := hb j
  exact ⟨s + t, by rw [hs, ht, EReal.coe_add]⟩

/-- The activations after a normalisation are signs, hence real. -/
theorem act_real (p : Fin B → Fin H → EReal) (mu var g be : Fin H → EReal) (i : Fin B) (j : Fin H) :
    ∃ r : ℝ, Spec.act p mu var g be i j = (r : EReal) := by
  unfold Spec.act
  exact sgn_real _

/-! ### The variance -/

/-- The column mean of a real array is the real mean. -/
theorem mean_coe (y : Fin 65536 → Fin H → ℝ) (j : Fin H) :
    Spec.mean (fun i j => (y i j : EReal)) j = (((∑ i, y i j) * (1 / 65536) : ℝ) : EReal) := by
  unfold Spec.mean
  rw [cnt_eq, zero_eq, zero_add, Ideal.div_coe (by norm_num), coe_sum, ← EReal.coe_mul]

/-- For a real array the two forms of the column variance are one number. -/
theorem varSq_eq_varDev (p : Fin 65536 → Fin H → EReal) (hp : ∀ i j, ∃ r : ℝ, p i j = (r : EReal)) :
    Spec.varSq p = Spec.varDev p := by
  choose y hy using hp
  obtain rfl : p = fun i j => (y i j : EReal) := funext fun i => funext fun j => hy i j
  funext j
  unfold Spec.varSq Spec.varDev
  rw [mean_coe]
  simp only [← EReal.coe_mul, ← EReal.coe_sub, coe_sum]
  rw [cnt_eq, zero_eq, zero_add, zero_add, Ideal.div_coe (by norm_num), Ideal.div_coe (by norm_num),
    ← EReal.coe_mul, ← EReal.coe_mul, ← EReal.coe_sub]
  exact congrArg _ (real_var (n := 65536) 65536 (by norm_num) (by norm_num) fun i => y i j)

/-! ### The log-softmax -/

/-- Starting the folds from their neutral values changes nothing: max(−∞, m) = m and 0 + s = s. -/
theorem lsmInit_eq_lsm (z : Fin B → Fin C → EReal) : Spec.lsmInit z = Spec.lsm z := by
  funext i j
  unfold Spec.lsmInit Spec.lsm
  rw [ninf_eq, zero_eq, zero_add, max_eq_right bot_le]

/-! ### The two networks, layer by layer -/

section Net
variable (x : Fin 65536 → Fin 1024 → EReal) (w1 : Fin 200 → Fin 1024 → EReal) (b1 g1 be1 : Fin 200 → EReal)
  (w2 : Fin 100 → Fin 200 → EReal) (b2 g2 be2 : Fin 100 → EReal)
  (w3 : Fin 100 → Fin 100 → EReal) (b3 g3 be3 : Fin 100 → EReal)
  (w5 : Fin 10 → Fin 100 → EReal) (b5 : Fin 10 → EReal)

/-- First layer: the two pre-activations agree on a finite input. -/
theorem preA1_eq (hx : ∀ i k, ∃ r : ℝ, x i k = (r : EReal)) : Spec.preA1 x w1 b1 = Spec.preB1 x w1 b1 := by
  unfold Spec.preA1 Spec.preB1
  exact linSplit_eq_lin x w1 b1 hx

/-- First layer: the pre-activations are real. -/
theorem preB1_real (hx : ∀ i k, ∃ r : ℝ, x i k = (r : EReal)) (hb1 : ∀ j, ∃ r : ℝ, b1 j = (r : EReal)) (i : Fin 65536)
    (j : Fin 200) : ∃ r : ℝ, Spec.preB1 x w1 b1 i j = (r : EReal) := by
  unfold Spec.preB1
  exact lin_real x w1 b1 hx hb1 i j

/-- First layer: the two activations agree, the two variances being one number on real pre-activations. -/
theorem hidA1_eq (hx : ∀ i k, ∃ r : ℝ, x i k = (r : EReal)) (hb1 : ∀ j, ∃ r : ℝ, b1 j = (r : EReal)) :
    Spec.hidA1 x w1 b1 g1 be1 = Spec.hidB1 x w1 b1 g1 be1 := by
  unfold Spec.hidA1 Spec.hidB1
  rw [preA1_eq x w1 b1 hx, varSq_eq_varDev _ (preB1_real x w1 b1 hx hb1)]

/-- First layer: the activations are signs, hence real. -/
theorem hidB1_real (i : Fin 65536) (j : Fin 200) : ∃ r : ℝ, Spec.hidB1 x w1 b1 g1 be1 i j = (r : EReal) := by
  unfold Spec.hidB1
  exact act_real _ _ _ _ _ i j

/-- Second layer: the two pre-activations agree. -/
theorem preA2_eq (hx : ∀ i k, ∃ r : ℝ, x i k = (r : EReal)) (hb1 : ∀ j, ∃ r : ℝ, b1 j = (r : EReal)) :
    Spec.preA2 x w1 b1 g1 be1 w2 b2 = Spec.preB2 x w1 b1 g1 be1 w2 b2 := by
  unfold Spec.preA2 Spec.preB2
  rw [hidA1_eq x w1 b1 g1 be1 hx hb1]

/-- Second layer: the pre-activations are real. -/
theorem preB2_real (hb2 : ∀ j, ∃ r : ℝ, b2 j = (r : EReal)) (i : Fin 65536) (j : Fin 100) :
    ∃ r : ℝ, Spec.preB2 x w1 b1 g1 be1 w2 b2 i j = (r : EReal) := by
  unfold Spec.preB2
  exact lin_real _ w2 b2 (hidB1_real x w1 b1 g1 be1) hb2 i j

/-- Second layer: the two activations agree. -/
theorem hidA2_eq (hx : ∀ i k, ∃ r : ℝ, x i k = (r : EReal)) (hb1 : ∀ j, ∃ r : ℝ, b1 j = (r : EReal))
    (hb2 : ∀ j, ∃ r : ℝ, b2 j = (r : EReal)) :
    Spec.hidA2 x w1 b1 g1 be1 w2 b2 g2 be2 = Spec.hidB2 x w1 b1 g1 be1 w2 b2 g2 be2 := by
  unfold Spec.hidA2 Spec.hidB2
  rw [preA2_eq x w1 b1 g1 be1 w2 b2 hx hb1, varSq_eq_varDev _ (preB2_real x w1 b1 g1 be1 w2 b2 hb2)]

/-- Second layer: the activations are signs, hence real. -/
theorem hidB2_real (i : Fin 65536) (j : Fin 100) :
    ∃ r : ℝ, Spec.hidB2 x w1 b1 g1 be1 w2 b2 g2 be2 i j = (r : EReal) := by
  unfold Spec.hidB2
  exact act_real _ _ _ _ _ i j

/-- Third layer: the two pre-activations agree. -/
theorem preA3_eq (hx : ∀ i k, ∃ r : ℝ, x i k = (r : EReal)) (hb1 : ∀ j, ∃ r : ℝ, b1 j = (r : EReal))
    (hb2 : ∀ j, ∃ r : ℝ, b2 j = (r : EReal)) :
    Spec.preA3 x w1 b1 g1 be1 w2 b2 g2 be2 w3 b3 = Spec.preB3 x w1 b1 g1 be1 w2 b2 g2 be2 w3 b3 := by
  unfold Spec.preA3 Spec.preB3
  rw [hidA2_eq x w1 b1 g1 be1 w2 b2 g2 be2 hx hb1 hb2]

/-- Third layer: the pre-activations are real. -/
theorem preB3_real (hb3 : ∀ j, ∃ r : ℝ, b3 j = (r : EReal)) (i : Fin 65536) (j : Fin 100) :
    ∃ r : ℝ, Spec.preB3 x w1 b1 g1 be1 w2 b2 g2 be2 w3 b3 i j = (r : EReal) := by
  unfold Spec.preB3
  exact lin_real _ w3 b3 (hidB2_real x w1 b1 g1 be1 w2 b2 g2 be2) hb3 i j

/-- Third layer: the two activations agree. -/
theorem hidA3_eq (hx : ∀ i k, ∃ r : ℝ, x i k = (r : EReal)) (hb1 : ∀ j, ∃ r : ℝ, b1 j = (r : EReal))
    (hb2 : ∀ j, ∃ r : ℝ, b2 j = (r : EReal)) (hb3 : ∀ j, ∃ r : ℝ, b3 j = (r : EReal)) :
    Spec.hidA3 x w1 b1 g1 be1 w2 b2 g2 be2 w3 b3 g3 be3 = Spec.hidB3 x w1 b1 g1 be1 w2 b2 g2 be2 w3 b3 g3 be3 := by
  unfold Spec.hidA3 Spec.hidB3
  rw [preA3_eq x w1 b1 g1 be1 w2 b2 g2 be2 w3 b3 hx hb1 hb2,
    varSq_eq_varDev _ (preB3_real x w1 b1 g1 be1 w2 b2 g2 be2 w3 b3 hb3)]

end Net

/-- The two networks agree on finite inputs and finite hidden biases. -/
theorem outA_eq_outB (x : Fin 65536 → Fin 1024 → EReal) (w1 : Fin 200 → Fin 1024 → EReal) (b1 g1 be1 : Fin 200 → EReal)
    (w2 : Fin 100 → Fin 200 → EReal) (b2 g2 be2 : Fin 100 → EReal)
    (w3 : Fin 100 → Fin 100 → EReal) (b3 g3 be3 : Fin 100 → EReal)
    (w5 : Fin 10 → Fin 100 → EReal) (b5 : Fin 10 → EReal)
    (hx : ∀ i k, ∃ r : ℝ, x i k = (r : EReal)) (hb1 : ∀ j, ∃ r : ℝ, b1 j = (r : EReal))
    (hb2 : ∀ j, ∃ r : ℝ, b2 j = (r : EReal)) (hb3 : ∀ j, ∃ r : ℝ, b3 j = (r : EReal)) :
    Cert.Spec.outA x w1 b1 g1 be1 w2 b2 g2 be2 w3 b3 g3 be3 w5 b5
      = Cert.Spec.outB x w1 b1 g1 be1 w2 b2 g2 be2 w3 b3 g3 be3 w5 b5 := by
  unfold Spec.outA Spec.outB
  rw [hidA3_eq x w1 b1 g1 be1 w2 b2 g2 be2 w3 b3 g3 be3 hx hb1 hb2 hb3, lsmInit_eq_lsm]

end Cert.Bridge

end
-- ==== Proof.Finite.lean ====
/-
  Finiteness out of the precondition.

  The precondition is the conjunction, over the fifteen argument arrays, of "every entry a has |a| < +∞".  On the extended
  reals |a| = max a (−a) is +∞ at both infinities, so an entry with |a| < +∞ is a real.  Here the conjunction is taken
  apart and the four arrays the algebra needs finite are read off.
-/
import Idealize.ShloMosaic.Lib.ReduceAll
import Idealize.ShloMosaic.Lib.ValueIdx
import Idealize.ShloMosaic.PureOps.Ideal.Laws
import proofs.«120646_j47201690583464_2_alg».proof.Pre_finite_inputs

noncomputable section

namespace Cert.Finite

open Idealize.ShloMosaic
open Cert.Pre_finite_inputs

/-- The word of +∞. -/
theorem inf_eq : Ideal.ofBits .f32 0x7F800000#32 = ⊤ := by
  simp [Ideal.ofBits, Ideal.ieee]

/-- An extended real whose absolute value compares below +∞ is a real. -/
theorem real_of_abs_lt (v : EReal)
    (h : Ideal.cmp .olt (max v (-v)) (Ideal.ofBits .f32 0x7F800000#32) = 1#1) : ∃ r : ℝ, v = (r : EReal) := by
  rw [inf_eq] at h
  induction v using EReal.rec with
  | bot => simp [Ideal.cmp] at h
  | coe r => exact ⟨r, rfl⟩
  | top => simp [Ideal.cmp] at h

/-- The rank-zero shape has one index. -/
instance : Subsingleton S_.Idx := ⟨fun a b => funext fun d => d.elim0⟩

/-- One conjunct of the precondition: the all-entries test of one array came out true, so every entry is a real. -/
theorem all_real {s : Shape} {axes : List (Fin s.rank)} (a : FVec Ideal s .f32)
    (hb : S_.BroadcastsInDim s (![] : Fin 0 → Fin s.rank)) (hr : s.ReducesTo axes S_) (hu : 0 < S_.numel) (j : S_.Idx)
    (e : Host.reduce IntOp.andi
      (cmpf .olt (Host.absf a) (broadcastInDim s ![] hb (constant (F := Ideal) S_ .f32 0x7F800000#32)))
      (constantI S_ 1 1#1) hr hu j = 1#1) (i : s.Idx) : ∃ r : ℝ, a i = (r : EReal) :=
  real_of_abs_lt (a i) (Host.reduce_andi_all _ _ hr hu j e i)

/-- Under the precondition the input and the three hidden biases are real at every entry. -/
theorem real_of_pre [Cert.Pre_finite_inputs.Facts]
    (a0 : FVec Ideal S65536x1024 .f32) (a1 : FVec Ideal S200x1024 .f32) (a2 : FVec Ideal S200 .f32)
    (a3 : FVec Ideal S200 .f32) (a4 : FVec Ideal S200 .f32) (a5 : FVec Ideal S100x200 .f32)
    (a6 : FVec Ideal S100 .f32) (a7 : FVec Ideal S100 .f32) (a8 : FVec Ideal S100 .f32)
    (a9 : FVec Ideal S100x100 .f32) (a10 : FVec Ideal S100 .f32) (a11 : FVec Ideal S100 .f32)
    (a12 : FVec Ideal S100 .f32) (a13 : FVec Ideal S10x100 .f32) (a14 : FVec Ideal S10 .f32)
    (h : Cert.Pre_finite_inputs.fn (F := Ideal) a0 a1 a2 a3 a4 a5 a6 a7 a8 a9 a10 a11 a12 a13 a14 = fun _ => 1#1) :
    (∀ i, ∃ r : ℝ, a0 i = (r : EReal)) ∧ (∀ i, ∃ r : ℝ, a2 i = (r : EReal)) ∧ (∀ i, ∃ r : ℝ, a6 i = (r : EReal))
      ∧ (∀ i, ∃ r : ℝ, a10 i = (r : EReal)) := by
  have h' := congrFun h ValueIdx.ix0
  dsimp only [Cert.Pre_finite_inputs.fn, Cert.Pre_finite_inputs.fn_part1, Cert.Pre_finite_inputs.fn_part2,
    Cert.Pre_finite_inputs.fn_part3, Cert.Pre_finite_inputs.fn_part4, andi] at h'
  simp only [IntOp.andi_eq_one] at h'
  obtain ⟨⟨⟨⟨⟨⟨⟨⟨⟨⟨⟨⟨⟨⟨h0, _⟩, h2⟩, _⟩, _⟩, _⟩, h6⟩, _⟩, _⟩, _⟩, h10⟩, _⟩, _⟩, _⟩, _⟩ := h'
  exact ⟨all_real a0 _ _ _ _ h0, all_real a2 _ _ _ _ h2, all_real a6 _ _ _ _ h6, all_real a10 _ _ _ _ h10⟩

end Cert.Finite

end
-- ==== Proof.Claims.lean ====
/-
  The five claims.

  The two kernel programs' frames are the generated ones; the reference's frame is its run with the result dropped; the one
  rewrite of the ideal pass (a round trip through the narrower float format removed) is that rule's statement.
  The algebraic claim: the idealized kernel's run ends with its result at the specification's network of the launched
  arguments in one form (first product split with a residue, variance as mean of squares minus squared mean); the reference's
  run ends at the specification's network in the other form (plain product, variance as mean of squared deviations, folds
  with their start values) of ITS arguments, which are the kernel's; and the two forms are one function when the input and
  the three hidden layers' biases are finite, which the precondition gives.
-/
import proofs.«120646_j47201690583464_2_alg».proof.Defs
import proofs.«120646_j47201690583464_2_alg».proof.Proof.Gen.Kernel.Frame
import proofs.«120646_j47201690583464_2_alg».proof.Proof.Gen.KernelIdeal.Frame
import proofs.«120646_j47201690583464_2_alg».proof.Proof.Gen.Pre_finite_inputs
import proofs.«120646_j47201690583464_2_alg».proof.Proof.Gen.ReferenceIdeal
import proofs.«120646_j47201690583464_2_alg».proof.Proof.KernelRun
import proofs.«120646_j47201690583464_2_alg».proof.Proof.Chain
import proofs.«120646_j47201690583464_2_alg».proof.Proof.RefRunTop
import proofs.«120646_j47201690583464_2_alg».proof.Proof.Bridge
import proofs.«120646_j47201690583464_2_alg».proof.Proof.Finite

set_option maxRecDepth 16384

noncomputable section

namespace Cert.Proof.Claims

open Idealize.ShloMosaic Idealize.ShloMosaic.TcCoe Idealize.ShloMosaic.ValueIdx Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.RefRun.run m ρ)

/-- The ideal pass's one rewrite: widening what was just narrowed gives back the value. -/
theorem preserves : Cert.preserves_Kernel_KernelIdeal := IdealRules.truncf_extf.statement _ .f32 .bf16

/-- Both runs end at one array: the specification's network of the kernel's launched arguments. -/
theorem algebraic : Cert.algebraic_KernelIdeal_ReferenceIdeal := by
  intro m ρ m' ρ' hpre hagree
  refine ⟨fun c => (Cert.KernelIdeal.Gen.W8 m ρ c (Proc.devRef .tc Cert.KernelIdeal.main_v43)), ?_, ?_⟩
  · exact Cert.KernelIdeal.Hand.run_fold (F := Ideal) m ρ
  · refine (θ_run Cert.ReferenceIdeal.defs _ _).mono (fun _ h c => ⟨(h c).1.trans ?_, (h c).2⟩) (Cert.RefRun.run m' ρ')
    obtain ⟨e0, e1, e2, e3, e4, e5, e6, e7, e8, e9, e10, e11, e12, e13, e14⟩ := hagree c
    obtain ⟨hx, hb1, hb2, hb3⟩ := Cert.Finite.real_of_pre _ _ _ _ _ _ _ _ _ _ _ _ _ _ _ (hpre c)
    refine Eq.trans ?_ (Cert.KernelIdeal.Chain.result_eq m ρ c).symm
    rw [e0, e1, e2, e3, e4, e5, e6, e7, e8, e9, e10, e11, e12, e13, e14]
    funext i
    exact (congrFun (congrFun (Cert.Bridge.outA_eq_outB _ _ _ _ _ _ _ _ _ _ _ _ _ _ _
      (fun a k => hx (ix2 a k)) (fun j => hb1 (ix1 j)) (fun j => hb2 (ix1 j)) (fun j => hb3 (ix1 j))) (i 0)) (i 1)).symm

end Cert.Proof.Claims

end
-- ==== Proof.lean ====
/-
  The certificate: the programs' stated facts are the generated witnesses; the five claims are proved in Proof/Claims.lean
  over the specification Proof/Spec.lean — the kernel's run read off the generated frame region by region (Proof/KernelRun.lean,
  Proof/Reg0.lean … Proof/Reg3.lean, Proof/HostK.lean, Proof/Chain.lean), the reference's run read stage by stage
  (Proof/RefValue.lean), and the two forms of the network joined on the extended reals (Proof/Bridge.lean) with the finiteness
  the precondition gives (Proof/Finite.lean).
-/
import proofs.«120646_j47201690583464_2_alg».proof.Defs
import proofs.«120646_j47201690583464_2_alg».proof.Proof.Gen.Kernel
import proofs.«120646_j47201690583464_2_alg».proof.Proof.Gen.Kernel.Skeleton
import proofs.«120646_j47201690583464_2_alg».proof.Proof.Gen.Kernel.Launch
import proofs.«120646_j47201690583464_2_alg».proof.Proof.Gen.Kernel.Points
import proofs.«120646_j47201690583464_2_alg».proof.Proof.Gen.Kernel.Frame
import proofs.«120646_j47201690583464_2_alg».proof.Proof.Gen.KernelIdeal
import proofs.«120646_j47201690583464_2_alg».proof.Proof.Gen.KernelIdeal.Skeleton
import proofs.«120646_j47201690583464_2_alg».proof.Proof.Gen.KernelIdeal.Launch
import proofs.«120646_j47201690583464_2_alg».proof.Proof.Gen.KernelIdeal.Points
import proofs.«120646_j47201690583464_2_alg».proof.Proof.Gen.KernelIdeal.Frame
import proofs.«120646_j47201690583464_2_alg».proof.Proof.Gen.ReferenceIdeal
import proofs.«120646_j47201690583464_2_alg».proof.Proof.Gen.Pre_finite_inputs
import proofs.«120646_j47201690583464_2_alg».proof.Proof.Claims
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, Claims.preserves, Claims.algebraic⟩

end Cert.Proof

end
